-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S128x128 : Shape := ⟨2, ![128, 128]⟩
abbrev S1x128 : Shape := ⟨2, ![1, 128]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1x128 .f32) (main_arg9 : FVec F S1 .f32) (main_v33 : IVec S_ 1) : IVec S_ 1 :=
  let main_v34 : FVec F S1x128 .f32 := Host.absf main_arg8
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S1x128 .f32) (main_arg9 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1600000 32) (main_arg2 : FVec F S128x64 .f32) (main_arg3 : FVec F S128 .f32) (main_arg4 : FVec F S128x64 .f32) (main_arg5 : FVec F S128x128 .f32) (main_arg6 : FVec F S128 .f32) (main_arg7 : FVec F S128x128 .f32) (main_arg8 : FVec F S1x128 .f32) (main_arg9 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S128x128 : Shape := ⟨2, ![128, 128]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S64x128 : Shape := ⟨2, ![64, 128]⟩
abbrev S100000x128 : Shape := ⟨2, ![100000, 128]⟩
abbrev S10000x64 : Shape := ⟨2, ![10000, 64]⟩
abbrev S10000x128 : Shape := ⟨2, ![10000, 128]⟩
abbrev S1600000x128 : Shape := ⟨2, ![1600000, 128]⟩
abbrev S128x1 : Shape := ⟨2, ![128, 1]⟩
abbrev S1x1 : Shape := ⟨2, ![1, 1]⟩
abbrev S100000x1 : Shape := ⟨2, ![100000, 1]⟩
abbrev S5000x128 : Shape := ⟨2, ![5000, 128]⟩
abbrev S5000x1 : Shape := ⟨2, ![5000, 1]⟩

abbrev nBuf : Space → Nat
  | .hbm => 86
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x128, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x64, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000, .f32⟩
  | .hbm, ⟨44, _⟩ => ⟨S1600000x1, .f32⟩
  | .hbm, ⟨45, _⟩ => ⟨S1600000x64, .f32⟩
  | .hbm, ⟨46, _⟩ => ⟨S1600000x64, .f32⟩
  | .hbm, ⟨47, _⟩ => ⟨S_, .f32⟩
  | .hbm, ⟨48, _⟩ => ⟨S100000x64, .f32⟩
  | .hbm, ⟨49, _⟩ => ⟨S1600000x1, .i32⟩
  | .hbm, ⟨50, _⟩ => ⟨S100000x64, .f32⟩
  | .hbm, ⟨51, _⟩ => ⟨S64x128, .f32⟩
  | .hbm, ⟨52, _⟩ => ⟨S64x128, .f32⟩
  | .hbm, ⟨53, _⟩ => ⟨S1x128, .f32⟩
  | .hbm, ⟨54, _⟩ => ⟨S100000x128, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x128, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000, .f32⟩
  | .hbm, ⟨73, _⟩ => ⟨S1600000x1, .f32⟩
  | .hbm, ⟨74, _⟩ => ⟨S1600000x128, .f32⟩
  | .hbm, ⟨75, _⟩ => ⟨S1600000x128, .f32⟩
  | .hbm, ⟨76, _⟩ => ⟨S_, .f32⟩
  | .hbm, ⟨77, _⟩ => ⟨S100000x128, .f32⟩
  | .hbm, ⟨78, _⟩ => ⟨S1600000x1, .i32⟩
  | .hbm, ⟨79, _⟩ => ⟨S100000x128, .f32⟩
  | .hbm, ⟨80, _⟩ => ⟨S128x128, .f32⟩
  | .hbm, ⟨81, _⟩ => ⟨S128x128, .f32⟩
  | .hbm, ⟨82, _⟩ => ⟨S1x128, .f32⟩
  | .hbm, ⟨83, _⟩ => ⟨S128x1, .f32⟩
  | .hbm, ⟨84, _⟩ => ⟨S1x1, .f32⟩
  | .hbm, ⟨85, _⟩ => ⟨S100000x1, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x128, .f32⟩
  | .local _ .vmem, ⟨5, _⟩ => ⟨S1x128, .f32⟩
  | .local _ .vmem, ⟨6, _⟩ => ⟨S64x128, .f32⟩
  | .local _ .vmem, ⟨7, _⟩ => ⟨S10000x128, .f32⟩
  | .local _ .vmem, ⟨8, _⟩ => ⟨S10000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S128x1, .f32⟩
  | .local _ .vmem, ⟨17, _⟩ => ⟨S1x1, .f32⟩
  | .local _ .vmem, ⟨18, _⟩ => ⟨S5000x1, .f32⟩
  | .local _ .vmem, ⟨19, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_9 : Ref sig .tc := ⟨.hbm, 64, rfl⟩
abbrev main_v43 : Ref sig .tc := ⟨.hbm, 65, rfl⟩
abbrev main_v44 : Ref sig .tc := ⟨.hbm, 66, rfl⟩
abbrev main_c_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  transposes_S128x64_S64x128_1_0 : S128x64.Transposes [1, 0] S64x128
  shapeCasts_S128_S1x128 : S128.ShapeCasts S1x128
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S128x128_S128x128_1_0 : S128x128.Transposes [1, 0] S128x128
  transposes_S1x128_S128x1_1_0 : S1x128.Transposes [1, 0] S128x1
  shapeCasts_S1_S1x1 : S1.ShapeCasts S1x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  gather_S100000_S1600000x1_S1600000_n_0_n_n_0_1_1_wf : GatherDims.WF S100000 S1600000x1 S1600000 [] [0] [] [0] [] 1 ![1]
  scatter_S100000x64_S1600000x1_S1600000x64_1_0_0_1_wf : ScatterDims.WF S100000x64 S1600000x1 S1600000x64 [1] [0] [0] 1
  dot_S10000x64_S64x128_S10000x128_1_0_0_1_n_n_wf : DotDims.WF S10000x64 S64x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S100000x128.size a
  hwx0_5 : ∀ i : grid0.Coords, EltTy.bits .f32 = 32 ∨ (Rect.block (s := S100000x128) S10000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x1.size a ≤ S128x1.size a
  hwx1_5 : ∀ i : grid1.Coords, EltTy.bits .f32 = 32 ∨ (Rect.block (s := S128x1) S128x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x1.size a ≤ S100000x1.size a
  hwx1_7 : ∀ i : grid1.Coords, EltTy.bits .f32 = 32 ∨ (Rect.block (s := S100000x1) S5000x1.size (cc1_transform_7 i) (hinb1_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v31) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v55) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v56) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v58) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v57) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v59) S128x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v60) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v61) S5000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S128x128 : Shape := ⟨2, ![128, 128]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S64x128 : Shape := ⟨2, ![64, 128]⟩
abbrev S100000x128 : Shape := ⟨2, ![100000, 128]⟩
abbrev S1600000x128 : Shape := ⟨2, ![1600000, 128]⟩
abbrev S128x1 : Shape := ⟨2, ![128, 1]⟩
abbrev S1x1 : Shape := ⟨2, ![1, 1]⟩

abbrev nBuf : Space → Nat
  | .hbm => 115
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x128, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S64x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S64x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .i1⟩
  | .hbm, ⟨50, _⟩ => ⟨S_, .f32⟩
  | .hbm, ⟨51, _⟩ => ⟨S100000x128, .f32⟩
  | .hbm, ⟨52, _⟩ => ⟨S100000x128, .i1⟩
  | .hbm, ⟨53, _⟩ => ⟨S_, .f32⟩
  | .hbm, ⟨54, _⟩ => ⟨S_, .f32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S_, .f32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x128, .f32⟩
  | .hbm, ⟨71, _⟩ => ⟨S_, .f32⟩
  | .hbm, ⟨72, _⟩ => ⟨S100000x128, .f32⟩
  | .hbm, ⟨73, _⟩ => ⟨S1600000x1, .i32⟩
  | .hbm, ⟨74, _⟩ => ⟨S100000x128, .f32⟩
  | .hbm, ⟨75, _⟩ => ⟨S_, .f32⟩
  | .hbm, ⟨76, _⟩ => ⟨S1600000, .f32⟩
  | .hbm, ⟨77, _⟩ => ⟨S_, .f32⟩
  | .hbm, ⟨78, _⟩ => ⟨S100000, .f32⟩
  | .hbm, ⟨79, _⟩ => ⟨S1600000x1, .i32⟩
  | .hbm, ⟨80, _⟩ => ⟨S100000, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S100000x1, .f32⟩
  | .hbm, ⟨85, _⟩ => ⟨S100000x128, .f32⟩
  | .hbm, ⟨86, _⟩ => ⟨S100000x128, .f32⟩
  | .hbm, ⟨87, _⟩ => ⟨S128x128, .f32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S128x128, .f32⟩
  | .hbm, ⟨93, _⟩ => ⟨S100000x128, .f32⟩
  | .hbm, ⟨94, _⟩ => ⟨S100000x128, .f32⟩
  | .hbm, ⟨95, _⟩ => ⟨S_, .f32⟩
  | .hbm, ⟨96, _⟩ => ⟨S100000x128, .f32⟩
  | .hbm, ⟨97, _⟩ => ⟨S100000x128, .i1⟩
  | .hbm, ⟨98, _⟩ => ⟨S_, .f32⟩
  | .hbm, ⟨99, _⟩ => ⟨S100000x128, .f32⟩
  | .hbm, ⟨100, _⟩ => ⟨S100000x128, .i1⟩
  | .hbm, ⟨101, _⟩ => ⟨S_, .f32⟩
  | .hbm, ⟨102, _⟩ => ⟨S_, .f32⟩
  | .hbm, ⟨103, _⟩ => ⟨S100000x128, .f32⟩
  | .hbm, ⟨104, _⟩ => ⟨S100000x128, .f32⟩
  | .hbm, ⟨105, _⟩ => ⟨S100000x128, .f32⟩
  | .hbm, ⟨106, _⟩ => ⟨S_, .f32⟩
  | .hbm, ⟨107, _⟩ => ⟨S100000x128, .f32⟩
  | .hbm, ⟨108, _⟩ => ⟨S100000x128, .f32⟩
  | .hbm, ⟨109, _⟩ => ⟨S100000x128, .f32⟩
  | .hbm, ⟨110, _⟩ => ⟨S128x1, .f32⟩
  | .hbm, ⟨111, _⟩ => ⟨S100000x1, .f32⟩
  | .hbm, ⟨112, _⟩ => ⟨S1x1, .f32⟩
  | .hbm, ⟨113, _⟩ => ⟨S100000x1, .f32⟩
  | .hbm, ⟨114, _⟩ => ⟨S100000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_cst_0 : Ref sig .tc := ⟨.hbm, 50, rfl⟩
abbrev main_call0_v2 : Ref sig .tc := ⟨.hbm, 51, rfl⟩
abbrev main_call0_v3 : Ref sig .tc := ⟨.hbm, 52, rfl⟩
abbrev main_call0_cst_1 : Ref sig .tc := ⟨.hbm, 53, rfl⟩
abbrev main_call0_call0_v0 : Ref sig .tc := ⟨.hbm, 54, rfl⟩
abbrev main_call0_call0_v1 : Ref sig .tc := ⟨.hbm, 55, rfl⟩
abbrev main_call0_v4 : Ref sig .tc := ⟨.hbm, 56, rfl⟩
abbrev main_call0_v5 : Ref sig .tc := ⟨.hbm, 57, rfl⟩
abbrev main_call0_cst_2 : Ref sig .tc := ⟨.hbm, 58, rfl⟩
abbrev main_call0_v6 : Ref sig .tc := ⟨.hbm, 59, rfl⟩
abbrev main_call0_v7 : Ref sig .tc := ⟨.hbm, 60, rfl⟩
abbrev main_v31 : Ref sig .tc := ⟨.hbm, 61, rfl⟩
abbrev main_c_4 : Ref sig .tc := ⟨.hbm, 62, rfl⟩
abbrev main_v32 : Ref sig .tc := ⟨.hbm, 63, rfl⟩
abbrev main_v33 : Ref sig .tc := ⟨.hbm, 64, rfl⟩
abbrev main_c_5 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_6 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_7 : Ref sig .tc := ⟨.hbm, 75, rfl⟩
abbrev main_v42 : Ref sig .tc := ⟨.hbm, 76, rfl⟩
abbrev main_cst_8 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_9 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_call1_cst : Ref sig .tc := ⟨.hbm, 95, rfl⟩
abbrev main_call1_v0 : Ref sig .tc := ⟨.hbm, 96, rfl⟩
abbrev main_call1_v1 : Ref sig .tc := ⟨.hbm, 97, rfl⟩
abbrev main_call1_cst_0 : Ref sig .tc := ⟨.hbm, 98, rfl⟩
abbrev main_call1_v2 : Ref sig .tc := ⟨.hbm, 99, rfl⟩
abbrev main_call1_v3 : Ref sig .tc := ⟨.hbm, 100, rfl⟩
abbrev main_call1_cst_1 : Ref sig .tc := ⟨.hbm, 101, rfl⟩
abbrev main_call1_call0_v0 : Ref sig .tc := ⟨.hbm, 102, rfl⟩
abbrev main_call1_call0_v1 : Ref sig .tc := ⟨.hbm, 103, rfl⟩
abbrev main_call1_v4 : Ref sig .tc := ⟨.hbm, 104, rfl⟩
abbrev main_call1_v5 : Ref sig .tc := ⟨.hbm, 105, rfl⟩
abbrev main_call1_cst_2 : Ref sig .tc := ⟨.hbm, 106, rfl⟩
abbrev main_call1_v6 : Ref sig .tc := ⟨.hbm, 107, rfl⟩
abbrev main_call1_v7 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  transposes_S1x128_S128x1_1_0 : S1x128.Transposes [1, 0] S128x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KerTerm.lean ====
/-
  The value the kernel program computes, as one function of its ten argument arrays, at the ideal instance
  (floats are extended reals).

  The program is a two-layer mean-aggregating graph convolution with a one-column linear head. With `src`, `dst`
  the two rows of the edge list, `deg n` the number of edges arriving at node `n` and `inv n = 1 / max (deg n) 1`:

    agg X (n, c)  = 0 + ∑ over the edges e arriving at n of  X (src e, c) · inv (dst e)        (host operations)
    layer A X     = elu (A · WlT + b + X · WrT)                                                 (the first region)
    out           = elu (A' · WlT' + b' + X' · WrT') · WhT + bh                                 (the second region)

  The host parts are written here in the program's own operations (a slice and a re-layout for each row of the edge
  list, the "negative index" normalisation, the row gather, the scatter-add); the two regions as whole-array
  functions read index by index.
-/
import proofs.«142712_j41575283426038_2_alg».proof.KernelIdeal
import Idealize.ShloMosaic.PureOps.Ideal
import Idealize.ShloMosaic.Lib.ValueIdx

noncomputable section

open scoped BigOperators

namespace Cert.KernelIdeal.Term

open Idealize.ShloMosaic Idealize.ShloMosaic.ValueIdx Cert.KernelIdeal
open Cert.KernelIdeal.Facts₀ Cert.KernelIdeal.Facts

variable [Cert.KernelIdeal.Facts]

/-! ## The host parts, in the program's operations -/

/-- Row 0 of the edge list: the edges' source nodes. -/
def src (ei : IVec S2x1600000 32) : IVec S1600000 32 :=
  shapeCast S1600000 (extractStridedSlice S1x1600000 ![0, 0] ei slices_S2x1600000_S1x1600000_0_0) shapeCasts_S1x1600000_S1600000

/-- Row 1 of the edge list: the edges' target nodes. -/
def dst (ei : IVec S2x1600000 32) : IVec S1600000 32 :=
  shapeCast S1600000 (extractStridedSlice S1x1600000 ![1, 0] ei slices_S2x1600000_S1x1600000_1_0) shapeCasts_S1x1600000_S1600000

/-- An index vector with the node count added to its negative entries. -/
def norm (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v

/-- An index vector as a one-column array. -/
def col (v : IVec S1600000 32) : IVec S1600000x1 32 :=
  broadcastInDim S1600000x1 ![0] bcast_S1600000_S1600000x1_0 v

/-- The in-degree of every node: a one added per arriving edge. -/
def deg (ei : IVec S2x1600000 32) : FVec Ideal S100000 .f32 :=
  Host.scatterAdd scatter_S100000_S1600000x1_S1600000_n_0_0_1
    (broadcastInDim S100000 ![] bcast_S_S100000 (constant (F := Ideal) S_ .f32 0x00000000#32))
    (col (dst ei))
    (broadcastInDim S1600000 ![] bcast_S_S1600000 (constant (F := Ideal) S_ .f32 0x3F800000#32))

/-- The in-degree clipped below at one. -/
def degc (ei : IVec S2x1600000 32) : FVec Ideal S100000 .f32 :=
  maximumf (deg ei) (broadcastInDim S100000 ![] bcast_S_S100000 (constant (F := Ideal) S_ .f32 0x3F800000#32))

/-- One over the clipped in-degree. -/
def inv (ei : IVec S2x1600000 32) : FVec Ideal S100000 .f32 :=
  Host.divf (broadcastInDim S100000 ![] bcast_S_S100000 (constant (F := Ideal) S_ .f32 0x3F800000#32)) (degc ei)

/-- The weight of every edge: one over the clipped in-degree of its target. -/
def wgt (ei : IVec S2x1600000 32) : FVec Ideal S1600000 .f32 :=
  Host.gather gather_S100000_S1600000x1_S1600000_n_0_n_n_0_1_1 (inv ei) (col (norm (dst ei)))

/-- The weighted neighbour sum of a 64-column table. -/
def agg64 (X : FVec Ideal S100000x64 .f32) (ei : IVec S2x1600000 32) : FVec Ideal S100000x64 .f32 :=
  Host.scatterAdd scatter_S100000x64_S1600000x1_S1600000x64_1_0_0_1
    (broadcastInDim S100000x64 ![] bcast_S_S100000x64 (constant (F := Ideal) S_ .f32 0x00000000#32))
    (col (dst ei))
    (mulf (Host.gather gather_S100000x64_S1600000x1_S1600000x64_1_0_n_n_0_1_164 X (col (norm (src ei))))
      (broadcastInDim S1600000x64 ![0, 1] bcast_S1600000x1_S1600000x64_0_1
        (broadcastInDim S1600000x1 ![0] bcast_S1600000_S1600000x1_0 (wgt ei))))

/-- The weighted neighbour sum of a 128-column table. -/
def agg128 (X : FVec Ideal S100000x128 .f32) (ei : IVec S2x1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (col (dst ei))
    (mulf (Host.gather gather_S100000x128_S1600000x1_S1600000x128_1_0_n_n_0_1_1128 X (col (norm (src ei))))
      (broadcastInDim S1600000x128 ![0, 1] bcast_S1600000x1_S1600000x128_0_1
        (broadcastInDim S1600000x1 ![0] bcast_S1600000_S1600000x1_0 (wgt ei))))

/-- A first-layer weight matrix transposed. -/
def wT64 (W : FVec Ideal S128x64 .f32) : FVec Ideal S64x128 .f32 := transpose S64x128 [1, 0] W transposes_S128x64_S64x128_1_0
/-- A second-layer weight matrix transposed. -/
def wT128 (W : FVec Ideal S128x128 .f32) : FVec Ideal S128x128 .f32 := transpose S128x128 [1, 0] W transposes_S128x128_S128x128_1_0
/-- The head's weight row transposed to a column. -/
def whT (W : FVec Ideal S1x128 .f32) : FVec Ideal S128x1 .f32 := transpose S128x1 [1, 0] W transposes_S1x128_S128x1_1_0
/-- A bias vector as a one-row array. -/
def row (b : FVec Ideal S128 .f32) : FVec Ideal S1x128 .f32 := shapeCast S1x128 b shapeCasts_S128_S1x128
/-- The head's bias as a one-entry array. -/
def one (b : FVec Ideal S1 .f32) : FVec Ideal S1x1 .f32 := shapeCast S1x1 b shapeCasts_S1_S1x1

/-! ## The two regions, as whole-array functions -/

/-- The exponential linear unit as the regions compute it: `h` above zero, `exp (min h 0) − 1` otherwise. -/
def eluK (h : EReal) : EReal :=
  Scalar.select (FloatOps.cmpf (F := Ideal) (φ := .f32) .ogt h (Ideal.ofBits .f32 0x00000000#32)) h
    (Ideal.exp (min h (Ideal.ofBits .f32 0x00000000#32)) - Ideal.ofBits .f32 0x3F800000#32)

/-- Entry `(n, j)` of `A · WlT + b + X · WrT`, the contraction over `K` columns. -/
def pre (K : Nat) (A X : (⟨2, ![100000, K]⟩ : Shape).Idx → EReal) (WlT WrT : (⟨2, ![K, 128]⟩ : Shape).Idx → EReal)
    (b : (⟨2, ![1, 128]⟩ : Shape).Idx → EReal) (n : Fin 100000) (j : Fin 128) : EReal :=
  (∑ k : Fin K, A (ix2 n k) * WlT (ix2 k j)) + b (ix2 0 j) + ∑ k : Fin K, X (ix2 n k) * WrT (ix2 k j)

/-- The first region: `elu (A · WlT + b + X · WrT)`, a `[100000, 128]` array. Arguments in the order of the
    region's operands. -/
def layer1 (A X : FVec Ideal S100000x64 .f32) (WlT : FVec Ideal S64x128 .f32) (b : FVec Ideal S1x128 .f32)
    (WrT : FVec Ideal S64x128 .f32) : FVec Ideal S100000x128 .f32 :=
  fun i => eluK (pre 64 A X WlT WrT b (i 0) (i 1))

/-- The second region: `elu (A · WlT + b + X · WrT) · WhT + bh`, a `[100000, 1]` array. Arguments in the order of
    the region's operands. -/
def layer2head (A X : FVec Ideal S100000x128 .f32) (WlT : FVec Ideal S128x128 .f32) (b : FVec Ideal S1x128 .f32)
    (WrT : FVec Ideal S128x128 .f32) (WhT : FVec Ideal S128x1 .f32) (bh : FVec Ideal S1x1 .f32) : FVec Ideal S100000x1 .f32 :=
  fun i => (∑ k : Fin 128, eluK (pre 128 A X WlT WrT b (i 0) k) * WhT (ix2 k 0)) + bh (ix2 0 0)

/-! ## The program's result -/

/-- The hidden layer: the first region over the aggregated and the own features. -/
def hidden (x : FVec Ideal S100000x64 .f32) (ei : IVec S2x1600000 32) (W1l : FVec Ideal S128x64 .f32)
    (b1l : FVec Ideal S128 .f32) (W1r : FVec Ideal S128x64 .f32) : FVec Ideal S100000x128 .f32 :=
  layer1 (agg64 x ei) x (wT64 W1l) (row b1l) (wT64 W1r)

/-- The program's result array. -/
def kernOut (x : FVec Ideal S100000x64 .f32) (ei : IVec S2x1600000 32) (W1l : FVec Ideal S128x64 .f32)
    (b1l : FVec Ideal S128 .f32) (W1r : FVec Ideal S128x64 .f32) (W2l : FVec Ideal S128x128 .f32)
    (b2l : FVec Ideal S128 .f32) (W2r : FVec Ideal S128x128 .f32) (Wh : FVec Ideal S1x128 .f32)
    (bh : FVec Ideal S1 .f32) : FVec Ideal S100000x1 .f32 :=
  layer2head (agg128 (hidden x ei W1l b1l W1r) ei) (hidden x ei W1l b1l W1r) (wT128 W2l) (row b2l) (wT128 W2r) (whT Wh) (one bh)

end Cert.KernelIdeal.Term

end
-- ==== Proof.KerRun.lean ====
import proofs.«142712_j41575283426038_2_alg».proof.Proof.Gen.KernelIdeal.Frame
import proofs.«142712_j41575283426038_2_alg».proof.Proof.KerTerm
import Idealize.ShloMosaic.Lib.StableHlo.Run

/-! # The kernel program's run with its result named

The program's run, from any launch memory, ends with the output buffer holding the second region's output array
and every argument as launched (`run_v61`). The output is then traced back to the launch memory, one named equation
per buffer and per stretch of host operations:

* the output buffer is the second region's output array;
* each of the second region's seven input arrays is what the second stretch of host operations leaves there: the
  weighted neighbour sum of the hidden layer, the hidden layer itself (the first region's output array, which the
  stretch does not write), and five re-layouts of argument arrays;
* the rows of the edge list and the inverse degrees the second stretch reads were left by the first stretch, and no
  region writes them;
* each of the first region's five input arrays is what the first stretch leaves there: the weighted neighbour sum
  of the features, the features themselves, and three re-layouts of argument arrays.

Given the two regions as whole-array functions of their input arrays, the output is the result function of the ten
argument arrays (`run`). No boundary's contents is ever unfolded: every step is an equation between named terms. -/

set_option maxRecDepth 16384

noncomputable section

namespace Cert.KernelIdeal.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

section AnyFloat

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run, with the output buffer's final contents named -/

set_option backward.isDefEq.respectTransparency.types false in
/-- From any memory with zero counters, every weakly fair execution of the program on the TensorCores terminates,
    nothing faulting; in every final state the output buffer holds the last boundary's contents at that buffer,
    and every argument array is as launched. -/
theorem run_v61 : θ_run defs (onTc (τ := τ) (main (F := F))) ⟨m, fun _ => 0, ρ⟩ (fun r => ∀ c : Dev nD,
      r.2.mem ((c.tc : Thread nD τ).loc main_v61) = Gen.W4 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (Gen.mem_uc main_v61 (by decide)),
       (h c _ (Gen.mem_uc main_arg0 (by decide))).trans (Gen.W4_main_arg0 m ρ c),
       (h c _ (Gen.mem_uc main_arg1 (by decide))).trans (Gen.W4_main_arg1 m ρ c),
       (h c _ (Gen.mem_uc main_arg2 (by decide))).trans (Gen.W4_main_arg2 m ρ c),
       (h c _ (Gen.mem_uc main_arg3 (by decide))).trans (Gen.W4_main_arg3 m ρ c),
       (h c _ (Gen.mem_uc main_arg4 (by decide))).trans (Gen.W4_main_arg4 m ρ c),
       (h c _ (Gen.mem_uc main_arg5 (by decide))).trans (Gen.W4_main_arg5 m ρ c),
       (h c _ (Gen.mem_uc main_arg6 (by decide))).trans (Gen.W4_main_arg6 m ρ c),
       (h c _ (Gen.mem_uc main_arg7 (by decide))).trans (Gen.W4_main_arg7 m ρ c),
       (h c _ (Gen.mem_uc main_arg8 (by decide))).trans (Gen.W4_main_arg8 m ρ c),
       (h c _ (Gen.mem_uc main_arg9 (by decide))).trans (Gen.W4_main_arg9 m ρ c)⟩)

end AnyFloat

/-! ## At the ideal instance: the host stretches read back -/

section Ideal

/-! ### The first stretch of host operations, from any contents `W`

Each result buffer holds the composition of the printed operations over `W`'s argument buffers: one pass over the
stretch rewrites every operation's result at its own buffer to its function's value and at any other buffer to what
was there; what is left is the named term with its names opened. -/

set_option maxHeartbeats 1000000 in
/-- The first stretch leaves the edges' source nodes (row 0 of the edge list, re-laid as a vector) in buffer 1. -/
theorem host0_v1 (W : Valuation τ sig (Elt Ideal)) :
    StableHlo.after hostOps0 W (Proc.devRef .tc main_v1) = Term.src (W (Proc.devRef .tc main_arg1)) := by
  dsimp only [hostOps0]
  after_results_simp
  unfold Term.src
  rfl

set_option maxHeartbeats 1000000 in
/-- The first stretch leaves the edges' target nodes (row 1 of the edge list) in buffer 3. -/
theorem host0_v3 (W : Valuation τ sig (Elt Ideal)) :
    StableHlo.after hostOps0 W (Proc.devRef .tc main_v3) = Term.dst (W (Proc.devRef .tc main_arg1)) := by
  dsimp only [hostOps0]
  after_results_simp
  unfold Term.dst
  rfl

set_option maxHeartbeats 1000000 in
/-- The first stretch leaves one over the clipped in-degree of every node in buffer 11. -/
theorem host0_v11 (W : Valuation τ sig (Elt Ideal)) :
    StableHlo.after hostOps0 W (Proc.devRef .tc main_v11) = Term.inv (W (Proc.devRef .tc main_arg1)) := by
  dsimp only [hostOps0]
  after_results_simp
  unfold Term.inv Term.degc Term.deg Term.col Term.dst
  rfl

set_option maxHeartbeats 1000000 in
/-- The first stretch leaves the weighted neighbour sum of the features in buffer 31, the first region's first input array. -/
theorem host0_v31 (W : Valuation τ sig (Elt Ideal)) :
    StableHlo.after hostOps0 W (Proc.devRef .tc main_v31) = Term.agg64 (W (Proc.devRef .tc main_arg0)) (W (Proc.devRef .tc main_arg1)) := by
  dsimp only [hostOps0]
  after_results_simp
  unfold Term.agg64 Term.wgt Term.inv Term.degc Term.deg Term.col Term.norm Term.src Term.dst
  rfl

set_option maxHeartbeats 1000000 in
/-- The first stretch leaves the first layer's neighbour weights transposed in buffer 32. -/
theorem host0_v32 (W : Valuation τ sig (Elt Ideal)) :
    StableHlo.after hostOps0 W (Proc.devRef .tc main_v32) = Term.wT64 (W (Proc.devRef .tc main_arg2)) := by
  dsimp only [hostOps0]
  after_results_simp
  unfold Term.wT64
  rfl

set_option maxHeartbeats 1000000 in
/-- The first stretch leaves the first layer's own-feature weights transposed in buffer 33. -/
theorem host0_v33 (W : Valuation τ sig (Elt Ideal)) :
    StableHlo.after hostOps0 W (Proc.devRef .tc main_v33) = Term.wT64 (W (Proc.devRef .tc main_arg4)) := by
  dsimp only [hostOps0]
  after_results_simp
  unfold Term.wT64
  rfl

set_option maxHeartbeats 1000000 in
/-- The first stretch leaves the first layer's bias as a one-row array in buffer 34. -/
theorem host0_v34 (W : Valuation τ sig (Elt Ideal)) :
    StableHlo.after hostOps0 W (Proc.devRef .tc main_v34) = Term.row (W (Proc.devRef .tc main_arg3)) := by
  dsimp only [hostOps0]
  after_results_simp
  unfold Term.row
  rfl

/-! No operation of the first stretch writes an argument array. -/

theorem host0_arg0 (W : Valuation τ sig (Elt Ideal)) :
    StableHlo.after hostOps0 W (Proc.devRef .tc main_arg0) = W (Proc.devRef .tc main_arg0) := by
  dsimp only [hostOps0]
  after_results_simp

theorem host0_arg1 (W : Valuation τ sig (Elt Ideal)) :
    StableHlo.after hostOps0 W (Proc.devRef .tc main_arg1) = W (Proc.devRef .tc main_arg1) := by
  dsimp only [hostOps0]
  after_results_simp

theorem host0_arg2 (W : Valuation τ sig (Elt Ideal)) :
    StableHlo.after hostOps0 W (Proc.devRef .tc main_arg2) = W (Proc.devRef .tc main_arg2) := by
  dsimp only [hostOps0]
  after_results_simp

theorem host0_arg3 (W : Valuation τ sig (Elt Ideal)) :
    StableHlo.after hostOps0 W (Proc.devRef .tc main_arg3) = W (Proc.devRef .tc main_arg3) := by
  dsimp only [hostOps0]
  after_results_simp

theorem host0_arg4 (W : Valuation τ sig (Elt Ideal)) :
    StableHlo.after hostOps0 W (Proc.devRef .tc main_arg4) = W (Proc.devRef .tc main_arg4) := by
  dsimp only [hostOps0]
  after_results_simp

theorem host0_arg5 (W : Valuation τ sig (Elt Ideal)) :
    StableHlo.after hostOps0 W (Proc.devRef .tc main_arg5) = W (Proc.devRef .tc main_arg5) := by
  dsimp only [hostOps0]
  after_results_simp

theorem host0_arg6 (W : Valuation τ sig (Elt Ideal)) :
    StableHlo.after hostOps0 W (Proc.devRef .tc main_arg6) = W (Proc.devRef .tc main_arg6) := by
  dsimp only [hostOps0]
  after_results_simp

theorem host0_arg7 (W : Valuation τ sig (Elt Ideal)) :
    StableHlo.after hostOps0 W (Proc.devRef .tc main_arg7) = W (Proc.devRef .tc main_arg7) := by
  dsimp only [hostOps0]
  after_results_simp

theorem host0_arg8 (W : Valuation τ sig (Elt Ideal)) :
    StableHlo.after hostOps0 W (Proc.devRef .tc main_arg8) = W (Proc.devRef .tc main_arg8) := by
  dsimp only [hostOps0]
  after_results_simp

theorem host0_arg9 (W : Valuation τ sig (Elt Ideal)) :
    StableHlo.after hostOps0 W (Proc.devRef .tc main_arg9) = W (Proc.devRef .tc main_arg9) := by
  dsimp only [hostOps0]
  after_results_simp

/-! ### The second stretch of host operations, from any contents `W` -/

set_option maxHeartbeats 1000000 in
/-- The second stretch leaves in buffer 55, the second region's first input array, the weighted neighbour sum of the
    table it finds in buffer 35 — given that buffers 1, 3 and 11 hold the edges' source nodes, their target nodes
    and the inverse clipped in-degrees of one edge list `ei`. -/
theorem host1_v55 (W : Valuation τ sig (Elt Ideal)) (ei : IVec S2x1600000 32)
    (h1 : W (Proc.devRef .tc main_v1) = Term.src ei) (h3 : W (Proc.devRef .tc main_v3) = Term.dst ei)
    (h11 : W (Proc.devRef .tc main_v11) = Term.inv ei) :
    StableHlo.after hostOps1 W (Proc.devRef .tc main_v55) = Term.agg128 (W (Proc.devRef .tc main_v35)) ei := by
  dsimp only [hostOps1]
  after_results_simp
  rw [h1, h3, h11]
  unfold Term.agg128 Term.wgt Term.col Term.norm
  rfl

/-- No operation of the second stretch writes buffer 35 (the first region's output array). -/
theorem host1_v35 (W : Valuation τ sig (Elt Ideal)) :
    StableHlo.after hostOps1 W (Proc.devRef .tc main_v35) = W (Proc.devRef .tc main_v35) := by
  dsimp only [hostOps1]
  after_results_simp

/-- The second stretch leaves the second layer's neighbour weights transposed in buffer 56. -/
theorem host1_v56 (W : Valuation τ sig (Elt Ideal)) :
    StableHlo.after hostOps1 W (Proc.devRef .tc main_v56) = Term.wT128 (W (Proc.devRef .tc main_arg5)) := by
  dsimp only [hostOps1]
  after_results_simp
  unfold Term.wT128
  rfl

/-- The second stretch leaves the second layer's own-feature weights transposed in buffer 57. -/
theorem host1_v57 (W : Valuation τ sig (Elt Ideal)) :
    StableHlo.after hostOps1 W (Proc.devRef .tc main_v57) = Term.wT128 (W (Proc.devRef .tc main_arg7)) := by
  dsimp only [hostOps1]
  after_results_simp
  unfold Term.wT128
  rfl

/-- The second stretch leaves the second layer's bias as a one-row array in buffer 58. -/
theorem host1_v58 (W : Valuation τ sig (Elt Ideal)) :
    StableHlo.after hostOps1 W (Proc.devRef .tc main_v58) = Term.row (W (Proc.devRef .tc main_arg6)) := by
  dsimp only [hostOps1]
  after_results_simp
  unfold Term.row
  rfl

/-- The second stretch leaves the head's weight row transposed to a column in buffer 59. -/
theorem host1_v59 (W : Valuation τ sig (Elt Ideal)) :
    StableHlo.after hostOps1 W (Proc.devRef .tc main_v59) = Term.whT (W (Proc.devRef .tc main_arg8)) := by
  dsimp only [hostOps1]
  after_results_simp
  unfold Term.whT
  rfl

/-- The second stretch leaves the head's bias as a one-entry array in buffer 60. -/
theorem host1_v60 (W : Valuation τ sig (Elt Ideal)) :
    StableHlo.after hostOps1 W (Proc.devRef .tc main_v60) = Term.one (W (Proc.devRef .tc main_arg9)) := by
  dsimp only [hostOps1]
  after_results_simp
  unfold Term.one
  rfl

/-! ### The boundaries' contents at the buffers the regions and the stretches read

The launch contents at an argument's buffer are the launch memory's, by definition. The first stretch runs from the
launch contents; the first region keeps every buffer but its output array; the second stretch runs from the first
region's exit contents; the second region keeps every buffer but its output array. -/

variable (m : (ℓ : Loc nD τ sig) → Buf (Elt Ideal) ℓ) (ρ : Dev nD → PrngReg)

/-! #### The first region's entry: its five input arrays -/

/-- The first region's first input array: the weighted neighbour sum of the features. -/
theorem V1_v31 (c : Dev nD) : Gen.V1 m ρ c main_v31 = Term.agg64 (m ((c : Thread nD τ).loc main_arg0)) (m ((c : Thread nD τ).loc main_arg1)) :=
  host0_v31 (Gen.W0 m ρ c)
/-- Its second input array: the features as launched. -/
theorem V1_arg0 (c : Dev nD) : Gen.V1 m ρ c main_arg0 = m ((c : Thread nD τ).loc main_arg0) :=
  host0_arg0 (Gen.W0 m ρ c)
/-- Its third input array: the first layer's neighbour weights transposed. -/
theorem V1_v32 (c : Dev nD) : Gen.V1 m ρ c main_v32 = Term.wT64 (m ((c : Thread nD τ).loc main_arg2)) :=
  host0_v32 (Gen.W0 m ρ c)
/-- Its fourth input array: the first layer's bias as a row. -/
theorem V1_v34 (c : Dev nD) : Gen.V1 m ρ c main_v34 = Term.row (m ((c : Thread nD τ).loc main_arg3)) :=
  host0_v34 (Gen.W0 m ρ c)
/-- Its fifth input array: the first layer's own-feature weights transposed. -/
theorem V1_v33 (c : Dev nD) : Gen.V1 m ρ c main_v33 = Term.wT64 (m ((c : Thread nD τ).loc main_arg4)) :=
  host0_v33 (Gen.W0 m ρ c)

/-! #### The first region's exit: its output array, and the buffers the second stretch reads -/

/-- Buffer 35 is the first region's output array: it holds what the region's write-backs leave. -/
theorem W2_v35 (c : Dev nD) :
    Gen.W2 m ρ c (Proc.devRef .tc main_v35) = (Gen.dat0 (Gen.V1 m ρ) c).arrAt 5 cfg0.N :=
  Gen.W2_arr m ρ c 5
/-- Buffer 1 is none of the first region's arrays: it still holds the edges' source nodes. -/
theorem W2_v1 (c : Dev nD) : Gen.W2 m ρ c (Proc.devRef .tc main_v1) = Term.src (m ((c : Thread nD τ).loc main_arg1)) :=
  (Gen.W2_of_ne m ρ c main_v1 (by decide)).trans (host0_v1 (Gen.W0 m ρ c))
/-- Buffer 3 is none of the first region's arrays: it still holds the edges' target nodes. -/
theorem W2_v3 (c : Dev nD) : Gen.W2 m ρ c (Proc.devRef .tc main_v3) = Term.dst (m ((c : Thread nD τ).loc main_arg1)) :=
  (Gen.W2_of_ne m ρ c main_v3 (by decide)).trans (host0_v3 (Gen.W0 m ρ c))
/-- Buffer 11 is none of the first region's arrays: it still holds the inverse clipped in-degrees. -/
theorem W2_v11 (c : Dev nD) : Gen.W2 m ρ c (Proc.devRef .tc main_v11) = Term.inv (m ((c : Thread nD τ).loc main_arg1)) :=
  (Gen.W2_of_ne m ρ c main_v11 (by decide)).trans (host0_v11 (Gen.W0 m ρ c))
/-- Argument 5 is none of the first region's arrays and no operation of the first stretch writes it. -/
theorem W2_arg5 (c : Dev nD) : Gen.W2 m ρ c (Proc.devRef .tc main_arg5) = m ((c : Thread nD τ).loc main_arg5) :=
  (Gen.W2_of_ne m ρ c main_arg5 (by decide)).trans (host0_arg5 (Gen.W0 m ρ c))
/-- Argument 6 is none of the first region's arrays and no operation of the first stretch writes it. -/
theorem W2_arg6 (c : Dev nD) : Gen.W2 m ρ c (Proc.devRef .tc main_arg6) = m ((c : Thread nD τ).loc main_arg6) :=
  (Gen.W2_of_ne m ρ c main_arg6 (by decide)).trans (host0_arg6 (Gen.W0 m ρ c))
/-- Argument 7 is none of the first region's arrays and no operation of the first stretch writes it. -/
theorem W2_arg7 (c : Dev nD) : Gen.W2 m ρ c (Proc.devRef .tc main_arg7) = m ((c : Thread nD τ).loc main_arg7) :=
  (Gen.W2_of_ne m ρ c main_arg7 (by decide)).trans (host0_arg7 (Gen.W0 m ρ c))
/-- Argument 8 is none of the first region's arrays and no operation of the first stretch writes it. -/
theorem W2_arg8 (c : Dev nD) : Gen.W2 m ρ c (Proc.devRef .tc main_arg8) = m ((c : Thread nD τ).loc main_arg8) :=
  (Gen.W2_of_ne m ρ c main_arg8 (by decide)).trans (host0_arg8 (Gen.W0 m ρ c))
/-- Argument 9 is none of the first region's arrays and no operation of the first stretch writes it. -/
theorem W2_arg9 (c : Dev nD) : Gen.W2 m ρ c (Proc.devRef .tc main_arg9) = m ((c : Thread nD τ).loc main_arg9) :=
  (Gen.W2_of_ne m ρ c main_arg9 (by decide)).trans (host0_arg9 (Gen.W0 m ρ c))

/-! #### The second region's entry: its seven input arrays -/

/-- The second region's first input array: the weighted neighbour sum of the first region's output array. -/
theorem V3_v55 (c : Dev nD) :
    Gen.V3 m ρ c main_v55 = Term.agg128 (Gen.W2 m ρ c (Proc.devRef .tc main_v35)) (m ((c : Thread nD τ).loc main_arg1)) :=
  host1_v55 (Gen.W2 m ρ c) _ (W2_v1 m ρ c) (W2_v3 m ρ c) (W2_v11 m ρ c)
/-- Its second input array: the first region's output array, as the region left it. -/
theorem V3_v35 (c : Dev nD) : Gen.V3 m ρ c main_v35 = Gen.W2 m ρ c (Proc.devRef .tc main_v35) :=
  host1_v35 (Gen.W2 m ρ c)
/-- Its third input array: the second layer's neighbour weights transposed. -/
theorem V3_v56 (c : Dev nD) : Gen.V3 m ρ c main_v56 = Term.wT128 (m ((c : Thread nD τ).loc main_arg5)) :=
  (host1_v56 (Gen.W2 m ρ c)).trans (congrArg Term.wT128 (W2_arg5 m ρ c))
/-- Its fourth input array: the second layer's bias as a row. -/
theorem V3_v58 (c : Dev nD) : Gen.V3 m ρ c main_v58 = Term.row (m ((c : Thread nD τ).loc main_arg6)) :=
  (host1_v58 (Gen.W2 m ρ c)).trans (congrArg Term.row (W2_arg6 m ρ c))
/-- Its fifth input array: the second layer's own-feature weights transposed. -/
theorem V3_v57 (c : Dev nD) : Gen.V3 m ρ c main_v57 = Term.wT128 (m ((c : Thread nD τ).loc main_arg7)) :=
  (host1_v57 (Gen.W2 m ρ c)).trans (congrArg Term.wT128 (W2_arg7 m ρ c))
/-- Its sixth input array: the head's weight row as a column. -/
theorem V3_v59 (c : Dev nD) : Gen.V3 m ρ c main_v59 = Term.whT (m ((c : Thread nD τ).loc main_arg8)) :=
  (host1_v59 (Gen.W2 m ρ c)).trans (congrArg Term.whT (W2_arg8 m ρ c))
/-- Its seventh input array: the head's bias as a one-entry array. -/
theorem V3_v60 (c : Dev nD) : Gen.V3 m ρ c main_v60 = Term.one (m ((c : Thread nD τ).loc main_arg9)) :=
  (host1_v60 (Gen.W2 m ρ c)).trans (congrArg Term.one (W2_arg9 m ρ c))

/-! #### The second region's exit: the output buffer -/

/-- The output buffer is the second region's output array: it holds what the region's write-backs leave. -/
theorem W4_v61 (c : Dev nD) :
    Gen.W4 m ρ c (Proc.devRef .tc main_v61) = (Gen.dat1 (Gen.V3 m ρ) c).arrAt 7 cfg1.N :=
  Gen.W4_arr m ρ c 7

/-! ## The result, given the two regions as whole-array functions

With the first region's output array the first layer of its five input arrays, and the second region's the second
layer and head of its seven, the output buffer holds the result function of the ten argument arrays: the hidden
layer is the first layer over the features' neighbour sum and the features; the result is the second layer and head
over the hidden layer's neighbour sum and the hidden layer. -/

theorem out_eq
    (h0 : ∀ (V : (c : Dev nD) → (b : Ref sig .tc) → Buf (Elt Ideal) ((c : Thread nD τ).loc b)) (c : Dev nD),
      (Gen.dat0 V c).arrAt 5 cfg0.N
        = Term.layer1 (V c main_v31) (V c main_arg0) (V c main_v32) (V c main_v34) (V c main_v33))
    (h1 : ∀ (V : (c : Dev nD) → (b : Ref sig .tc) → Buf (Elt Ideal) ((c : Thread nD τ).loc b)) (c : Dev nD),
      (Gen.dat1 V c).arrAt 7 cfg1.N
        = Term.layer2head (V c main_v55) (V c main_v35) (V c main_v56) (V c main_v58) (V c main_v57) (V c main_v59) (V c main_v60))
    (c : Dev nD) :
    Gen.W4 m ρ c (Proc.devRef .tc main_v61)
      = Term.kernOut
        (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7))
        (m ((c : Thread nD τ).loc main_arg8))
        (m ((c : Thread nD τ).loc main_arg9)) := by
  rw [W4_v61 m ρ c, h1 (Gen.V3 m ρ) c, V3_v55 m ρ c, V3_v35 m ρ c, V3_v56 m ρ c, V3_v58 m ρ c, V3_v57 m ρ c,
    V3_v59 m ρ c, V3_v60 m ρ c, W2_v35 m ρ c, h0 (Gen.V1 m ρ) c, V1_v31 m ρ c, V1_arg0 m ρ c, V1_v32 m ρ c,
    V1_v34 m ρ c, V1_v33 m ρ c]
  unfold Term.kernOut Term.hidden
  rfl

/-- THE RUN WITH ITS RESULT: from any memory with zero counters, every weakly fair execution of the program on the
    TensorCores terminates, nothing faulting; in every final state the output buffer holds the result function of the
    ten argument arrays as launched, and every argument array is as launched. -/
theorem run
    (h0 : ∀ (V : (c : Dev nD) → (b : Ref sig .tc) → Buf (Elt Ideal) ((c : Thread nD τ).loc b)) (c : Dev nD),
      (Gen.dat0 V c).arrAt 5 cfg0.N
        = Term.layer1 (V c main_v31) (V c main_arg0) (V c main_v32) (V c main_v34) (V c main_v33))
    (h1 : ∀ (V : (c : Dev nD) → (b : Ref sig .tc) → Buf (Elt Ideal) ((c : Thread nD τ).loc b)) (c : Dev nD),
      (Gen.dat1 V c).arrAt 7 cfg1.N
        = Term.layer2head (V c main_v55) (V c main_v35) (V c main_v56) (V c main_v58) (V c main_v57) (V c main_v59) (V c main_v60)) :
    θ_run (defs (F := Ideal)) (onTc (τ := τ) (main (F := Ideal))) ⟨m, fun _ => 0, ρ⟩ (fun r => ∀ c : Dev nD,
      r.2.mem ((c.tc : Thread nD τ).loc main_v61)
        = Term.kernOut
        (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (out_eq m ρ h0 h1 c), (h c).2⟩) (run_v61 m ρ)

end Ideal

end Cert.KernelIdeal.HandRun

end
-- ==== Proof.KerRegion0.lean ====
/-
  The first region's output array as one function of the arrays the region finds.

  The region runs over 10 grid points. At point t the body loads rows 10000 t … 10000 t + 9999 of the aggregated
  features A and of the own features X (two [10000, 64] blocks), the whole weight matrices WlT, WrT ([64, 128]) and
  the bias row b ([1, 128]), and stores the [10000, 128] block

      elu (A_t · WlT + b + X_t · WrT),     elu h = h above zero, exp (min h 0) − 1 otherwise,

  which is written back as rows 10000 t … 10000 t + 9999 of the [100000, 128] result. Read at the ideal values a
  matrix product into a zero accumulator is the exact sum over the contracted coordinate, the format changes are the
  identity and the bias row is read at column q whatever the row; so the stored block at (p, q) is the layer's entry
  (10000 t + p, q) of Term.layer1. Every row r of the result lies in the block of point r / 10000, hence the array
  after the run is Term.layer1 of the five arrays.
-/
import proofs.«142712_j41575283426038_2_alg».proof.Proof.Gen.KernelIdeal.Frame
import proofs.«142712_j41575283426038_2_alg».proof.Proof.KerTerm
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
open scoped BigOperators

namespace Cert.KernelIdeal.Region0

open Cert.KernelIdeal Cert.KernelIdeal.Gen

theorem zero_offsets : (![0, 0] : Fin 2 → Nat) = fun _ => 0 := funext fun a => by fin_cases a <;> rfl

theorem lhs0_a (i : S10000x128.Idx) (q : dot_S10000x64_S64x128_S10000x128_1_0_0_1_n_n.contr.Idx) : (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
theorem lhs1_a (i : S10000x128.Idx) (q : dot_S10000x64_S64x128_S10000x128_1_0_0_1_n_n.contr.Idx) : (dot_S10000x64_S64x128_S10000x128_1_0_0_1_n_n.lhsIdx i q 1).val = (q ⟨0, by decide⟩).val :=
  dot_S10000x64_S64x128_S10000x128_1_0_0_1_n_n.lhsIdx_val_of_single rfl i q
theorem rhs0_a (i : S10000x128.Idx) (q : dot_S10000x64_S64x128_S10000x128_1_0_0_1_n_n.contr.Idx) : (dot_S10000x64_S64x128_S10000x128_1_0_0_1_n_n.rhsIdx i q 0).val = (q ⟨0, by decide⟩).val :=
  dot_S10000x64_S64x128_S10000x128_1_0_0_1_n_n.rhsIdx_val_of_single rfl i q
theorem rhs1_a (i : S10000x128.Idx) (q : dot_S10000x64_S64x128_S10000x128_1_0_0_1_n_n.contr.Idx) : (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

theorem matmul_at (A : FVec Ideal S10000x64 .bf16) (W : FVec Ideal S64x128 .bf16) (p : Fin 10000) (q : Fin 128) :
    matmul dot_S10000x64_S64x128_S10000x128_1_0_0_1_n_n none A W (constant (F := Ideal) S10000x128 .f32 0x00000000#32) (ix2 p q)
      = ∑ k : Fin 64, A (ix2 p k) * W (ix2 k q) := by
  show FloatOps.matmul _ none A W _ (ix2 p q) = _
  rw [Ideal.matmul_constant_zero_apply,
    ← Equiv.sum_comp (contrEquiv1 dot_S10000x64_S64x128_S10000x128_1_0_0_1_n_n 64 rfl rfl).symm]
  refine Finset.sum_congr rfl fun k _ => ?_
  have hk := contrEquiv1_symm_val dot_S10000x64_S64x128_S10000x128_1_0_0_1_n_n 64 rfl rfl k
  have el : dot_S10000x64_S64x128_S10000x128_1_0_0_1_n_n.lhsIdx (ix2 p q) ((contrEquiv1 dot_S10000x64_S64x128_S10000x128_1_0_0_1_n_n 64 rfl rfl).symm k) = ix2 p k :=
    funext fun a => Fin.ext (by
      match a with
      | ⟨0, _⟩ => exact lhs0_a _ _
      | ⟨1, _⟩ => exact (lhs1_a _ _).trans hk)
  have er : dot_S10000x64_S64x128_S10000x128_1_0_0_1_n_n.rhsIdx (ix2 p q) ((contrEquiv1 dot_S10000x64_S64x128_S10000x128_1_0_0_1_n_n 64 rfl rfl).symm k) = ix2 k q :=
    funext fun a => Fin.ext (by
      match a with
      | ⟨0, _⟩ => exact (rhs0_a _ _).trans hk
      | ⟨1, _⟩ => exact rhs1_a _ _)
  rw [el, er]

/-- The exponential linear unit as the body spells it, read at an index. -/
theorem elu_at {s : Shape} (v : FVec Ideal s .f32) (i : s.Idx) :
    select (cmpf .ogt v (broadcast s (Scalar.ofBits (F := Ideal) .f32 0x00000000#32))) v
      (subf (exp (minimumf v (broadcast s (Scalar.ofBits (F := Ideal) .f32 0x00000000#32))))
        (broadcast s (Scalar.ofBits (F := Ideal) .f32 0x3F800000#32))) i = Term.eluK (v i) := rfl

/-- The body's stored value at row p, column q of its block. -/
theorem pay_at (x0 x1 : Vec Ideal S10000x64 .f32) (w0 w1 : Vec Ideal S64x128 .f32) (b : Vec Ideal S1x128 .f32)
    (p : Fin 10000) (q : Fin 128) :
    k0_pay1 (F := Ideal) x0 x1 w0 w1 b (ix2 p q)
      = Term.eluK ((∑ k : Fin 64, x0 (ix2 p k) * w0 (ix2 k q)) + b (ix2 0 q) + ∑ k : Fin 64, x1 (ix2 p k) * w1 (ix2 k q)) := by
  unfold k0_pay1
  simp only [shapeCast_self]
  refine (elu_at _ _).trans (congrArg Term.eluK ?_)
  rw [addf_apply, addf_apply, matmul_at, matmul_at, broadcastTo_1b_ab_apply]
  rfl

variable (V : (c : Dev nD) → (b : Ref sig .tc) → Buf (Elt Ideal) ((c : Thread nD τ).loc b))

/-- The body's stored value at a block position, over rows of whole arrays: when row p of the two row blocks
    is row n of the arrays, the stored value is the layer at (n, q). -/
theorem pay_layer1 (x0 x1 : Vec Ideal S10000x64 .f32) (w0 w1 : Vec Ideal S64x128 .f32) (b : Vec Ideal S1x128 .f32)
    (A X : FVec Ideal S100000x64 .f32) (p : Fin 10000) (q : Fin 128) (n : Fin 100000)
    (h0 : ∀ k : Fin 64, x0 (ix2 p k) = A (ix2 n k)) (h1 : ∀ k : Fin 64, x1 (ix2 p k) = X (ix2 n k)) :
    k0_pay1 (F := Ideal) x0 x1 w0 w1 b (ix2 p q) = Term.layer1 A X w0 b w1 (ix2 n q) := by
  rw [pay_at]
  unfold Term.layer1 Term.pre
  simp only [h0, h1]

/-- The printed index maps over the grid: the row-block windows sit at block (t, 0), the weight and bias windows at (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A whole-array window's block is the array. -/
theorem blk2_eq (c : Dev nD) (t : Fin cfg0.N) : (iblk0 V c 2 t : Vec Ideal S64x128 .f32) = V c main_v32 := by
  obtain ⟨-, -, -, -, e0, e1, -⟩ := block_indices t
  funext y
  show V c main_v32 (((cfg0.win 2).blk t).view.emb y) = V c main_v32 y
  refine congrArg _ (funext fun a => Fin.ext ?_)
  match a with
  | ⟨0, _⟩ => show win0_2.index t (0 : Fin 2) * 64 + 1 * (y 0).val = (y 0).val; rw [e0]; omega
  | ⟨1, _⟩ => show win0_2.index t (1 : Fin 2) * 128 + 1 * (y 1).val = (y 1).val; rw [e1]; omega

theorem blk3_eq (c : Dev nD) (t : Fin cfg0.N) : (iblk0 V c 3 t : Vec Ideal S1x128 .f32) = V c main_v34 := by
  obtain ⟨-, -, -, -, -, -, e0, e1, -⟩ := block_indices t
  funext y
  show V c main_v34 (((cfg0.win 3).blk t).view.emb y) = V c main_v34 y
  refine congrArg _ (funext fun a => Fin.ext ?_)
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

theorem blk4_eq (c : Dev nD) (t : Fin cfg0.N) : (iblk0 V c 4 t : Vec Ideal S64x128 .f32) = V c main_v33 := by
  obtain ⟨-, -, -, -, -, -, -, -, e0, e1, -⟩ := block_indices t
  funext y
  show V c main_v33 (((cfg0.win 4).blk t).view.emb y) = V c main_v33 y
  refine congrArg _ (funext fun a => Fin.ext ?_)
  match a with
  | ⟨0, _⟩ => show win0_4.index t (0 : Fin 2) * 64 + 1 * (y 0).val = (y 0).val; rw [e0]; omega
  | ⟨1, _⟩ => show win0_4.index t (1 : Fin 2) * 128 + 1 * (y 1).val = (y 1).val; rw [e1]; omega

/-- Row p of the first row-block window at point t is row 10000 t + p of its array. -/
theorem blk0_at (c : Dev nD) (t : Fin cfg0.N) (p : Fin 10000) (k : Fin 64) (n : Fin 100000) (hn : n.val = t.val * 10000 + p.val) :
    (iblk0 V c 0 t : Vec Ideal S10000x64 .f32) (ix2 p k) = (V c main_v31 : FVec Ideal S100000x64 .f32) (ix2 n k) := by
  obtain ⟨e0, e1, -⟩ := block_indices t
  show V c main_v31 (((cfg0.win 0).blk t).view.emb (ix2 p k)) = V c main_v31 (ix2 n k)
  refine congrArg _ (funext fun a => Fin.ext ?_)
  match a with
  | ⟨0, _⟩ => show win0_0.index t (0 : Fin 2) * 10000 + 1 * p.val = n.val; rw [e0, hn]; omega
  | ⟨1, _⟩ => show win0_0.index t (1 : Fin 2) * 64 + 1 * k.val = k.val; rw [e1]; omega

theorem blk1_at (c : Dev nD) (t : Fin cfg0.N) (p : Fin 10000) (k : Fin 64) (n : Fin 100000) (hn : n.val = t.val * 10000 + p.val) :
    (iblk0 V c 1 t : Vec Ideal S10000x64 .f32) (ix2 p k) = (V c main_arg0 : FVec Ideal S100000x64 .f32) (ix2 n k) := by
  obtain ⟨-, -, e0, e1, -⟩ := block_indices t
  show V c main_arg0 (((cfg0.win 1).blk t).view.emb (ix2 p k)) = V c main_arg0 (ix2 n k)
  refine congrArg _ (funext fun a => Fin.ext ?_)
  match a with
  | ⟨0, _⟩ => show win0_1.index t (0 : Fin 2) * 10000 + 1 * p.val = n.val; rw [e0, hn]; omega
  | ⟨1, _⟩ => show win0_1.index t (1 : Fin 2) * 64 + 1 * k.val = k.val; rw [e1]; omega

/-- What point t writes back is block t of the layer over the arrays as the region finds them. -/
theorem written_back (c : Dev nD) (t : Fin cfg0.N) :
    (dat0 (F := Ideal) V c).flushed 5 t = ((cfg0.win 5).blk t).view.read (Elt Ideal)
      (Term.layer1 (V c main_v31) (V c main_arg0) (V c main_v32) (V c main_v34) (V c main_v33)) := by
  show (cfg0.win 5).cut (grid0.coords t) ((dat0 V c).after 5 t) = _
  rw [after0_5]
  unfold out0_5
  rw [View.canon_unit_zero zero_offsets]
  simp only [View.ld_unit_zero (S := S10000x64) zero_offsets, View.ld_unit_zero (S := S64x128) zero_offsets, View.ld_unit_zero (S := S1x128) zero_offsets]
  rw [blk2_eq, blk3_eq, blk4_eq]
  have hN : cfg0.N = 10 := N_0
  have ht : t.val < 10 := hN ▸ t.isLt
  obtain ⟨-, -, -, -, -, -, -, -, -, -, e0, e1⟩ := block_indices t
  funext j
  obtain ⟨p, q, rfl⟩ : ∃ (p : Fin 10000) (q : Fin 128), j = ix2 p q := ⟨j 0, j 1, eq_ix2 j⟩
  have hemb : ((cfg0.win 5).blk t).view.emb (ix2 p q) = ix2 (⟨t.val * 10000 + p.val, by have := p.isLt; omega⟩ : Fin 100000) q := by
    funext a; apply Fin.ext
    match a with
    | ⟨0, _⟩ => show win0_5.index t (0 : Fin 2) * 10000 + 1 * p.val = t.val * 10000 + p.val; rw [e0]; omega
    | ⟨1, _⟩ => show win0_5.index t (1 : Fin 2) * 128 + 1 * q.val = q.val; rw [e1]; omega
  show k0_pay1 (F := Ideal) (iblk0 V c 0 t) (iblk0 V c 1 t) (V c main_v32) (V c main_v33) (V c main_v34) (ix2 p q)
    = Term.layer1 (V c main_v31) (V c main_arg0) (V c main_v32) (V c main_v34) (V c main_v33) (((cfg0.win 5).blk t).view.emb (ix2 p q))
  rw [hemb]
  exact pay_layer1 _ _ _ _ _ _ _ p q _ (fun k => blk0_at V c t p k _ rfl) (fun k => blk1_at V c t p k _ rfl)

/-- An index of the array is in point t's block iff each coordinate is in the block's range on its axis. -/
theorem mem_block (t : Fin cfg0.N) (i : S100000x128.Idx) :
    i ∈ ((cfg0.win 5).blk t).view.set ↔ ∀ a : Fin 2, win0_5.index t a * S10000x128.size a ≤ (i a).val
      ∧ (i a).val < win0_5.index t a * S10000x128.size a + S10000x128.size a := by
  show i ∈ ((View.whole main_v35).slice (win0_5.rect t)).set ↔ _
  rw [View.set_slice_whole, Rect.mem_set_unit]
  exact Iff.rfl

/-- Row r of the array lies in the block of point r / 10000. -/
theorem rows_covered (i : S100000x128.Idx) :
    ∃ t : Fin cfg0.N, (cfg0.win 5).flush t = true ∧ i ∈ ((cfg0.win 5).blk t).view.set := by
  have hN : cfg0.N = 10 := N_0
  have hi0 : (i 0).val < 100000 := (i 0).isLt
  have hi1 : (i 1).val < 128 := (i 1).isLt
  have ht : (i 0).val / 10000 < cfg0.N := by rw [hN]; omega
  obtain ⟨-, -, -, -, -, -, -, -, -, -, e0, e1⟩ := block_indices ⟨(i 0).val / 10000, ht⟩
  refine ⟨⟨(i 0).val / 10000, ht⟩, flush0_5 _, ?_⟩
  rw [mem_block]
  intro a
  match a with
  | ⟨0, _⟩ =>
    show win0_5.index ⟨(i 0).val / 10000, ht⟩ (0 : Fin 2) * 10000 ≤ (i 0).val
      ∧ (i 0).val < win0_5.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win0_5.index ⟨(i 0).val / 10000, ht⟩ (1 : Fin 2) * 128 ≤ (i 1).val
      ∧ (i 1).val < win0_5.index ⟨(i 0).val / 10000, ht⟩ (1 : Fin 2) * 128 + 128
    rw [e1]
    omega

/-- The first region's output array after the run: the layer over the arrays as the region finds them. -/
theorem final (c : Dev nD) : (dat0 (F := Ideal) V c).arrAt 5 cfg0.N
    = Term.layer1 (V c main_v31) (V c main_arg0) (V c main_v32) (V c main_v34) (V c main_v33) :=
  (dat0 (F := Ideal) V c).arrAt_eq_of_cover 5 _ (fun t _ => written_back V c t) rows_covered

end Cert.KernelIdeal.Region0
-- ==== Proof.KerRegion1.lean ====
/-
  The second region's output array as one function of the arrays the region finds.

  The region runs over 20 grid points. At point t the body loads rows 5000 t … 5000 t + 4999 of the aggregated
  hidden features A and of the hidden features X (two [5000, 128] blocks), the whole weight matrices WlT, WrT
  ([128, 128]), the bias row b ([1, 128]), the head's weight column WhT ([128, 1]) and the head's bias bh ([1, 1]),
  and stores the [5000, 1] block

      elu (A_t · WlT + b + X_t · WrT) · WhT + bh,     elu h = h above zero, exp (min h 0) − 1 otherwise,

  which is written back as rows 5000 t … 5000 t + 4999 of the [100000, 1] result. Read at the ideal values each
  matrix product into a zero accumulator is the exact sum over the contracted coordinate, the format changes are the
  identity, the bias row is read at its column whatever the row and the head's bias at its one entry; so the stored
  block at (p, 0) is entry (5000 t + p, 0) of Term.layer2head. Every row r of the result lies in the block of point
  r / 5000, hence the array after the run is Term.layer2head of the seven arrays.
-/
import proofs.«142712_j41575283426038_2_alg».proof.Proof.Gen.KernelIdeal.Frame
import proofs.«142712_j41575283426038_2_alg».proof.Proof.KerTerm
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
open scoped BigOperators

namespace Cert.KernelIdeal.Region1

open Cert.KernelIdeal Cert.KernelIdeal.Gen

theorem zero_offsets : (![0, 0] : Fin 2 → Nat) = fun _ => 0 := funext fun a => by fin_cases a <;> rfl

theorem lhs0_a (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs1_a (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs0_a (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs1_a (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem matmul_at (A : FVec Ideal S5000x128 .bf16) (W : FVec Ideal S128x128 .bf16) (p : Fin 5000) (q : Fin 128) :
    matmul dot_S5000x128_S128x128_S5000x128_1_0_0_1_n_n none A W (constant (F := Ideal) S5000x128 .f32 0x00000000#32) (ix2 p q)
      = ∑ k : Fin 128, A (ix2 p k) * W (ix2 k q) := by
  show FloatOps.matmul _ none A W _ (ix2 p q) = _
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs0_a _ _
      | ⟨1, _⟩ => exact (lhs1_a _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (rhs0_a _ _).trans hk
      | ⟨1, _⟩ => exact rhs1_a _ _)
  rw [el, er]

theorem lhs0_h (i : S5000x1.Idx) (q : dot_S5000x128_S128x1_S5000x1_1_0_0_1_n_n.contr.Idx) : (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
theorem lhs1_h (i : S5000x1.Idx) (q : dot_S5000x128_S128x1_S5000x1_1_0_0_1_n_n.contr.Idx) : (dot_S5000x128_S128x1_S5000x1_1_0_0_1_n_n.lhsIdx i q 1).val = (q ⟨0, by decide⟩).val :=
  dot_S5000x128_S128x1_S5000x1_1_0_0_1_n_n.lhsIdx_val_of_single rfl i q
theorem rhs0_h (i : S5000x1.Idx) (q : dot_S5000x128_S128x1_S5000x1_1_0_0_1_n_n.contr.Idx) : (dot_S5000x128_S128x1_S5000x1_1_0_0_1_n_n.rhsIdx i q 0).val = (q ⟨0, by decide⟩).val :=
  dot_S5000x128_S128x1_S5000x1_1_0_0_1_n_n.rhsIdx_val_of_single rfl i q
theorem rhs1_h (i : S5000x1.Idx) (q : dot_S5000x128_S128x1_S5000x1_1_0_0_1_n_n.contr.Idx) : (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

theorem head_at (A : FVec Ideal S5000x128 .bf16) (W : FVec Ideal S128x1 .bf16) (p : Fin 5000) (q : Fin 1) :
    matmul dot_S5000x128_S128x1_S5000x1_1_0_0_1_n_n none A W (constant (F := Ideal) S5000x1 .f32 0x00000000#32) (ix2 p q)
      = ∑ k : Fin 128, A (ix2 p k) * W (ix2 k q) := by
  show FloatOps.matmul _ none A W _ (ix2 p q) = _
  rw [Ideal.matmul_constant_zero_apply,
    ← Equiv.sum_comp (contrEquiv1 dot_S5000x128_S128x1_S5000x1_1_0_0_1_n_n 128 rfl rfl).symm]
  refine Finset.sum_congr rfl fun k _ => ?_
  have hk := contrEquiv1_symm_val dot_S5000x128_S128x1_S5000x1_1_0_0_1_n_n 128 rfl rfl k
  have el : dot_S5000x128_S128x1_S5000x1_1_0_0_1_n_n.lhsIdx (ix2 p q) ((contrEquiv1 dot_S5000x128_S128x1_S5000x1_1_0_0_1_n_n 128 rfl rfl).symm k) = ix2 p k :=
    funext fun a => Fin.ext (by
      match a with
      | ⟨0, _⟩ => exact lhs0_h _ _
      | ⟨1, _⟩ => exact (lhs1_h _ _).trans hk)
  have er : dot_S5000x128_S128x1_S5000x1_1_0_0_1_n_n.rhsIdx (ix2 p q) ((contrEquiv1 dot_S5000x128_S128x1_S5000x1_1_0_0_1_n_n 128 rfl rfl).symm k) = ix2 k q :=
    funext fun a => Fin.ext (by
      match a with
      | ⟨0, _⟩ => exact (rhs0_h _ _).trans hk
      | ⟨1, _⟩ => exact rhs1_h _ _)
  rw [el, er]

/-- The exponential linear unit as the body spells it, read at an index. -/
theorem elu_at {s : Shape} (v : FVec Ideal s .f32) (i : s.Idx) :
    select (cmpf .ogt v (broadcast s (Scalar.ofBits (F := Ideal) .f32 0x00000000#32))) v
      (subf (exp (minimumf v (broadcast s (Scalar.ofBits (F := Ideal) .f32 0x00000000#32))))
        (broadcast s (Scalar.ofBits (F := Ideal) .f32 0x3F800000#32))) i = Term.eluK (v i) := rfl

/-- The body's stored value at row p of its one-column block. -/
theorem pay_at (x0 x1 : Vec Ideal S5000x128 .f32) (w0 w1 : Vec Ideal S128x128 .f32) (b : Vec Ideal S1x128 .f32)
    (wh : Vec Ideal S128x1 .f32) (bh : Vec Ideal S1x1 .f32) (p : Fin 5000) (z : Fin 1) :
    k1_pay1 (F := Ideal) x0 x1 w0 w1 b wh bh (ix2 p z)
      = (∑ k : Fin 128, Term.eluK ((∑ l : Fin 128, x0 (ix2 p l) * w0 (ix2 l k)) + b (ix2 0 k)
            + ∑ l : Fin 128, x1 (ix2 p l) * w1 (ix2 l k)) * wh (ix2 k z)) + bh (ix2 0 z) := by
  unfold k1_pay1
  simp only [shapeCast_self]
  rw [addf_apply, head_at, broadcastTo_1b_ab_apply]
  refine congrArg (· + bh (ix2 0 z)) (Finset.sum_congr rfl fun k _ => ?_)
  refine congrArg₂ (· * ·) ?_ rfl
  rw [truncf_apply]
  refine (elu_at _ _).trans (congrArg Term.eluK ?_)
  rw [addf_apply, addf_apply, matmul_at, matmul_at, broadcastTo_1b_ab_apply]
  rfl

variable (V : (c : Dev nD) → (b : Ref sig .tc) → Buf (Elt Ideal) ((c : Thread nD τ).loc b))

/-- The body's stored value at a block position, over rows of whole arrays: when row p of the two row blocks
    is row n of the arrays, the stored value is the head's entry n. -/
theorem pay_layer2 (x0 x1 : Vec Ideal S5000x128 .f32) (w0 w1 : Vec Ideal S128x128 .f32) (b : Vec Ideal S1x128 .f32)
    (wh : Vec Ideal S128x1 .f32) (bh : Vec Ideal S1x1 .f32)
    (A X : FVec Ideal S100000x128 .f32) (p : Fin 5000) (z : Fin 1) (n : Fin 100000)
    (h0 : ∀ l : Fin 128, x0 (ix2 p l) = A (ix2 n l)) (h1 : ∀ l : Fin 128, x1 (ix2 p l) = X (ix2 n l)) :
    k1_pay1 (F := Ideal) x0 x1 w0 w1 b wh bh (ix2 p z) = Term.layer2head A X w0 b w1 wh bh (ix2 n z) := by
  obtain rfl : z = 0 := Subsingleton.elim _ _
  rw [pay_at]
  unfold Term.layer2head Term.pre
  simp only [h0, h1]

/-- The printed index maps over the grid: the row-block windows sit at block (t, 0), the weight and bias windows at (0, 0). -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- A whole-array window's block is the array. -/
theorem blk2_eq (c : Dev nD) (t : Fin cfg1.N) : (iblk1 V c 2 t : Vec Ideal S128x128 .f32) = V c main_v56 := by
  obtain ⟨-, -, -, -, e0, e1, -⟩ := block_indices t
  funext y
  show V c main_v56 (((cfg1.win 2).blk t).view.emb y) = V c main_v56 y
  refine congrArg _ (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- A whole-array window's block is the array. -/
theorem blk3_eq (c : Dev nD) (t : Fin cfg1.N) : (iblk1 V c 3 t : Vec Ideal S1x128 .f32) = V c main_v58 := by
  obtain ⟨-, -, -, -, -, -, e0, e1, -⟩ := block_indices t
  funext y
  show V c main_v58 (((cfg1.win 3).blk t).view.emb y) = V c main_v58 y
  refine congrArg _ (funext fun a => Fin.ext ?_)
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- A whole-array window's block is the array. -/
theorem blk4_eq (c : Dev nD) (t : Fin cfg1.N) : (iblk1 V c 4 t : Vec Ideal S128x128 .f32) = V c main_v57 := by
  obtain ⟨-, -, -, -, -, -, -, -, e0, e1, -⟩ := block_indices t
  funext y
  show V c main_v57 (((cfg1.win 4).blk t).view.emb y) = V c main_v57 y
  refine congrArg _ (funext fun a => Fin.ext ?_)
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- A whole-array window's block is the array. -/
theorem blk5_eq (c : Dev nD) (t : Fin cfg1.N) : (iblk1 V c 5 t : Vec Ideal S128x1 .f32) = V c main_v59 := by
  obtain ⟨-, -, -, -, -, -, -, -, -, -, e0, e1, -⟩ := block_indices t
  funext y
  show V c main_v59 (((cfg1.win 5).blk t).view.emb y) = V c main_v59 y
  refine congrArg _ (funext fun a => Fin.ext ?_)
  match a with
  | ⟨0, _⟩ => show win1_5.index t (0 : Fin 2) * 128 + 1 * (y 0).val = (y 0).val; rw [e0]; omega
  | ⟨1, _⟩ => show win1_5.index t (1 : Fin 2) * 1 + 1 * (y 1).val = (y 1).val; rw [e1]; omega

/-- A whole-array window's block is the array. -/
theorem blk6_eq (c : Dev nD) (t : Fin cfg1.N) : (iblk1 V c 6 t : Vec Ideal S1x1 .f32) = V c main_v60 := by
  obtain ⟨-, -, -, -, -, -, -, -, -, -, -, -, e0, e1, -⟩ := block_indices t
  funext y
  show V c main_v60 (((cfg1.win 6).blk t).view.emb y) = V c main_v60 y
  refine congrArg _ (funext fun a => Fin.ext ?_)
  match a with
  | ⟨0, _⟩ => show win1_6.index t (0 : Fin 2) * 1 + 1 * (y 0).val = (y 0).val; rw [e0]; omega
  | ⟨1, _⟩ => show win1_6.index t (1 : Fin 2) * 1 + 1 * (y 1).val = (y 1).val; rw [e1]; omega

/-- Row p of the first row-block window at point t is row 5000 t + p of its array. -/
theorem blk0_at (c : Dev nD) (t : Fin cfg1.N) (p : Fin 5000) (k : Fin 128) (n : Fin 100000) (hn : n.val = t.val * 5000 + p.val) :
    (iblk1 V c 0 t : Vec Ideal S5000x128 .f32) (ix2 p k) = (V c main_v55 : FVec Ideal S100000x128 .f32) (ix2 n k) := by
  obtain ⟨e0, e1, -⟩ := block_indices t
  show V c main_v55 (((cfg1.win 0).blk t).view.emb (ix2 p k)) = V c main_v55 (ix2 n k)
  refine congrArg _ (funext fun a => Fin.ext ?_)
  match a with
  | ⟨0, _⟩ => show win1_0.index t (0 : Fin 2) * 5000 + 1 * p.val = n.val; rw [e0, hn]; omega
  | ⟨1, _⟩ => show win1_0.index t (1 : Fin 2) * 128 + 1 * k.val = k.val; rw [e1]; omega

/-- Likewise for the second row-block window. -/
theorem blk1_at (c : Dev nD) (t : Fin cfg1.N) (p : Fin 5000) (k : Fin 128) (n : Fin 100000) (hn : n.val = t.val * 5000 + p.val) :
    (iblk1 V c 1 t : Vec Ideal S5000x128 .f32) (ix2 p k) = (V c main_v35 : FVec Ideal S100000x128 .f32) (ix2 n k) := by
  obtain ⟨-, -, e0, e1, -⟩ := block_indices t
  show V c main_v35 (((cfg1.win 1).blk t).view.emb (ix2 p k)) = V c main_v35 (ix2 n k)
  refine congrArg _ (funext fun a => Fin.ext ?_)
  match a with
  | ⟨0, _⟩ => show win1_1.index t (0 : Fin 2) * 5000 + 1 * p.val = n.val; rw [e0, hn]; omega
  | ⟨1, _⟩ => show win1_1.index t (1 : Fin 2) * 128 + 1 * k.val = k.val; rw [e1]; omega

/-- What point t writes back is block t of the head over the arrays as the region finds them. -/
theorem written_back (c : Dev nD) (t : Fin cfg1.N) :
    (dat1 (F := Ideal) V c).flushed 7 t = ((cfg1.win 7).blk t).view.read (Elt Ideal)
      (Term.layer2head (V c main_v55) (V c main_v35) (V c main_v56) (V c main_v58) (V c main_v57) (V c main_v59) (V c main_v60)) := by
  show (cfg1.win 7).cut (grid1.coords t) ((dat1 V c).after 7 t) = _
  rw [after1_7]
  unfold out1_7
  rw [View.canon_unit_zero zero_offsets]
  simp only [View.ld_unit_zero (S := S5000x128) zero_offsets, View.ld_unit_zero (S := S128x128) zero_offsets, View.ld_unit_zero (S := S1x128) zero_offsets,
    View.ld_unit_zero (S := S128x1) zero_offsets, View.ld_unit_zero (S := S1x1) zero_offsets]
  rw [blk2_eq, blk3_eq, blk4_eq, blk5_eq, blk6_eq]
  have hN : cfg1.N = 20 := N_1
  have ht : t.val < 20 := hN ▸ t.isLt
  obtain ⟨-, -, -, -, -, -, -, -, -, -, -, -, -, -, e0, e1⟩ := block_indices t
  funext j
  obtain ⟨p, z, rfl⟩ : ∃ (p : Fin 5000) (z : Fin 1), j = ix2 p z := ⟨j 0, j 1, eq_ix2 j⟩
  have hemb : ((cfg1.win 7).blk t).view.emb (ix2 p z) = ix2 (⟨t.val * 5000 + p.val, by have := p.isLt; omega⟩ : Fin 100000) z := by
    funext a; apply Fin.ext
    match a with
    | ⟨0, _⟩ => show win1_7.index t (0 : Fin 2) * 5000 + 1 * p.val = t.val * 5000 + p.val; rw [e0]; omega
    | ⟨1, _⟩ => show win1_7.index t (1 : Fin 2) * 1 + 1 * z.val = z.val; rw [e1]; omega
  show k1_pay1 (F := Ideal) (iblk1 V c 0 t) (iblk1 V c 1 t) (V c main_v56) (V c main_v57) (V c main_v58) (V c main_v59) (V c main_v60) (ix2 p z)
    = Term.layer2head (V c main_v55) (V c main_v35) (V c main_v56) (V c main_v58) (V c main_v57) (V c main_v59) (V c main_v60)
        (((cfg1.win 7).blk t).view.emb (ix2 p z))
  rw [hemb]
  exact pay_layer2 _ _ _ _ _ _ _ _ _ p z _ (fun k => blk0_at V c t p k _ rfl) (fun k => blk1_at V c t p k _ rfl)

/-- An index of the array is in point t's block iff each coordinate is in the block's range on its axis. -/
theorem mem_block (t : Fin cfg1.N) (i : S100000x1.Idx) :
    i ∈ ((cfg1.win 7).blk t).view.set ↔ ∀ a : Fin 2, win1_7.index t a * S5000x1.size a ≤ (i a).val
      ∧ (i a).val < win1_7.index t a * S5000x1.size a + S5000x1.size a := by
  show i ∈ ((View.whole main_v61).slice (win1_7.rect t)).set ↔ _
  rw [View.set_slice_whole, Rect.mem_set_unit]
  exact Iff.rfl

/-- Row r of the array lies in the block of point r / 5000. -/
theorem rows_covered (i : S100000x1.Idx) :
    ∃ t : Fin cfg1.N, (cfg1.win 7).flush t = true ∧ i ∈ ((cfg1.win 7).blk t).view.set := by
  have hN : cfg1.N = 20 := N_1
  have hi0 : (i 0).val < 100000 := (i 0).isLt
  have hi1 : (i 1).val < 1 := (i 1).isLt
  have ht : (i 0).val / 5000 < cfg1.N := by rw [hN]; omega
  obtain ⟨-, -, -, -, -, -, -, -, -, -, -, -, -, -, e0, e1⟩ := block_indices ⟨(i 0).val / 5000, ht⟩
  refine ⟨⟨(i 0).val / 5000, ht⟩, flush1_7 _, ?_⟩
  rw [mem_block]
  intro a
  match a with
  | ⟨0, _⟩ =>
    show win1_7.index ⟨(i 0).val / 5000, ht⟩ (0 : Fin 2) * 5000 ≤ (i 0).val
      ∧ (i 0).val < win1_7.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win1_7.index ⟨(i 0).val / 5000, ht⟩ (1 : Fin 2) * 1 ≤ (i 1).val
      ∧ (i 1).val < win1_7.index ⟨(i 0).val / 5000, ht⟩ (1 : Fin 2) * 1 + 1
    rw [e1]
    omega

/-- The second region's output array after the run: the head over the arrays as the region finds them. -/
theorem final (c : Dev nD) : (dat1 (F := Ideal) V c).arrAt 7 cfg1.N
    = Term.layer2head (V c main_v55) (V c main_v35) (V c main_v56) (V c main_v58) (V c main_v57) (V c main_v59) (V c main_v60) :=
  (dat1 (F := Ideal) V c).arrAt_eq_of_cover 7 _ (fun t _ => written_back V c t) rows_covered

end Cert.KernelIdeal.Region1
-- ==== Proof.RefRun.lean ====
/- The reference program's @main as one straight line of host operations, and its run.

   @main is printed in two windows (main_part0, then main_part1) and calls the outlined function @elu twice;
   @elu in turn calls @_where and @_where_0. A call means its callee's body at the call's own buffers, so the
   whole of @main is a list of 105 operations: @main's own 75, and per call of @elu its eleven own operations
   with @_where's three and @_where_0's one in place (over the records main_call0 and main_call1). The run of
   such a line is the library's: every weakly fair execution terminates and each TensorCore buffer ends at the
   fold of the operations over the launch contents. -/
import proofs.«142712_j41575283426038_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: each `elu(h)` is fifteen — the zero and its broadcast and the
    comparison `h > 0` (twice: once for the outer select, once for the inner), the scalar zero, `_where`'s three
    (the zero converted to its own type, broadcast, the select `where(h > 0, 0, h)`), `expm1`, the one and its
    broadcast, the product, and `_where_0`'s select `where(h > 0, h, 1 * expm1(...))`. -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_1 (constant S_ .f32 0x3F800000#32),
    unary main_cst_1 main_v14 (broadcastInDim S1600000 ![] bcast_S_S1600000 : (⟨S_, .f32⟩ : BufTy).Contents (Elt F) → (⟨S1600000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x64 ![0, 1] bcast_S100000x1_S100000x64_0_1 : (⟨S100000x1, .f32⟩ : BufTy).Contents (Elt F) → (⟨S100000x64, .f32⟩ : BufTy).Contents (Elt F)),
    binary main_v13 main_v21 main_v22 (Host.divf : (⟨S100000x64, .f32⟩ : BufTy).Contents (Elt F) → (⟨S100000x64, .f32⟩ : BufTy).Contents (Elt F) → (⟨S100000x64, .f32⟩ : BufTy).Contents (Elt F)),
    unary main_arg2 main_v23 ((transpose S64x128 [1, 0] · transposes_S128x64_S64x128_1_0) : (⟨S128x64, .f32⟩ : BufTy).Contents (Elt F) → (⟨S64x128, .f32⟩ : BufTy).Contents (Elt F)),
    binary main_v22 main_v23 main_v24 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_arg3 main_v25 (broadcastInDim S1x128 ![1] bcast_S128_S1x128_1 : (⟨S128, .f32⟩ : BufTy).Contents (Elt F) → (⟨S1x128, .f32⟩ : BufTy).Contents (Elt F)),
    unary main_v25 main_v26 (broadcastInDim S100000x128 ![0, 1] bcast_S1x128_S100000x128_0_1 : (⟨S1x128, .f32⟩ : BufTy).Contents (Elt F) → (⟨S100000x128, .f32⟩ : BufTy).Contents (Elt F)),
    binary main_v24 main_v26 main_v27 (addf : (⟨S100000x128, .f32⟩ : BufTy).Contents (Elt F) → (⟨S100000x128, .f32⟩ : BufTy).Contents (Elt F) → (⟨S100000x128, .f32⟩ : BufTy).Contents (Elt F)),
    unary main_arg4 main_v28 ((transpose S64x128 [1, 0] · transposes_S128x64_S64x128_1_0) : (⟨S128x64, .f32⟩ : BufTy).Contents (Elt F) → (⟨S64x128, .f32⟩ : BufTy).Contents (Elt F)),
    binary main_arg0 main_v28 main_v29 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    binary main_v27 main_v29 main_v30 (addf : (⟨S100000x128, .f32⟩ : BufTy).Contents (Elt F) → (⟨S100000x128, .f32⟩ : BufTy).Contents (Elt F) → (⟨S100000x128, .f32⟩ : BufTy).Contents (Elt F)),
    TRef.nullary main_call0.cst (constant S_ .f32 0x00000000#32),
    TRef.unary main_call0.cst main_call0.v0 (broadcastInDim S100000x128 ![] bcast_S_S100000x128),
    TRef.binary (.of main_v30 : TRef sig ⟨S100000x128, .f32⟩) main_call0.v0 main_call0.v1 (cmpf .ogt),
    TRef.nullary main_call0.cst_0 (constant S_ .f32 0x00000000#32),
    TRef.unary main_call0.cst_0 main_call0.v2 (broadcastInDim S100000x128 ![] bcast_S_S100000x128),
    TRef.binary (.of main_v30 : TRef sig ⟨S100000x128, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x128 ![] bcast_S_S100000x128),
    TRef.ternary main_call0.v3 main_call0.call0.v1 (.of main_v30 : TRef sig ⟨S100000x128, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S100000x128 ![] bcast_S_S100000x128),
    TRef.binary main_call0.v6 main_call0.v5 main_call0.v7 mulf,
    TRef.ternary main_call0.v1 (.of main_v30 : TRef sig ⟨S100000x128, .f32⟩) main_call0.v7 main_call0.call1.v0 select,
    nullary main_c_4 (constantI S_ 32 0#32),
    unary main_c_4 main_v32 (broadcastInDim S1600000 ![] bcast_S_S1600000 : (⟨S_, .i32⟩ : BufTy).Contents (Elt F) → (⟨S1600000, .i32⟩ : BufTy).Contents (Elt F)),
    binary main_v1 main_v32 main_v33 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v34 (broadcastInDim S1600000 ![] bcast_S_S1600000 : (⟨S_, .i32⟩ : BufTy).Contents (Elt F) → (⟨S1600000, .i32⟩ : BufTy).Contents (Elt F)),
    binary main_v1 main_v34 main_v35 (addi : (⟨S1600000, .i32⟩ : BufTy).Contents (Elt F) → (⟨S1600000, .i32⟩ : BufTy).Contents (Elt F) → (⟨S1600000, .i32⟩ : BufTy).Contents (Elt F)),
    ternary main_v33 main_v35 main_v1 main_v36 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v36 main_v37 (broadcastInDim S1600000x1 ![0] bcast_S1600000_S1600000x1_0 : (⟨S1600000, .i32⟩ : BufTy).Contents (Elt F) → (⟨S1600000x1, .i32⟩ : BufTy).Contents (Elt F)),
    binary main_v31 main_v37 main_v38 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_6 (constant S_ .f32 0x00000000#32),
    unary main_cst_6 main_v39 (broadcastInDim S100000x128 ![] bcast_S_S100000x128 : (⟨S_, .f32⟩ : BufTy).Contents (Elt F) → (⟨S100000x128, .f32⟩ : BufTy).Contents (Elt F)),
    unary main_v3 main_v40 (broadcastInDim S1600000x1 ![0] bcast_S1600000_S1600000x1_0 : (⟨S1600000, .i32⟩ : BufTy).Contents (Elt F) → (⟨S1600000x1, .i32⟩ : BufTy).Contents (Elt F)),
    ternary main_v39 main_v40 main_v38 main_v41 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_7 (constant S_ .f32 0x3F800000#32),
    unary main_cst_7 main_v42 (broadcastInDim S1600000 ![] bcast_S_S1600000 : (⟨S_, .f32⟩ : BufTy).Contents (Elt F) → (⟨S1600000, .f32⟩ : BufTy).Contents (Elt F)),
    nullary main_cst_8 (constant S_ .f32 0x00000000#32),
    unary main_cst_8 main_v43 (broadcastInDim S100000 ![] bcast_S_S100000 : (⟨S_, .f32⟩ : BufTy).Contents (Elt F) → (⟨S100000, .f32⟩ : BufTy).Contents (Elt F)),
    unary main_v3 main_v44 (broadcastInDim S1600000x1 ![0] bcast_S1600000_S1600000x1_0 : (⟨S1600000, .i32⟩ : BufTy).Contents (Elt F) → (⟨S1600000x1, .i32⟩ : BufTy).Contents (Elt F)),
    ternary main_v43 main_v44 main_v42 main_v45 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_9 (constant S_ .f32 0x3F800000#32),
    unary main_cst_9 main_v46 (broadcastInDim S100000 ![] bcast_S_S100000 : (⟨S_, .f32⟩ : BufTy).Contents (Elt F) → (⟨S100000, .f32⟩ : BufTy).Contents (Elt F)),
    binary main_v45 main_v46 main_v47 (maximumf : (⟨S100000, .f32⟩ : BufTy).Contents (Elt F) → (⟨S100000, .f32⟩ : BufTy).Contents (Elt F) → (⟨S100000, .f32⟩ : BufTy).Contents (Elt F)),
    unary main_v47 main_v48 (broadcastInDim S100000x1 ![0] bcast_S100000_S100000x1_0 : (⟨S100000, .f32⟩ : BufTy).Contents (Elt F) → (⟨S100000x1, .f32⟩ : BufTy).Contents (Elt F)),
    unary main_v48 main_v49 (broadcastInDim S100000x128 ![0, 1] bcast_S100000x1_S100000x128_0_1 : (⟨S100000x1, .f32⟩ : BufTy).Contents (Elt F) → (⟨S100000x128, .f32⟩ : BufTy).Contents (Elt F)),
    binary main_v41 main_v49 main_v50 (Host.divf : (⟨S100000x128, .f32⟩ : BufTy).Contents (Elt F) → (⟨S100000x128, .f32⟩ : BufTy).Contents (Elt F) → (⟨S100000x128, .f32⟩ : BufTy).Contents (Elt F)),
    unary main_arg5 main_v51 ((transpose S128x128 [1, 0] · transposes_S128x128_S128x128_1_0) : (⟨S128x128, .f32⟩ : BufTy).Contents (Elt F) → (⟨S128x128, .f32⟩ : BufTy).Contents (Elt F)),
    binary main_v50 main_v51 main_v52 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v53 (broadcastInDim S1x128 ![1] bcast_S128_S1x128_1 : (⟨S128, .f32⟩ : BufTy).Contents (Elt F) → (⟨S1x128, .f32⟩ : BufTy).Contents (Elt F)),
    unary main_v53 main_v54 (broadcastInDim S100000x128 ![0, 1] bcast_S1x128_S100000x128_0_1 : (⟨S1x128, .f32⟩ : BufTy).Contents (Elt F) → (⟨S100000x128, .f32⟩ : BufTy).Contents (Elt F)),
    binary main_v52 main_v54 main_v55 (addf : (⟨S100000x128, .f32⟩ : BufTy).Contents (Elt F) → (⟨S100000x128, .f32⟩ : BufTy).Contents (Elt F) → (⟨S100000x128, .f32⟩ : BufTy).Contents (Elt F)),
    unary main_arg7 main_v56 ((transpose S128x128 [1, 0] · transposes_S128x128_S128x128_1_0) : (⟨S128x128, .f32⟩ : BufTy).Contents (Elt F) → (⟨S128x128, .f32⟩ : BufTy).Contents (Elt F)),
    binary main_v31 main_v56 main_v57 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v55 main_v57 main_v58 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v58 : TRef sig ⟨S100000x128, .f32⟩) main_call1.v0 main_call1.v1 (cmpf .ogt),
    TRef.nullary main_call1.cst_0 (constant S_ .f32 0x00000000#32),
    TRef.unary main_call1.cst_0 main_call1.v2 (broadcastInDim S100000x128 ![] bcast_S_S100000x128),
    TRef.binary (.of main_v58 : TRef sig ⟨S100000x128, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S100000x128 ![] bcast_S_S100000x128),
    TRef.ternary main_call1.v3 main_call1.call0.v1 (.of main_v58 : TRef sig ⟨S100000x128, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S100000x128 ![] bcast_S_S100000x128),
    TRef.binary main_call1.v6 main_call1.v5 main_call1.v7 mulf,
    TRef.ternary main_call1.v1 (.of main_v58 : TRef sig ⟨S100000x128, .f32⟩) main_call1.v7 main_call1.call1.v0 select,
    unary main_arg8 main_v60 ((transpose S128x1 [1, 0] · transposes_S1x128_S128x1_1_0) : (⟨S1x128, .f32⟩ : BufTy).Contents (Elt F) → (⟨S128x1, .f32⟩ : BufTy).Contents (Elt F)),
    binary main_v59 main_v60 main_v61 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)),
    unary main_arg9 main_v62 (broadcastInDim S1x1 ![1] bcast_S1_S1x1_1 : (⟨S1, .f32⟩ : BufTy).Contents (Elt F) → (⟨S1x1, .f32⟩ : BufTy).Contents (Elt F)),
    unary main_v62 main_v63 (broadcastInDim S100000x1 ![0, 1] bcast_S1x1_S100000x1_0_1 : (⟨S1x1, .f32⟩ : BufTy).Contents (Elt F) → (⟨S100000x1, .f32⟩ : BufTy).Contents (Elt F)),
    binary main_v61 main_v63 main_v64 (addf : (⟨S100000x1, .f32⟩ : BufTy).Contents (Elt F) → (⟨S100000x1, .f32⟩ : BufTy).Contents (Elt F) → (⟨S100000x1, .f32⟩ : BufTy).Contents (Elt F)) ]

-- a hundred and five binds re-associated: the rewrite under the chain recurses once per statement
set_option maxRecDepth 8192 in
set_option maxHeartbeats 4000000 in
/-- @main is that straight line: the two windows and the functions' definitions unfolded at their calls, both
    sides are one chain of `hlo` steps once sequencing is reassociated. -/
theorem main_eq (c : Dev nD) : main (F := F) c = seq ops := by
  simp only [main, main_part0, main_part1, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., unary_bufs_sub ..,
    binary_bufs_sub .., unary_bufs_sub .., unary_bufs_sub .., binary_bufs_sub .., unary_bufs_sub .., binary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., unary_bufs_sub ..,
    binary_bufs_sub .., unary_bufs_sub .., unary_bufs_sub .., binary_bufs_sub .., unary_bufs_sub .., binary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., unary_bufs_sub .., binary_bufs_sub ..,
    unary_bufs_sub .., unary_bufs_sub .., binary_bufs_sub ..⟩

/-- For any float values, from any memory with zero counters: every weakly fair execution of @main on the
    TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.RefTerm.lean ====
/-
  The value the reference program computes, as one function of its ten argument arrays, at the ideal instance
  (floats are extended reals), written in the program's own operations.

  With `src`, `dst` the two rows of the edge list and `deg n` the number of edges arriving at node `n`:

    mean X (n, c) = (0 + ∑ over the edges e arriving at n of X (src e, c)) / max (deg n) 1
    conv X        = mean X · Wlᵀ + b + X · Wrᵀ
    out           = elu (conv₂ (elu (conv₁ x))) · Whᵀ + bh

  where `elu h` is `h` above zero and `1 · expm1 h'` otherwise, `h'` being `h` with its positive entries set to zero.
-/
import proofs.«142712_j41575283426038_2_alg».proof.ReferenceIdeal
import Idealize.ShloMosaic.PureOps.Ideal

noncomputable section

namespace Cert.ReferenceIdeal.Term

open Idealize.ShloMosaic Cert.ReferenceIdeal
open Cert.ReferenceIdeal.Facts₀ Cert.ReferenceIdeal.Facts

variable [Cert.ReferenceIdeal.Facts]

/-- Row 0 of the edge list: the edges' source nodes. -/
def src (ei : IVec S2x1600000 32) : IVec S1600000 32 :=
  shapeCast S1600000 (extractStridedSlice S1x1600000 ![0, 0] ei slices_S2x1600000_S1x1600000_0_0) shapeCasts_S1x1600000_S1600000

/-- Row 1 of the edge list: the edges' target nodes. -/
def dst (ei : IVec S2x1600000 32) : IVec S1600000 32 :=
  shapeCast S1600000 (extractStridedSlice S1x1600000 ![1, 0] ei slices_S2x1600000_S1x1600000_1_0) shapeCasts_S1x1600000_S1600000

/-- An index vector with the node count added to its negative entries. -/
def norm (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v

/-- An index vector as a one-column array. -/
def col (v : IVec S1600000 32) : IVec S1600000x1 32 :=
  broadcastInDim S1600000x1 ![0] bcast_S1600000_S1600000x1_0 v

/-- The in-degree of every node: a one added per arriving edge. -/
def deg (ei : IVec S2x1600000 32) : FVec Ideal S100000 .f32 :=
  Host.scatterAdd scatter_S100000_S1600000x1_S1600000_n_0_0_1
    (broadcastInDim S100000 ![] bcast_S_S100000 (constant (F := Ideal) S_ .f32 0x00000000#32))
    (col (dst ei))
    (broadcastInDim S1600000 ![] bcast_S_S1600000 (constant (F := Ideal) S_ .f32 0x3F800000#32))

/-- The in-degree clipped below at one. -/
def degc (ei : IVec S2x1600000 32) : FVec Ideal S100000 .f32 :=
  maximumf (deg ei) (broadcastInDim S100000 ![] bcast_S_S100000 (constant (F := Ideal) S_ .f32 0x3F800000#32))

/-- The mean over the arriving edges of a 64-column table's source rows. -/
def mean64 (X : FVec Ideal S100000x64 .f32) (ei : IVec S2x1600000 32) : FVec Ideal S100000x64 .f32 :=
  Host.divf
    (Host.scatterAdd scatter_S100000x64_S1600000x1_S1600000x64_1_0_0_1
      (broadcastInDim S100000x64 ![] bcast_S_S100000x64 (constant (F := Ideal) S_ .f32 0x00000000#32))
      (col (dst ei))
      (Host.gather gather_S100000x64_S1600000x1_S1600000x64_1_0_n_n_0_1_164 X (col (norm (src ei)))))
    (broadcastInDim S100000x64 ![0, 1] bcast_S100000x1_S100000x64_0_1
      (broadcastInDim S100000x1 ![0] bcast_S100000_S100000x1_0 (degc ei)))

/-- The mean over the arriving edges of a 128-column table's source rows. -/
def mean128 (X : FVec Ideal S100000x128 .f32) (ei : IVec S2x1600000 32) : FVec Ideal S100000x128 .f32 :=
  Host.divf
    (Host.scatterAdd scatter_S100000x128_S1600000x1_S1600000x128_1_0_0_1
      (broadcastInDim S100000x128 ![] bcast_S_S100000x128 (constant (F := Ideal) S_ .f32 0x00000000#32))
      (col (dst ei))
      (Host.gather gather_S100000x128_S1600000x1_S1600000x128_1_0_n_n_0_1_1128 X (col (norm (src ei)))))
    (broadcastInDim S100000x128 ![0, 1] bcast_S100000x1_S100000x128_0_1
      (broadcastInDim S100000x1 ![0] bcast_S100000_S100000x1_0 (degc ei)))

/-- The first convolution's linear part: `A · Wlᵀ + b + X · Wrᵀ`. -/
def lin1 (A X : FVec Ideal S100000x64 .f32) (Wl : FVec Ideal S128x64 .f32) (b : FVec Ideal S128 .f32)
    (Wr : FVec Ideal S128x64 .f32) : FVec Ideal S100000x128 .f32 :=
  addf
    (addf (Host.dotGeneral dot_S100000x64_S64x128_S100000x128_1_0_0_1_n_n none A (transpose S64x128 [1, 0] Wl transposes_S128x64_S64x128_1_0))
      (broadcastInDim S100000x128 ![0, 1] bcast_S1x128_S100000x128_0_1 (broadcastInDim S1x128 ![1] bcast_S128_S1x128_1 b)))
    (Host.dotGeneral dot_S100000x64_S64x128_S100000x128_1_0_0_1_n_n none X (transpose S64x128 [1, 0] Wr transposes_S128x64_S64x128_1_0))

/-- The second convolution's linear part. -/
def lin2 (A X : FVec Ideal S100000x128 .f32) (Wl : FVec Ideal S128x128 .f32) (b : FVec Ideal S128 .f32)
    (Wr : FVec Ideal S128x128 .f32) : FVec Ideal S100000x128 .f32 :=
  addf
    (addf (Host.dotGeneral dot_S100000x128_S128x128_S100000x128_1_0_0_1_n_n none A (transpose S128x128 [1, 0] Wl transposes_S128x128_S128x128_1_0))
      (broadcastInDim S100000x128 ![0, 1] bcast_S1x128_S100000x128_0_1 (broadcastInDim S1x128 ![1] bcast_S128_S1x128_1 b)))
    (Host.dotGeneral dot_S100000x128_S128x128_S100000x128_1_0_0_1_n_n none X (transpose S128x128 [1, 0] Wr transposes_S128x128_S128x128_1_0))

/-- The zero array the unit compares against. -/
def zeros : FVec Ideal S100000x128 .f32 :=
  broadcastInDim S100000x128 ![] bcast_S_S100000x128 (constant (F := Ideal) S_ .f32 0x00000000#32)

/-- The exponential linear unit as the reference spells it. -/
def elu (h : FVec Ideal S100000x128 .f32) : FVec Ideal S100000x128 .f32 :=
  select (cmpf .ogt h zeros) h
    (mulf (broadcastInDim S100000x128 ![] bcast_S_S100000x128 (constant (F := Ideal) S_ .f32 0x3F800000#32))
      (Host.expm1
        (select (cmpf .ogt h zeros)
          (broadcastInDim S100000x128 ![] bcast_S_S100000x128 (id (constant (F := Ideal) S_ .f32 0x00000000#32))) h)))

/-- The head: `H · Whᵀ + bh`. -/
def head (H : FVec Ideal S100000x128 .f32) (Wh : FVec Ideal S1x128 .f32) (bh : FVec Ideal S1 .f32) : FVec Ideal S100000x1 .f32 :=
  addf (Host.dotGeneral dot_S100000x128_S128x1_S100000x1_1_0_0_1_n_n none H (transpose S128x1 [1, 0] Wh transposes_S1x128_S128x1_1_0))
    (broadcastInDim S100000x1 ![0, 1] bcast_S1x1_S100000x1_0_1 (broadcastInDim S1x1 ![1] bcast_S1_S1x1_1 bh))

/-- The hidden layer. -/
def hidden (x : FVec Ideal S100000x64 .f32) (ei : IVec S2x1600000 32) (W1l : FVec Ideal S128x64 .f32)
    (b1l : FVec Ideal S128 .f32) (W1r : FVec Ideal S128x64 .f32) : FVec Ideal S100000x128 .f32 :=
  elu (lin1 (mean64 x ei) x W1l b1l W1r)

/-- The program's result array. -/
def refOut (x : FVec Ideal S100000x64 .f32) (ei : IVec S2x1600000 32) (W1l : FVec Ideal S128x64 .f32)
    (b1l : FVec Ideal S128 .f32) (W1r : FVec Ideal S128x64 .f32) (W2l : FVec Ideal S128x128 .f32)
    (b2l : FVec Ideal S128 .f32) (W2r : FVec Ideal S128x128 .f32) (Wh : FVec Ideal S1x128 .f32)
    (bh : FVec Ideal S1 .f32) : FVec Ideal S100000x1 .f32 :=
  head (elu (lin2 (mean128 (hidden x ei W1l b1l W1r) ei) (hidden x ei W1l b1l W1r) W2l b2l W2r)) Wh bh

end Cert.ReferenceIdeal.Term

end
-- ==== Proof.RefRunValue.lean ====
/- The reference program's result as a value: the fold of its 105 operations, read at the result buffer, is the
   composition of the named stages (the edge list's rows, the index normalisation, the mean over arriving edges,
   the two linear layers with their exponential linear units, the head) applied to the ten argument arrays; the
   argument buffers are written by no operation. The list is read in five stretches, each from an arbitrary
   valuation: a stretch's result is a stage of what the valuation holds at the buffers the stretch reads, and a
   buffer it does not write keeps its contents. Together with the run of the straight line this is the run of
   the reference in the shape the algebraic claim states it. -/
import proofs.«142712_j41575283426038_2_alg».proof.Proof.RefRun
import proofs.«142712_j41575283426038_2_alg».proof.Proof.RefTerm

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The fold of a concatenation is the fold of the second line from the contents the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The first stretch: the edge list's rows, the normalised sources, and the mean of the input features over arriving edges. -/
abbrev ops1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_1 (constant S_ .f32 0x3F800000#32),
    unary main_cst_1 main_v14 (broadcastInDim S1600000 ![] bcast_S_S1600000 : (⟨S_, .f32⟩ : BufTy).Contents (Elt F) → (⟨S1600000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x64 ![0, 1] bcast_S100000x1_S100000x64_0_1 : (⟨S100000x1, .f32⟩ : BufTy).Contents (Elt F) → (⟨S100000x64, .f32⟩ : BufTy).Contents (Elt F)),
    binary main_v13 main_v21 main_v22 (Host.divf : (⟨S100000x64, .f32⟩ : BufTy).Contents (Elt F) → (⟨S100000x64, .f32⟩ : BufTy).Contents (Elt F) → (⟨S100000x64, .f32⟩ : BufTy).Contents (Elt F)) ]

/-- The second stretch: the first layer's linear part and its exponential linear unit. -/
abbrev ops2 : List (HloOp τ sig (Elt F)) :=
  [ unary main_arg2 main_v23 ((transpose S64x128 [1, 0] · transposes_S128x64_S64x128_1_0) : (⟨S128x64, .f32⟩ : BufTy).Contents (Elt F) → (⟨S64x128, .f32⟩ : BufTy).Contents (Elt F)),
    binary main_v22 main_v23 main_v24 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_arg3 main_v25 (broadcastInDim S1x128 ![1] bcast_S128_S1x128_1 : (⟨S128, .f32⟩ : BufTy).Contents (Elt F) → (⟨S1x128, .f32⟩ : BufTy).Contents (Elt F)),
    unary main_v25 main_v26 (broadcastInDim S100000x128 ![0, 1] bcast_S1x128_S100000x128_0_1 : (⟨S1x128, .f32⟩ : BufTy).Contents (Elt F) → (⟨S100000x128, .f32⟩ : BufTy).Contents (Elt F)),
    binary main_v24 main_v26 main_v27 (addf : (⟨S100000x128, .f32⟩ : BufTy).Contents (Elt F) → (⟨S100000x128, .f32⟩ : BufTy).Contents (Elt F) → (⟨S100000x128, .f32⟩ : BufTy).Contents (Elt F)),
    unary main_arg4 main_v28 ((transpose S64x128 [1, 0] · transposes_S128x64_S64x128_1_0) : (⟨S128x64, .f32⟩ : BufTy).Contents (Elt F) → (⟨S64x128, .f32⟩ : BufTy).Contents (Elt F)),
    binary main_arg0 main_v28 main_v29 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    binary main_v27 main_v29 main_v30 (addf : (⟨S100000x128, .f32⟩ : BufTy).Contents (Elt F) → (⟨S100000x128, .f32⟩ : BufTy).Contents (Elt F) → (⟨S100000x128, .f32⟩ : BufTy).Contents (Elt F)),
    TRef.nullary main_call0.cst (constant S_ .f32 0x00000000#32),
    TRef.unary main_call0.cst main_call0.v0 (broadcastInDim S100000x128 ![] bcast_S_S100000x128),
    TRef.binary (.of main_v30 : TRef sig ⟨S100000x128, .f32⟩) main_call0.v0 main_call0.v1 (cmpf .ogt),
    TRef.nullary main_call0.cst_0 (constant S_ .f32 0x00000000#32),
    TRef.unary main_call0.cst_0 main_call0.v2 (broadcastInDim S100000x128 ![] bcast_S_S100000x128),
    TRef.binary (.of main_v30 : TRef sig ⟨S100000x128, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x128 ![] bcast_S_S100000x128),
    TRef.ternary main_call0.v3 main_call0.call0.v1 (.of main_v30 : TRef sig ⟨S100000x128, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S100000x128 ![] bcast_S_S100000x128),
    TRef.binary main_call0.v6 main_call0.v5 main_call0.v7 mulf,
    TRef.ternary main_call0.v1 (.of main_v30 : TRef sig ⟨S100000x128, .f32⟩) main_call0.v7 main_call0.call1.v0 select ]

/-- The third stretch: the mean of the hidden features over arriving edges. -/
abbrev ops3 : List (HloOp τ sig (Elt F)) :=
  [ nullary main_c_4 (constantI S_ 32 0#32),
    unary main_c_4 main_v32 (broadcastInDim S1600000 ![] bcast_S_S1600000 : (⟨S_, .i32⟩ : BufTy).Contents (Elt F) → (⟨S1600000, .i32⟩ : BufTy).Contents (Elt F)),
    binary main_v1 main_v32 main_v33 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v34 (broadcastInDim S1600000 ![] bcast_S_S1600000 : (⟨S_, .i32⟩ : BufTy).Contents (Elt F) → (⟨S1600000, .i32⟩ : BufTy).Contents (Elt F)),
    binary main_v1 main_v34 main_v35 (addi : (⟨S1600000, .i32⟩ : BufTy).Contents (Elt F) → (⟨S1600000, .i32⟩ : BufTy).Contents (Elt F) → (⟨S1600000, .i32⟩ : BufTy).Contents (Elt F)),
    ternary main_v33 main_v35 main_v1 main_v36 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v36 main_v37 (broadcastInDim S1600000x1 ![0] bcast_S1600000_S1600000x1_0 : (⟨S1600000, .i32⟩ : BufTy).Contents (Elt F) → (⟨S1600000x1, .i32⟩ : BufTy).Contents (Elt F)),
    binary main_v31 main_v37 main_v38 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_6 (constant S_ .f32 0x00000000#32),
    unary main_cst_6 main_v39 (broadcastInDim S100000x128 ![] bcast_S_S100000x128 : (⟨S_, .f32⟩ : BufTy).Contents (Elt F) → (⟨S100000x128, .f32⟩ : BufTy).Contents (Elt F)),
    unary main_v3 main_v40 (broadcastInDim S1600000x1 ![0] bcast_S1600000_S1600000x1_0 : (⟨S1600000, .i32⟩ : BufTy).Contents (Elt F) → (⟨S1600000x1, .i32⟩ : BufTy).Contents (Elt F)),
    ternary main_v39 main_v40 main_v38 main_v41 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_7 (constant S_ .f32 0x3F800000#32),
    unary main_cst_7 main_v42 (broadcastInDim S1600000 ![] bcast_S_S1600000 : (⟨S_, .f32⟩ : BufTy).Contents (Elt F) → (⟨S1600000, .f32⟩ : BufTy).Contents (Elt F)),
    nullary main_cst_8 (constant S_ .f32 0x00000000#32),
    unary main_cst_8 main_v43 (broadcastInDim S100000 ![] bcast_S_S100000 : (⟨S_, .f32⟩ : BufTy).Contents (Elt F) → (⟨S100000, .f32⟩ : BufTy).Contents (Elt F)),
    unary main_v3 main_v44 (broadcastInDim S1600000x1 ![0] bcast_S1600000_S1600000x1_0 : (⟨S1600000, .i32⟩ : BufTy).Contents (Elt F) → (⟨S1600000x1, .i32⟩ : BufTy).Contents (Elt F)),
    ternary main_v43 main_v44 main_v42 main_v45 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_9 (constant S_ .f32 0x3F800000#32),
    unary main_cst_9 main_v46 (broadcastInDim S100000 ![] bcast_S_S100000 : (⟨S_, .f32⟩ : BufTy).Contents (Elt F) → (⟨S100000, .f32⟩ : BufTy).Contents (Elt F)),
    binary main_v45 main_v46 main_v47 (maximumf : (⟨S100000, .f32⟩ : BufTy).Contents (Elt F) → (⟨S100000, .f32⟩ : BufTy).Contents (Elt F) → (⟨S100000, .f32⟩ : BufTy).Contents (Elt F)),
    unary main_v47 main_v48 (broadcastInDim S100000x1 ![0] bcast_S100000_S100000x1_0 : (⟨S100000, .f32⟩ : BufTy).Contents (Elt F) → (⟨S100000x1, .f32⟩ : BufTy).Contents (Elt F)),
    unary main_v48 main_v49 (broadcastInDim S100000x128 ![0, 1] bcast_S100000x1_S100000x128_0_1 : (⟨S100000x1, .f32⟩ : BufTy).Contents (Elt F) → (⟨S100000x128, .f32⟩ : BufTy).Contents (Elt F)),
    binary main_v41 main_v49 main_v50 (Host.divf : (⟨S100000x128, .f32⟩ : BufTy).Contents (Elt F) → (⟨S100000x128, .f32⟩ : BufTy).Contents (Elt F) → (⟨S100000x128, .f32⟩ : BufTy).Contents (Elt F)) ]

/-- The fourth stretch: the second layer's linear part and its exponential linear unit. -/
abbrev ops4 : List (HloOp τ sig (Elt F)) :=
  [ unary main_arg5 main_v51 ((transpose S128x128 [1, 0] · transposes_S128x128_S128x128_1_0) : (⟨S128x128, .f32⟩ : BufTy).Contents (Elt F) → (⟨S128x128, .f32⟩ : BufTy).Contents (Elt F)),
    binary main_v50 main_v51 main_v52 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v53 (broadcastInDim S1x128 ![1] bcast_S128_S1x128_1 : (⟨S128, .f32⟩ : BufTy).Contents (Elt F) → (⟨S1x128, .f32⟩ : BufTy).Contents (Elt F)),
    unary main_v53 main_v54 (broadcastInDim S100000x128 ![0, 1] bcast_S1x128_S100000x128_0_1 : (⟨S1x128, .f32⟩ : BufTy).Contents (Elt F) → (⟨S100000x128, .f32⟩ : BufTy).Contents (Elt F)),
    binary main_v52 main_v54 main_v55 (addf : (⟨S100000x128, .f32⟩ : BufTy).Contents (Elt F) → (⟨S100000x128, .f32⟩ : BufTy).Contents (Elt F) → (⟨S100000x128, .f32⟩ : BufTy).Contents (Elt F)),
    unary main_arg7 main_v56 ((transpose S128x128 [1, 0] · transposes_S128x128_S128x128_1_0) : (⟨S128x128, .f32⟩ : BufTy).Contents (Elt F) → (⟨S128x128, .f32⟩ : BufTy).Contents (Elt F)),
    binary main_v31 main_v56 main_v57 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v55 main_v57 main_v58 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v58 : TRef sig ⟨S100000x128, .f32⟩) main_call1.v0 main_call1.v1 (cmpf .ogt),
    TRef.nullary main_call1.cst_0 (constant S_ .f32 0x00000000#32),
    TRef.unary main_call1.cst_0 main_call1.v2 (broadcastInDim S100000x128 ![] bcast_S_S100000x128),
    TRef.binary (.of main_v58 : TRef sig ⟨S100000x128, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S100000x128 ![] bcast_S_S100000x128),
    TRef.ternary main_call1.v3 main_call1.call0.v1 (.of main_v58 : TRef sig ⟨S100000x128, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S100000x128 ![] bcast_S_S100000x128),
    TRef.binary main_call1.v6 main_call1.v5 main_call1.v7 mulf,
    TRef.ternary main_call1.v1 (.of main_v58 : TRef sig ⟨S100000x128, .f32⟩) main_call1.v7 main_call1.call1.v0 select ]

/-- The fifth stretch: the head. -/
abbrev ops5 : List (HloOp τ sig (Elt F)) :=
  [ unary main_arg8 main_v60 ((transpose S128x1 [1, 0] · transposes_S1x128_S128x1_1_0) : (⟨S1x128, .f32⟩ : BufTy).Contents (Elt F) → (⟨S128x1, .f32⟩ : BufTy).Contents (Elt F)),
    binary main_v59 main_v60 main_v61 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)),
    unary main_arg9 main_v62 (broadcastInDim S1x1 ![1] bcast_S1_S1x1_1 : (⟨S1, .f32⟩ : BufTy).Contents (Elt F) → (⟨S1x1, .f32⟩ : BufTy).Contents (Elt F)),
    unary main_v62 main_v63 (broadcastInDim S100000x1 ![0, 1] bcast_S1x1_S100000x1_0_1 : (⟨S1x1, .f32⟩ : BufTy).Contents (Elt F) → (⟨S100000x1, .f32⟩ : BufTy).Contents (Elt F)),
    binary main_v61 main_v63 main_v64 (addf : (⟨S100000x1, .f32⟩ : BufTy).Contents (Elt F) → (⟨S100000x1, .f32⟩ : BufTy).Contents (Elt F) → (⟨S100000x1, .f32⟩ : BufTy).Contents (Elt F)) ]

/-- The operation list is the five stretches in order. -/
theorem ops_split : (ops (F := F)) = ops1 ++ (ops2 ++ (ops3 ++ (ops4 ++ ops5))) := rfl

/-! ## Each stretch from an arbitrary valuation -/

attribute [local irreducible] Host.gather Host.scatterAdd Host.expm1 Host.divf transpose in
set_option maxRecDepth 8192 in
set_option maxHeartbeats 4000000 in
/-- After the first stretch: the edges' sources. -/
theorem w1_v1 (W : Valuation τ sig (Elt Ideal)) :
    after (ops1 (F := Ideal)) W (main_v1 : DevRef τ sig) = Term.src (W (main_arg1 : DevRef τ sig)) := by
  after_results_simp
  rfl

attribute [local irreducible] Host.gather Host.scatterAdd Host.expm1 Host.divf transpose in
set_option maxRecDepth 8192 in
set_option maxHeartbeats 4000000 in
/-- After the first stretch: the edges' targets. -/
theorem w1_v3 (W : Valuation τ sig (Elt Ideal)) :
    after (ops1 (F := Ideal)) W (main_v3 : DevRef τ sig) = Term.dst (W (main_arg1 : DevRef τ sig)) := by
  after_results_simp
  rfl

attribute [local irreducible] Host.gather Host.scatterAdd Host.expm1 Host.divf transpose in
set_option maxRecDepth 8192 in
set_option maxHeartbeats 4000000 in
/-- After the first stretch: the mean of the input features over arriving edges. -/
theorem w1_v22 (W : Valuation τ sig (Elt Ideal)) :
    after (ops1 (F := Ideal)) W (main_v22 : DevRef τ sig) = Term.mean64 (W (main_arg0 : DevRef τ sig)) (W (main_arg1 : DevRef τ sig)) := by
  after_results_simp
  rfl

attribute [local irreducible] Host.gather Host.scatterAdd Host.expm1 Host.divf transpose in
set_option maxRecDepth 8192 in
set_option maxHeartbeats 4000000 in
/-- After the second stretch: the hidden features, from the mean the first stretch left. -/
theorem w2_v31 (W : Valuation τ sig (Elt Ideal)) :
    after (ops2 (F := Ideal)) W (main_v31 : DevRef τ sig) = Term.elu (Term.lin1 (W (main_v22 : DevRef τ sig)) (W (main_arg0 : DevRef τ sig)) (W (main_arg2 : DevRef τ sig)) (W (main_arg3 : DevRef τ sig)) (W (main_arg4 : DevRef τ sig))) := by
  after_results_simp
  rfl

attribute [local irreducible] Host.gather Host.scatterAdd Host.expm1 Host.divf transpose in
set_option maxRecDepth 8192 in
set_option maxHeartbeats 4000000 in
/-- After the third stretch: the mean of the hidden features over arriving edges, the edge list's rows being what the first stretch left. -/
theorem w3_v50 (W : Valuation τ sig (Elt Ideal)) (ei : IVec S2x1600000 32)
    (h1 : W (main_v1 : DevRef τ sig) = Term.src ei) (h3 : W (main_v3 : DevRef τ sig) = Term.dst ei) :
    after (ops3 (F := Ideal)) W (main_v50 : DevRef τ sig) = Term.mean128 (W (main_v31 : DevRef τ sig)) ei := by
  after_results_simp
  rw [h1, h3]
  rfl

attribute [local irreducible] Host.gather Host.scatterAdd Host.expm1 Host.divf transpose in
set_option maxRecDepth 8192 in
set_option maxHeartbeats 4000000 in
/-- After the fourth stretch: the second layer's output. -/
theorem w4_v59 (W : Valuation τ sig (Elt Ideal)) :
    after (ops4 (F := Ideal)) W (main_v59 : DevRef τ sig) = Term.elu (Term.lin2 (W (main_v50 : DevRef τ sig)) (W (main_v31 : DevRef τ sig)) (W (main_arg5 : DevRef τ sig)) (W (main_arg6 : DevRef τ sig)) (W (main_arg7 : DevRef τ sig))) := by
  after_results_simp
  rfl

attribute [local irreducible] Host.gather Host.scatterAdd Host.expm1 Host.divf transpose in
set_option maxRecDepth 8192 in
set_option maxHeartbeats 4000000 in
/-- After the fifth stretch: the head's output. -/
theorem w5_v64 (W : Valuation τ sig (Elt Ideal)) :
    after (ops5 (F := Ideal)) W (main_v64 : DevRef τ sig) = Term.head (W (main_v59 : DevRef τ sig)) (W (main_arg8 : DevRef τ sig)) (W (main_arg9 : DevRef τ sig)) := by
  after_results_simp
  rfl

/-! The buffers stretch 1 does not write and a later stretch reads keep their contents through it. -/

set_option maxRecDepth 8192 in
theorem keep1_arg0 (W : Valuation τ sig (Elt Ideal)) :
    after (ops1 (F := Ideal)) W (main_arg0 : DevRef τ sig) = W (main_arg0 : DevRef τ sig) := by
  simp only [after_cons, after_nil]
  rfl

set_option maxRecDepth 8192 in
theorem keep1_arg2 (W : Valuation τ sig (Elt Ideal)) :
    after (ops1 (F := Ideal)) W (main_arg2 : DevRef τ sig) = W (main_arg2 : DevRef τ sig) := by
  simp only [after_cons, after_nil]
  rfl

set_option maxRecDepth 8192 in
theorem keep1_arg3 (W : Valuation τ sig (Elt Ideal)) :
    after (ops1 (F := Ideal)) W (main_arg3 : DevRef τ sig) = W (main_arg3 : DevRef τ sig) := by
  simp only [after_cons, after_nil]
  rfl

set_option maxRecDepth 8192 in
theorem keep1_arg4 (W : Valuation τ sig (Elt Ideal)) :
    after (ops1 (F := Ideal)) W (main_arg4 : DevRef τ sig) = W (main_arg4 : DevRef τ sig) := by
  simp only [after_cons, after_nil]
  rfl

set_option maxRecDepth 8192 in
theorem keep1_arg5 (W : Valuation τ sig (Elt Ideal)) :
    after (ops1 (F := Ideal)) W (main_arg5 : DevRef τ sig) = W (main_arg5 : DevRef τ sig) := by
  simp only [after_cons, after_nil]
  rfl

set_option maxRecDepth 8192 in
theorem keep1_arg6 (W : Valuation τ sig (Elt Ideal)) :
    after (ops1 (F := Ideal)) W (main_arg6 : DevRef τ sig) = W (main_arg6 : DevRef τ sig) := by
  simp only [after_cons, after_nil]
  rfl

set_option maxRecDepth 8192 in
theorem keep1_arg7 (W : Valuation τ sig (Elt Ideal)) :
    after (ops1 (F := Ideal)) W (main_arg7 : DevRef τ sig) = W (main_arg7 : DevRef τ sig) := by
  simp only [after_cons, after_nil]
  rfl

set_option maxRecDepth 8192 in
theorem keep1_arg8 (W : Valuation τ sig (Elt Ideal)) :
    after (ops1 (F := Ideal)) W (main_arg8 : DevRef τ sig) = W (main_arg8 : DevRef τ sig) := by
  simp only [after_cons, after_nil]
  rfl

set_option maxRecDepth 8192 in
theorem keep1_arg9 (W : Valuation τ sig (Elt Ideal)) :
    after (ops1 (F := Ideal)) W (main_arg9 : DevRef τ sig) = W (main_arg9 : DevRef τ sig) := by
  simp only [after_cons, after_nil]
  rfl

/-! The buffers stretch 2 does not write and a later stretch reads keep their contents through it. -/

set_option maxRecDepth 8192 in
theorem keep2_v1 (W : Valuation τ sig (Elt Ideal)) :
    after (ops2 (F := Ideal)) W (main_v1 : DevRef τ sig) = W (main_v1 : DevRef τ sig) := by
  simp only [after_cons, after_nil]
  rfl

set_option maxRecDepth 8192 in
theorem keep2_v3 (W : Valuation τ sig (Elt Ideal)) :
    after (ops2 (F := Ideal)) W (main_v3 : DevRef τ sig) = W (main_v3 : DevRef τ sig) := by
  simp only [after_cons, after_nil]
  rfl

set_option maxRecDepth 8192 in
theorem keep2_arg5 (W : Valuation τ sig (Elt Ideal)) :
    after (ops2 (F := Ideal)) W (main_arg5 : DevRef τ sig) = W (main_arg5 : DevRef τ sig) := by
  simp only [after_cons, after_nil]
  rfl

set_option maxRecDepth 8192 in
theorem keep2_arg6 (W : Valuation τ sig (Elt Ideal)) :
    after (ops2 (F := Ideal)) W (main_arg6 : DevRef τ sig) = W (main_arg6 : DevRef τ sig) := by
  simp only [after_cons, after_nil]
  rfl

set_option maxRecDepth 8192 in
theorem keep2_arg7 (W : Valuation τ sig (Elt Ideal)) :
    after (ops2 (F := Ideal)) W (main_arg7 : DevRef τ sig) = W (main_arg7 : DevRef τ sig) := by
  simp only [after_cons, after_nil]
  rfl

set_option maxRecDepth 8192 in
theorem keep2_arg8 (W : Valuation τ sig (Elt Ideal)) :
    after (ops2 (F := Ideal)) W (main_arg8 : DevRef τ sig) = W (main_arg8 : DevRef τ sig) := by
  simp only [after_cons, after_nil]
  rfl

set_option maxRecDepth 8192 in
theorem keep2_arg9 (W : Valuation τ sig (Elt Ideal)) :
    after (ops2 (F := Ideal)) W (main_arg9 : DevRef τ sig) = W (main_arg9 : DevRef τ sig) := by
  simp only [after_cons, after_nil]
  rfl

/-! The buffers stretch 3 does not write and a later stretch reads keep their contents through it. -/

set_option maxRecDepth 8192 in
theorem keep3_v31 (W : Valuation τ sig (Elt Ideal)) :
    after (ops3 (F := Ideal)) W (main_v31 : DevRef τ sig) = W (main_v31 : DevRef τ sig) := by
  simp only [after_cons, after_nil]
  rfl

set_option maxRecDepth 8192 in
theorem keep3_arg5 (W : Valuation τ sig (Elt Ideal)) :
    after (ops3 (F := Ideal)) W (main_arg5 : DevRef τ sig) = W (main_arg5 : DevRef τ sig) := by
  simp only [after_cons, after_nil]
  rfl

set_option maxRecDepth 8192 in
theorem keep3_arg6 (W : Valuation τ sig (Elt Ideal)) :
    after (ops3 (F := Ideal)) W (main_arg6 : DevRef τ sig) = W (main_arg6 : DevRef τ sig) := by
  simp only [after_cons, after_nil]
  rfl

set_option maxRecDepth 8192 in
theorem keep3_arg7 (W : Valuation τ sig (Elt Ideal)) :
    after (ops3 (F := Ideal)) W (main_arg7 : DevRef τ sig) = W (main_arg7 : DevRef τ sig) := by
  simp only [after_cons, after_nil]
  rfl

set_option maxRecDepth 8192 in
theorem keep3_arg8 (W : Valuation τ sig (Elt Ideal)) :
    after (ops3 (F := Ideal)) W (main_arg8 : DevRef τ sig) = W (main_arg8 : DevRef τ sig) := by
  simp only [after_cons, after_nil]
  rfl

set_option maxRecDepth 8192 in
theorem keep3_arg9 (W : Valuation τ sig (Elt Ideal)) :
    after (ops3 (F := Ideal)) W (main_arg9 : DevRef τ sig) = W (main_arg9 : DevRef τ sig) := by
  simp only [after_cons, after_nil]
  rfl

/-! The buffers stretch 4 does not write and a later stretch reads keep their contents through it. -/

set_option maxRecDepth 8192 in
theorem keep4_arg8 (W : Valuation τ sig (Elt Ideal)) :
    after (ops4 (F := Ideal)) W (main_arg8 : DevRef τ sig) = W (main_arg8 : DevRef τ sig) := by
  simp only [after_cons, after_nil]
  rfl

set_option maxRecDepth 8192 in
theorem keep4_arg9 (W : Valuation τ sig (Elt Ideal)) :
    after (ops4 (F := Ideal)) W (main_arg9 : DevRef τ sig) = W (main_arg9 : DevRef τ sig) := by
  simp only [after_cons, after_nil]
  rfl

/-! ## The whole list -/

/-- The fold at the result buffer is the staged term of the argument arrays: the list read stretch by stretch, each
    stretch's result in terms of what the one before left, the buffers in between kept. -/
theorem out_eq (V : Valuation τ sig (Elt Ideal)) :
    after (ops (F := Ideal)) V (main_v64 : DevRef τ sig)
      = Term.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  have h1 : after (ops2 (F := Ideal)) (after (ops1 (F := Ideal)) V) (main_v1 : DevRef τ sig) = Term.src (V (main_arg1 : DevRef τ sig)) :=
    (keep2_v1 _).trans (w1_v1 V)
  have h3 : after (ops2 (F := Ideal)) (after (ops1 (F := Ideal)) V) (main_v3 : DevRef τ sig) = Term.dst (V (main_arg1 : DevRef τ sig)) :=
    (keep2_v3 _).trans (w1_v3 V)
  rw [ops_split, after_append, after_append, after_append, after_append,
    w5_v64, w4_v59, keep4_arg8, keep4_arg9,
    w3_v50 _ _ h1 h3, keep3_v31, keep3_arg5, keep3_arg6, keep3_arg7, keep3_arg8, keep3_arg9,
    w2_v31, keep2_arg5, keep2_arg6, keep2_arg7, keep2_arg8, keep2_arg9,
    w1_v22, keep1_arg0, keep1_arg2, keep1_arg3, keep1_arg4, keep1_arg5, keep1_arg6, keep1_arg7, keep1_arg8, keep1_arg9]
  rfl

set_option maxRecDepth 8192 in
theorem arg0_eq (V : Valuation τ sig (Elt Ideal)) :
    after (ops (F := Ideal)) V (main_arg0 : DevRef τ sig) = V (main_arg0 : DevRef τ sig) := by
  simp only [after_cons, after_nil]
  rfl

set_option maxRecDepth 8192 in
theorem arg1_eq (V : Valuation τ sig (Elt Ideal)) :
    after (ops (F := Ideal)) V (main_arg1 : DevRef τ sig) = V (main_arg1 : DevRef τ sig) := by
  simp only [after_cons, after_nil]
  rfl

set_option maxRecDepth 8192 in
theorem arg2_eq (V : Valuation τ sig (Elt Ideal)) :
    after (ops (F := Ideal)) V (main_arg2 : DevRef τ sig) = V (main_arg2 : DevRef τ sig) := by
  simp only [after_cons, after_nil]
  rfl

set_option maxRecDepth 8192 in
theorem arg3_eq (V : Valuation τ sig (Elt Ideal)) :
    after (ops (F := Ideal)) V (main_arg3 : DevRef τ sig) = V (main_arg3 : DevRef τ sig) := by
  simp only [after_cons, after_nil]
  rfl

set_option maxRecDepth 8192 in
theorem arg4_eq (V : Valuation τ sig (Elt Ideal)) :
    after (ops (F := Ideal)) V (main_arg4 : DevRef τ sig) = V (main_arg4 : DevRef τ sig) := by
  simp only [after_cons, after_nil]
  rfl

set_option maxRecDepth 8192 in
theorem arg5_eq (V : Valuation τ sig (Elt Ideal)) :
    after (ops (F := Ideal)) V (main_arg5 : DevRef τ sig) = V (main_arg5 : DevRef τ sig) := by
  simp only [after_cons, after_nil]
  rfl

set_option maxRecDepth 8192 in
theorem arg6_eq (V : Valuation τ sig (Elt Ideal)) :
    after (ops (F := Ideal)) V (main_arg6 : DevRef τ sig) = V (main_arg6 : DevRef τ sig) := by
  simp only [after_cons, after_nil]
  rfl

set_option maxRecDepth 8192 in
theorem arg7_eq (V : Valuation τ sig (Elt Ideal)) :
    after (ops (F := Ideal)) V (main_arg7 : DevRef τ sig) = V (main_arg7 : DevRef τ sig) := by
  simp only [after_cons, after_nil]
  rfl

set_option maxRecDepth 8192 in
theorem arg8_eq (V : Valuation τ sig (Elt Ideal)) :
    after (ops (F := Ideal)) V (main_arg8 : DevRef τ sig) = V (main_arg8 : DevRef τ sig) := by
  simp only [after_cons, after_nil]
  rfl

set_option maxRecDepth 8192 in
theorem arg9_eq (V : Valuation τ sig (Elt Ideal)) :
    after (ops (F := Ideal)) V (main_arg9 : DevRef τ sig) = V (main_arg9 : DevRef τ sig) := by
  simp only [after_cons, after_nil]
  rfl

/-- The reference's run at the ideal instance: every weakly fair execution terminates with the result buffer at
    the staged term of the argument arrays' launch contents, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v64)
        = Term.refOut (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono
    (fun _ h c => ⟨(h c main_v64).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_main (F := Ideal) m ρ)

end Cert.ReferenceIdeal.HandRun

end
-- ==== Proof.LibRowGatherScatter.lean ====
/-
  Rows taken by index and rows added by index, read at one element.

  For a table `x : [N, C]` and a column of integers `idx : [E, 1]`:

  * taking rows — the gather whose result `[E, C]` has in row `e` the row of `x` that `idx (e, 0)` names — reads at
    `(e, c)` the entry `x (r, c)`, where `r` is `idx (e, 0)` as a signed integer brought into `[0, N − 1]`;
  * adding rows — the scatter that adds row `e` of `u : [E, C]` onto the row of `x` that `idx (e, 0)` names, a row
    named outside `[0, N)` being dropped — has at `(n, c)`, over the extended reals, the entry `x (n, c)` plus the sum
    of `u (e, c)` over exactly those `e` whose integer `idx (e, 0)` is `n`.

  The columns never mix: entry `(·, c)` of either result depends on column `c` only.
-/
import Idealize.ShloMosaic.Lib.ValueIdx
import Idealize.ShloMosaic.PureOps.Ideal.Laws

noncomputable section

open scoped BigOperators

namespace Cert.RowGatherScatter

open Idealize.ShloMosaic Idealize.ShloMosaic.ValueIdx

/-! ## Taking rows -/

section Gather
variable {α : Type}

/-- The dimension numbers of "take the rows `idx` of an `[N, C]` table": the row axis collapsed and indexed, the
    column axis carried whole. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row that entry `e` of the index column names: its integer read signed and brought into `[0, N − 1]`. -/
def rowOf {N E w : Nat} (hN : 0 < N) (idx : IVec ⟨2, ![E, 1]⟩ w) (e : Fin E) : Fin N :=
  ⟨min (idx (ix2 e 0)).toInt.toNat (N - 1), by omega⟩

/-- THE ROWS TAKEN, READ AT `(e, c)`: the table at the named row and the same column. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (rowOf hN idx e) c) := by
  unfold Host.gather
  refine congrArg x ?_
  funext a
  refine Fin.ext ?_
  match a with
  | ⟨0, _⟩ =>
    show (rowGatherDims N E C wf).start (ix2 e c) idx 0 + (rowGatherDims N E C wf).batchCoord (ix2 e c) 0
        + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
        + (rowGatherDims N E C wf).offCoord (ix2 e c) 1 = _
    rw [GatherDims.batchCoord_eq_zero _ _ _ List.not_mem_nil]
    unfold GatherDims.start
    rw [dif_neg (show (1 : Fin 2) ∉ (rowGatherDims N E C wf).startIndexMap from (by decide : (1 : Fin 2) ∉ ([0] : List (Fin 2))))]
    simp only [Nat.add_zero, Nat.zero_add]
    rfl

end Gather

/-! ## Adding rows -/

section Scatter

/-- The dimension numbers of "add the rows of `u : [E, C]` onto the rows `idx` of an `[N, C]` table": the row axis
    inserted and indexed, the column axis the update's window. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- Update `(e, c)` starts, on the row axis, at the integer `idx (e, 0)` read signed. -/
theorem start_row (idx : IVec ⟨2, ![E, 1]⟩ w) (e : Fin E) (c : Fin C) :
    (rowScatterDims N E C wf).start (ix2 e c) idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e c) ⟨List.idxOf (0 : Fin 2) (rowScatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the column axis at zero; -/
theorem start_col (idx : IVec ⟨2, ![E, 1]⟩ w) (e : Fin E) (c : Fin C) :
    (rowScatterDims N E C wf).start (ix2 e c) idx 1 = 0 := by
  unfold ScatterDims.start
  rw [dif_neg (show (1 : Fin 2) ∉ (rowScatterDims N E C wf).scatterDimsToOperandDims from (by decide : (1 : Fin 2) ∉ ([0] : List (Fin 2))))]

/-- its window coordinate is nothing on the row axis -/
theorem window_row (e : Fin E) (c : Fin C) : (rowScatterDims N E C wf).window (ix2 e c) 0 = 0 := by
  unfold ScatterDims.window
  rw [dif_neg (show (0 : Fin 2) ∉ (rowScatterDims N E C wf).sKept from
    (by decide : (0 : Fin 2) ∉ (List.finRange 2).filter (· ∉ ([0] : List (Fin 2)))))]

/-- and its own column on the column axis. -/
theorem window_col (e : Fin E) (c : Fin C) : (rowScatterDims N E C wf).window (ix2 e c) 1 = c.val := by
  unfold ScatterDims.window
  rw [dif_pos (show (1 : Fin 2) ∈ (rowScatterDims N E C wf).sKept from
    (by decide : (1 : Fin 2) ∈ (List.finRange 2).filter (· ∉ ([0] : List (Fin 2)))))]
  rfl

/-- WHERE UPDATE `(e, c)` LANDS: on `(n, c')` exactly when its integer is `n` and the columns agree. -/
theorem resultIdx?_rows (idx : IVec ⟨2, ![E, 1]⟩ w) (e : Fin E) (c : Fin C) (n : Fin N) (c' : Fin C) :
    (rowScatterDims N E C wf).resultIdx? (ix2 e c) idx = some (ix2 n c') ↔ (idx (ix2 e 0)).toInt = (n.val : Int) ∧ c = c' := by
  unfold ScatterDims.resultIdx?
  constructor
  · intro h
    split at h
    · rename_i hin
      have h' := Option.some.inj h
      have h0 := congrArg (fun f => (f 0).val) h'
      have h1 := congrArg (fun f => (f 1).val) h'
      simp only [start_row, start_col, window_row, window_col] at h0 h1
      have hb := hin 0
      rw [start_row, window_row] at hb
      refine ⟨?_, Fin.ext ?_⟩
      · have : ((idx (ix2 e 0)).toInt + ((0 : Nat) : Int)).toNat = n.val := h0
        omega
      · have : (((0 : Int)) + ((c.val : Nat) : Int)).toNat = c'.val := h1
        omega
    · exact absurd h (by simp)
  · rintro ⟨hr, rfl⟩
    have h0 : 0 ≤ (rowScatterDims N E C wf).start (ix2 e c) idx 0 + (rowScatterDims N E C wf).window (ix2 e c) 0
        ∧ (rowScatterDims N E C wf).start (ix2 e c) idx 0 + (rowScatterDims N E C wf).window (ix2 e c) 0
          < (⟨2, ![N, C]⟩ : Shape).size 0 := by
      rw [start_row, window_row, hr]
      have := n.isLt
      refine ⟨by omega, ?_⟩
      show ((n.val : Int) + ((0 : Nat) : Int)) < ((N : Nat) : Int)
      omega
    have h1 : 0 ≤ (rowScatterDims N E C wf).start (ix2 e c) idx 1 + (rowScatterDims N E C wf).window (ix2 e c) 1
        ∧ (rowScatterDims N E C wf).start (ix2 e c) idx 1 + (rowScatterDims N E C wf).window (ix2 e c) 1
          < (⟨2, ![N, C]⟩ : Shape).size 1 := by
      rw [start_col, window_col]
      have := c.isLt
      refine ⟨by omega, ?_⟩
      show ((0 : Int) + ((c.val : Nat) : Int)) < ((C : Nat) : Int)
      omega
    have hin : ∀ a : Fin 2, 0 ≤ (rowScatterDims N E C wf).start (ix2 e c) idx a + (rowScatterDims N E C wf).window (ix2 e c) a
        ∧ (rowScatterDims N E C wf).start (ix2 e c) idx a + (rowScatterDims N E C wf).window (ix2 e c) a
          < (⟨2, ![N, C]⟩ : Shape).size a := fun a => match a with
      | ⟨0, _⟩ => h0
      | ⟨1, _⟩ => h1
    rw [dif_pos hin]
    refine congrArg some ?_
    funext a
    refine Fin.ext ?_
    match a with
    | ⟨0, _⟩ =>
      show ((rowScatterDims N E C wf).start (ix2 e c) idx 0 + (rowScatterDims N E C wf).window (ix2 e c) 0).toNat = n.val
      rw [start_row, window_row, hr]; omega
    | ⟨1, _⟩ =>
      show ((rowScatterDims N E C wf).start (ix2 e c) idx 1 + (rowScatterDims N E C wf).window (ix2 e c) 1).toNat = c.val
      rw [start_col, window_col]; omega

/-- The updates that land in row `n`: the entries of the index column whose integer is `n`. -/
def hits (idx : IVec ⟨2, ![E, 1]⟩ w) (n : Fin N) : Finset (Fin E) :=
  Finset.univ.filter fun e => (idx (ix2 e 0)).toInt = (n.val : Int)

/-- THE ROWS ADDED, READ AT `(n, c)` over the extended reals: the table's entry plus the sum, over the updates that
    land in row `n`, of their entries in column `c`. -/
theorem scatterAdd_rows_apply (x : FVec Ideal ⟨2, ![N, C]⟩ .f32) (idx : IVec ⟨2, ![E, 1]⟩ w)
    (u : FVec Ideal ⟨2, ![E, C]⟩ .f32) (n : Fin N) (c : Fin C) :
    Host.scatterAdd (rowScatterDims N E C wf) x idx u (ix2 n c) = x (ix2 n c) + ∑ e ∈ hits idx n, u (ix2 e c) := by
  show Ideal.hostScatterAdd (rowScatterDims N E C wf) x idx u (ix2 n c) = _
  unfold Ideal.hostScatterAdd
  refine congrArg (fun s => x (ix2 n c) + s) ?_
  rw [Finset.sum_filter, sum_idx2]
  unfold hits
  rw [Finset.sum_filter]
  refine Finset.sum_congr rfl fun e _ => ?_
  by_cases he : (idx (ix2 e 0)).toInt = (n.val : Int)
  · rw [if_pos he]
    rw [Finset.sum_eq_single c]
    · rw [if_pos ((resultIdx?_rows wf idx e c n c).mpr ⟨he, rfl⟩)]
    · intro c' _ hc'
      rw [if_neg (fun h => hc' ((resultIdx?_rows wf idx e c' n c).mp h).2)]
    · intro h; exact absurd (Finset.mem_univ c) h
  · rw [if_neg he]
    refine Finset.sum_eq_zero fun c' _ => ?_
    rw [if_neg (fun h => he ((resultIdx?_rows wf idx e c' n c).mp h).1)]

end Scatter

end Cert.RowGatherScatter

end
-- ==== Proof.LibVectorGatherScatter.lean ====
/-
  Entries of a vector taken by index and added by index, read at one element.

  For a vector `x : [N]` and a column of integers `idx : [E, 1]`:

  * taking entries — the gather whose result `[E]` has at `e` the entry of `x` that `idx (e, 0)` names — reads at `e`
    the entry `x r`, where `r` is `idx (e, 0)` as a signed integer brought into `[0, N − 1]`;
  * adding entries — the scatter that adds entry `e` of `u : [E]` onto the entry of `x` that `idx (e, 0)` names, an
    entry named outside `[0, N)` being dropped — has at `n`, over the extended reals, the entry `x n` plus the sum of
    `u e` over exactly those `e` whose integer `idx (e, 0)` is `n`.

  These are the one-axis siblings of the row gather and the row scatter-add of a table: the operand's only axis is
  the indexed one, so nothing is carried along and entry `e` of the updates lands on one entry of the operand.
-/
import Idealize.ShloMosaic.Lib.ValueIdx
import Idealize.ShloMosaic.PureOps.Ideal.Laws

noncomputable section

open scoped BigOperators

namespace Cert.VectorGatherScatter

open Idealize.ShloMosaic Idealize.ShloMosaic.ValueIdx

/-! ## A rank-1 index set is its one coordinate range -/

/-- A rank-1 index set is the range of its coordinate … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Taking entries -/

section Gather
variable {α : Type}

/-- The dimension numbers of "take the entries `idx` of an `[N]` vector": the one axis collapsed and indexed, no
    axis carried. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ENTRIES TAKEN, READ AT `e`: the vector at the named entry, the integer `idx (e, 0)` read signed and brought
    into `[0, N − 1]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e 0)).toInt.toNat (N - 1), by omega⟩) := by
  unfold Host.gather
  refine congrArg x ?_
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

/-! ## Adding entries -/

section Scatter

/-- The dimension numbers of "add the entries of `u : [E]` onto the entries `idx` of an `[N]` vector": the one axis
    inserted and indexed, the updates without a window. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- Update `e` starts at the integer `idx (e, 0)` read signed; -/
theorem start_vec (idx : IVec ⟨2, ![E, 1]⟩ w) (e : Fin E) :
    (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- it has no window: its window coordinate on the one axis is nothing. -/
theorem window_vec (e : Fin E) : (vecScatterDims N E wf).window (ix1 e) 0 = 0 := by
  unfold ScatterDims.window
  rw [dif_neg (show (0 : Fin 1) ∉ (vecScatterDims N E wf).sKept from
    (by decide : (0 : Fin 1) ∉ (List.finRange 1).filter (· ∉ ([0] : List (Fin 1)))))]

/-- WHERE UPDATE `e` LANDS: on `n` exactly when its integer is `n`. -/
theorem resultIdx?_vec (idx : IVec ⟨2, ![E, 1]⟩ w) (e : Fin E) (n : Fin N) :
    (vecScatterDims N E wf).resultIdx? (ix1 e) idx = some (ix1 n) ↔ (idx (ix2 e 0)).toInt = (n.val : Int) := by
  unfold ScatterDims.resultIdx?
  constructor
  · intro h
    split at h
    · rename_i hin
      have h' := Option.some.inj h
      have h0 := congrArg (fun f => (f 0).val) h'
      simp only [start_vec, window_vec] at h0
      have hb := hin 0
      rw [start_vec, window_vec] at hb
      have : ((idx (ix2 e 0)).toInt + ((0 : Nat) : Int)).toNat = n.val := h0
      omega
    · exact absurd h (by simp)
  · intro hr
    have h0 : 0 ≤ (vecScatterDims N E wf).start (ix1 e) idx 0 + (vecScatterDims N E wf).window (ix1 e) 0
        ∧ (vecScatterDims N E wf).start (ix1 e) idx 0 + (vecScatterDims N E wf).window (ix1 e) 0
          < (⟨1, ![N]⟩ : Shape).size 0 := by
      rw [start_vec, window_vec, hr]
      have := n.isLt
      refine ⟨by omega, ?_⟩
      show ((n.val : Int) + ((0 : Nat) : Int)) < ((N : Nat) : Int)
      omega
    have hin : ∀ a : Fin 1, 0 ≤ (vecScatterDims N E wf).start (ix1 e) idx a + (vecScatterDims N E wf).window (ix1 e) a
        ∧ (vecScatterDims N E wf).start (ix1 e) idx a + (vecScatterDims N E wf).window (ix1 e) a
          < (⟨1, ![N]⟩ : Shape).size a := fun a => match a with
      | ⟨0, _⟩ => h0
    rw [dif_pos hin]
    refine congrArg some ?_
    funext a
    refine Fin.ext ?_
    match a with
    | ⟨0, _⟩ =>
      show ((vecScatterDims N E wf).start (ix1 e) idx 0 + (vecScatterDims N E wf).window (ix1 e) 0).toNat = n.val
      rw [start_vec, window_vec, hr]; omega

/-- The updates that land on entry `n`: the entries of the index column whose integer is `n`. -/
def hits (idx : IVec ⟨2, ![E, 1]⟩ w) (n : Fin N) : Finset (Fin E) :=
  Finset.univ.filter fun e => (idx (ix2 e 0)).toInt = (n.val : Int)

/-- An update is among the hits of `n` exactly when its integer is `n`. -/
theorem mem_hits (idx : IVec ⟨2, ![E, 1]⟩ w) (n : Fin N) (e : Fin E) :
    e ∈ hits idx n ↔ (idx (ix2 e 0)).toInt = (n.val : Int) := by
  unfold hits
  rw [Finset.mem_filter]
  exact ⟨fun h => h.2, fun h => ⟨Finset.mem_univ e, h⟩⟩

/-- THE ENTRIES ADDED, READ AT `n` over the extended reals: the vector's entry plus the sum of the updates that land
    on `n`. -/
theorem scatterAdd_vec_apply (x : FVec Ideal ⟨1, ![N]⟩ .f32) (idx : IVec ⟨2, ![E, 1]⟩ w)
    (u : FVec Ideal ⟨1, ![E]⟩ .f32) (n : Fin N) :
    Host.scatterAdd (vecScatterDims N E wf) x idx u (ix1 n) = x (ix1 n) + ∑ e ∈ hits idx n, u (ix1 e) := by
  show Ideal.hostScatterAdd (vecScatterDims N E wf) x idx u (ix1 n) = _
  unfold Ideal.hostScatterAdd
  refine congrArg (fun s => x (ix1 n) + s) ?_
  rw [Finset.sum_filter, sum_idx1]
  unfold hits
  rw [Finset.sum_filter]
  refine Finset.sum_congr rfl fun e _ => ?_
  by_cases he : (idx (ix2 e 0)).toInt = (n.val : Int)
  · rw [if_pos he, if_pos ((resultIdx?_vec wf idx e n).mpr he)]
  · rw [if_neg he, if_neg (fun h => he ((resultIdx?_vec wf idx e n).mp h))]

end Scatter

end Cert.VectorGatherScatter

end
-- ==== Proof.LibHostBroadcast.lean ====
/-
  The host's broadcasts of a bias, of a column and of a scalar, read at an index.

  A vector of length `n` placed as a one-row matrix and repeated down `a` rows has at `(p, q)` its entry `q`.  A vector of
  length `a` placed as a one-column matrix and repeated across `b` columns has at `(p, q)` its entry `p`.  A scalar
  repeated over any shape has everywhere its one value.
-/
import Idealize.ShloMosaic.Lib.Pipeline.Value
import Idealize.ShloMosaic.Lib.ValueIdx

noncomputable section

namespace Cert.HostBroadcast

open Idealize.ShloMosaic Idealize.ShloMosaic.ValueIdx

variable {α : Type}

/-- A vector as a `[1, n]` row repeated over `[a, n]`: at `(p, q)` its entry `q`. -/
theorem row_apply {a n : ℕ} (v : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![a, n]⟩ ![0, 1]) (p : Fin a) (q : Fin n) :
    broadcastInDim ⟨2, ![a, n]⟩ ![0, 1] h2 (broadcastInDim ⟨2, ![1, n]⟩ ![1] h1 v) (ix2 p q) = v (ix1 q) := by
  rw [broadcastInDim_apply ![0, 1] h2 _ (ix2 p q) (ix2 (0 : Fin 1) q) (fun ax => by
    match ax with
    | ⟨0, _⟩ => show (0 : ℕ) = if (1 : ℕ) = 1 then 0 else p.val; rw [if_pos rfl]
    | ⟨1, _⟩ =>
      show q.val = if n = 1 then 0 else q.val
      split
      · have := q.isLt; omega
      · rfl)]
  exact broadcastInDim_apply ![1] h1 v (ix2 (0 : Fin 1) q) (ix1 q) (fun ax => by
    match ax with
    | ⟨0, _⟩ =>
      show q.val = if n = 1 then 0 else q.val
      split
      · have := q.isLt; omega
      · rfl)

/-- A vector as an `[a, 1]` column repeated over `[a, b]`: at `(p, q)` its entry `p`. -/
theorem col_apply {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) := by
  rw [broadcastInDim_apply ![0, 1] h2 _ (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])]
  exact broadcastInDim_apply ![0] h1 v (ix2 p (0 : Fin 1)) (ix1 p) (fun ax => by
    match ax with
    | ⟨0, _⟩ =>
      show p.val = if a = 1 then 0 else p.val
      split
      · have := p.isLt; omega
      · rfl)

/-- The same column form one step at a time: an `[a]` vector as an `[a, 1]` column, at `(p, 0)`. -/
theorem col_one_apply {a : ℕ} (v : (⟨1, ![a]⟩ : Shape).Idx → α)
    (h1 : (⟨1, ![a]⟩ : Shape).BroadcastsInDim ⟨2, ![a, 1]⟩ ![0]) (p : Fin a) :
    broadcastInDim ⟨2, ![a, 1]⟩ ![0] h1 v (ix2 p (0 : Fin 1)) = v (ix1 p) :=
  broadcastInDim_apply ![0] h1 v (ix2 p (0 : Fin 1)) (ix1 p) (fun ax => by
    match ax with
    | ⟨0, _⟩ =>
      show p.val = if a = 1 then 0 else p.val
      split
      · have := p.isLt; omega
      · rfl)

/-- An `[a, 1]` column repeated over `[a, b]`, at `(p, q)`: the column's entry `(p, 0)`. -/
theorem col_spread_apply {a b : ℕ} (v : (⟨2, ![a, 1]⟩ : Shape).Idx → α)
    (h2 : (⟨2, ![a, 1]⟩ : Shape).BroadcastsInDim ⟨2, ![a, b]⟩ ![0, 1]) (p : Fin a) (q : Fin b) :
    broadcastInDim ⟨2, ![a, b]⟩ ![0, 1] h2 v (ix2 p q) = v (ix2 p (0 : Fin 1)) :=
  broadcastInDim_apply ![0, 1] h2 v (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])

/-- A scalar repeated over any shape: everywhere its one value. -/
theorem scalar_apply {t : Shape} (x : (⟨0, ![]⟩ : Shape).Idx → α) (dims : Fin 0 → Fin t.rank)
    (h : (⟨0, ![]⟩ : Shape).BroadcastsInDim t dims) (j : t.Idx) :
    broadcastInDim t dims h x j = x ix0 :=
  broadcastInDim_apply dims h x j ix0 (fun ax => ax.elim0)

end Cert.HostBroadcast

end
-- ==== Proof.LibMeanAggregate.lean ====
/-
  Mean aggregation commutes with a linear map — the one law that joins the two programs.

  Fix a node. Let `H` be the edges arriving at it, `f e k` the feature `k` of edge `e`'s source row, `w e` the
  edge's weight, `wn k` one column of the neighbour weight matrix, and `d = max D 1` the node's clipped in-degree.
  One program first sums the weighted source rows, scales the sum by `1 / d` and then applies the matrix:

      ∑ k, ((0 + ∑ e ∈ H, f e k · w e) · (1 / d)) · wn k

  the other applies the matrix to every source row first, weights, sums and divides:

      (0 + ∑ e ∈ H, (∑ k, f e k · wn k) · w e) / d.

  Over the reals these agree by exchanging the two finite sums and distributing the products. Over the extended
  reals the same holds as soon as the `f`, `w`, `wn` are real: the divisor `d ≥ 1` is never zero, so dividing by it
  is multiplying by `d⁻¹`, and `d⁻¹` is a real number in `[0, 1]` whatever `D` is (`⊤⁻¹ = 0`); nothing infinite
  enters the sums.
-/
import Idealize.ShloMosaic.PureOps.Ideal

noncomputable section

open scoped BigOperators

namespace Cert.MeanAggregate

open Idealize.ShloMosaic

/-- The inclusion of the reals in the extended reals commutes with finite sums. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- THE LAW OVER THE REALS: scaling the aggregated rows by `c` and then contracting with `wn` is contracting every
    row with `wn` first, then weighting, summing and scaling. -/
theorem aggregate_real {E K : Type} [Fintype K] (H : Finset E) (f : E → K → ℝ) (w : E → ℝ) (wn : K → ℝ) (c : ℝ) :
    ∑ k, ((∑ e ∈ H, f e k * w e) * c) * wn k = (∑ e ∈ H, (∑ k, f e k * wn k) * w e) * c := by
  calc ∑ k, ((∑ e ∈ H, f e k * w e) * c) * wn k
      = ∑ k, ∑ e ∈ H, f e k * w e * c * wn k := by
        refine Finset.sum_congr rfl fun k _ => ?_
        rw [Finset.sum_mul, Finset.sum_mul]
    _ = ∑ e ∈ H, ∑ k, f e k * w e * c * wn k := Finset.sum_comm
    _ = ∑ e ∈ H, (∑ k, f e k * wn k) * w e * c := by
        refine Finset.sum_congr rfl fun e _ => ?_
        rw [Finset.sum_mul, Finset.sum_mul]
        exact Finset.sum_congr rfl fun k _ => by ring
    _ = (∑ e ∈ H, (∑ k, f e k * wn k) * w e) * c := by rw [Finset.sum_mul]

/-- The unit word of single precision denotes the number one. -/
theorem ofBits_one : Ideal.ofBits .f32 0x3F800000#32 = 1 := by
  simp [Ideal.ofBits, Ideal.ieee, -EReal.coe_mul]; norm_num

/-- A degree clipped below at one is never zero, and its inverse is a real number. -/
theorem inv_max_one (D : EReal) : max D 1 ≠ 0 ∧ ∃ c : ℝ, (max D 1)⁻¹ = (c : EReal) := by
  have h1 : (1 : EReal) ≤ max D 1 := le_max_right _ _
  generalize max D 1 = d at h1 ⊢
  refine ⟨fun h0 => ?_, ?_⟩
  · rw [h0] at h1
    exact absurd h1 (by norm_num)
  · induction d using EReal.rec with
    | bot => exact absurd (le_bot_iff.mp h1) (by exact_mod_cast EReal.coe_ne_bot (1 : ℝ))
    | coe r => exact ⟨r⁻¹, (EReal.coe_inv r).symm⟩
    | top => exact ⟨0, by simp⟩

/-- THE LAW OVER THE EXTENDED REALS, in the two programs' own spelling: real features, weights and matrix entries, any
    extended-real degree `D`. -/
theorem aggregate_ereal {E K : Type} [Fintype K] (H : Finset E) (f : E → K → ℝ) (w : E → ℝ) (wn : K → ℝ) (D : EReal) :
    ∑ k, (((0 : EReal) + ∑ e ∈ H, (f e k : EReal) * (w e : EReal)) * Ideal.div 1 (max D 1)) * (wn k : EReal)
      = Ideal.div (0 + ∑ e ∈ H, (∑ k, (f e k : EReal) * (wn k : EReal)) * (w e : EReal)) (max D 1) := by
  obtain ⟨h0, c, hc⟩ := inv_max_one D
  unfold Ideal.div
  rw [if_neg h0, if_neg h0, hc, one_mul, zero_add]
  have hl : ∀ k, (((0 : EReal) + ∑ e ∈ H, (f e k : EReal) * (w e : EReal)) * (c : EReal)) * (wn k : EReal)
      = (((∑ e ∈ H, f e k * w e) * c * wn k : ℝ) : EReal) := fun k => by
    rw [zero_add, EReal.coe_mul, EReal.coe_mul, coe_sum]
    simp only [EReal.coe_mul]
  have hr : ∀ e, (∑ k, (f e k : EReal) * (wn k : EReal)) * (w e : EReal) = (((∑ k, f e k * wn k) * w e : ℝ) : EReal) := fun e => by
    rw [EReal.coe_mul, coe_sum]
    simp only [EReal.coe_mul]
  simp only [hl, hr]
  rw [← coe_sum, ← coe_sum, ← EReal.coe_mul]
  exact congrArg _ (aggregate_real H f w wn c)

end Cert.MeanAggregate

end
-- ==== Proof.LibScaledSum.lean ====
/-
  Two laws of the extended reals that need no finiteness.

  * Scaling a sum. Multiplying by a real number `c ≥ 0` preserves `⊥`, `⊤` and the order of the extended reals and
    sends reals to reals, so it distributes over EVERY finite sum of extended reals — also over a sum that contains
    both infinities (where `⊤ + ⊥ = ⊥` on both sides). Hence, for a divisor `d = max D 1` (never zero, its inverse a
    real in `[0, 1]` whatever `D` is), weighting every term by `1 / d` before the sum is dividing the sum by `d`:

        0 + ∑ e ∈ s, f e · (1 / d)  =  (0 + ∑ e ∈ s, f e) / d        for arbitrary extended reals `f e`.

  * The exponential linear unit in two spellings. `h` above zero and `exp (min h 0) − 1` otherwise is the same
    extended real as `h` above zero and `1 · (exp h' − 1)` otherwise, where `h'` is `0` when `h` is above zero and
    `h` otherwise: off the positive branch `h ≤ 0`, so `min h 0 = h = h'`.
-/
import Idealize.ShloMosaic.PureOps.Ideal
import Idealize.ShloMosaic.PureOps.Ideal.Laws
import Idealize.ShloMosaic.Lib.ValueIdx
import proofs.«142712_j41575283426038_2_alg».proof.Proof.LibMeanAggregate

noncomputable section

open scoped BigOperators

namespace Cert.ScaledSum

open Idealize.ShloMosaic

/-- Multiplication by a nonnegative real distributes over any finite sum of extended reals. -/
theorem sum_mul_coe {ι : Type} (s : Finset ι) (f : ι → EReal) (c : ℝ) (hc : 0 ≤ c) :
    ∑ e ∈ s, f e * (c : EReal) = (∑ e ∈ s, f e) * (c : EReal) := by
  classical
  refine Finset.induction_on s (by simp) ?_
  intro a s ha ih
  rw [Finset.sum_insert ha, Finset.sum_insert ha, ih,
    EReal.right_distrib_of_nonneg_of_ne_top (EReal.coe_nonneg.mpr hc) (EReal.coe_ne_top c)]

/-- A quantity clipped below at one is never zero, and its inverse is a NONNEGATIVE real: the inverse of an extended
    real that is at least one is at least zero. -/
theorem inv_max_one (D : EReal) : max D 1 ≠ 0 ∧ ∃ c : ℝ, 0 ≤ c ∧ (max D 1)⁻¹ = (c : EReal) := by
  obtain ⟨h0, c, hc⟩ := MeanAggregate.inv_max_one D
  refine ⟨h0, c, ?_, hc⟩
  have hpos : (0 : EReal) ≤ max D 1 := le_trans (by norm_num) (le_max_right D 1)
  have hinv : (0 : EReal) ≤ (max D 1)⁻¹ := EReal.inv_nonneg_of_nonneg hpos
  rw [hc] at hinv
  exact_mod_cast hinv

/-- WEIGHTING BEFORE THE SUM IS DIVIDING AFTER IT: for arbitrary extended reals `f e` and any `D`. -/
theorem mean_scaled {ι : Type} (s : Finset ι) (f : ι → EReal) (D : EReal) :
    (0 : EReal) + ∑ e ∈ s, f e * Ideal.div 1 (max D 1) = Ideal.div (0 + ∑ e ∈ s, f e) (max D 1) := by
  obtain ⟨h0, c, hc, hinv⟩ := inv_max_one D
  unfold Ideal.div
  rw [if_neg h0, if_neg h0, hinv, one_mul, zero_add, zero_add]
  exact sum_mul_coe s f c hc

/-- The unit word of single precision denotes the number one. -/
theorem ofBits_one : Ideal.ofBits .f32 0x3F800000#32 = 1 := MeanAggregate.ofBits_one

/-- THE EXPONENTIAL LINEAR UNIT IN ITS TWO SPELLINGS, at any extended real. -/
theorem elu_two_spellings (h : EReal) :
    Scalar.select (Ideal.cmp .ogt h (Ideal.ofBits .f32 0x00000000#32)) h
        (Ideal.ofBits .f32 0x3F800000#32
          * (Ideal.exp (Scalar.select (Ideal.cmp .ogt h (Ideal.ofBits .f32 0x00000000#32)) (Ideal.ofBits .f32 0x00000000#32) h) - 1))
      = Scalar.select (Ideal.cmp .ogt h (Ideal.ofBits .f32 0x00000000#32)) h
        (Ideal.exp (min h (Ideal.ofBits .f32 0x00000000#32)) - Ideal.ofBits .f32 0x3F800000#32) := by
  rw [ofBits_one, Ideal.ofBits_zero_f32]
  by_cases hp : (0 : EReal) < h
  · have hc : Ideal.cmp .ogt h 0 = 1#1 := by simp [Ideal.cmp, hp]
    rw [hc, ValueIdx.select_one, ValueIdx.select_one]
  · have hc : Ideal.cmp .ogt h 0 = 0#1 := by simp [Ideal.cmp, hp]
    have hle : h ≤ 0 := not_lt.mp hp
    rw [hc, ValueIdx.select_zero, ValueIdx.select_zero, ValueIdx.select_zero, one_mul, min_eq_left hle]

end Cert.ScaledSum

end
-- ==== Proof.Aggregate.lean ====
/-
  Weighting the messages before they are added is dividing the added messages afterwards.

  Fix a table of messages `G : [E, C]` (one row per edge), a column `dcol : [E, 1]` naming each edge's target row, a
  second column `ncol : [E, 1]` of the same targets after the "negative index" normalisation, and any vector
  `D : [N]` (the in-degrees). One program multiplies row `e` of `G` by `1 / max (D r) 1`, `r` the row that
  `ncol e` names once brought into range, and adds the products onto the rows `dcol` names; the other adds the rows
  of `G` first and divides row `n` of the result by `max (D n) 1`. Only the edges with `dcol e = n` reach row `n`,
  and on those `ncol e` names `n` too (`hhit`), so at `(n, c)` the first is `0 + ∑ G (e, c) · (1 / d)` and the second
  `(0 + ∑ G (e, c)) / d` over the same edges, with `d = max (D n) 1`: equal for ARBITRARY extended reals in `G` and
  `D`, because `1 / d` is a nonnegative real.
-/
import proofs.«142712_j41575283426038_2_alg».proof.Proof.LibRowGatherScatter
import proofs.«142712_j41575283426038_2_alg».proof.Proof.LibVectorGatherScatter
import proofs.«142712_j41575283426038_2_alg».proof.Proof.LibHostBroadcast
import proofs.«142712_j41575283426038_2_alg».proof.Proof.LibScaledSum

noncomputable section

open scoped BigOperators

namespace Cert.Aggregate

open Idealize.ShloMosaic Idealize.ShloMosaic.ValueIdx

variable {N E C : Nat}

/-- The host's quotient of two arrays at an index divides the entries. -/
theorem hostDivf_apply {s : Shape} {φ : FTy} (a b : FVec Ideal s φ) (i : s.Idx) : Host.divf a b i = Ideal.div (a i) (b i) := rfl

/-- THE TWO AGGREGATIONS AGREE, as whole arrays. -/
theorem weighted_eq_mean (hN : 0 < N)
    (wfS : ScatterDims.WF ⟨2, ![N, C]⟩ ⟨2, ![E, 1]⟩ ⟨2, ![E, C]⟩ [1] [0] [0] 1)
    (wfG : GatherDims.WF ⟨1, ![N]⟩ ⟨2, ![E, 1]⟩ ⟨1, ![E]⟩ [] [0] [] [0] [] 1 ![1])
    (hz2 : (⟨0, ![]⟩ : Shape).BroadcastsInDim ⟨2, ![N, C]⟩ (![] : Fin 0 → Fin 2))
    (h1N : (⟨0, ![]⟩ : Shape).BroadcastsInDim ⟨1, ![N]⟩ (![] : Fin 0 → Fin 1))
    (hcolE : (⟨1, ![E]⟩ : Shape).BroadcastsInDim ⟨2, ![E, 1]⟩ ![0])
    (hspreadE : (⟨2, ![E, 1]⟩ : Shape).BroadcastsInDim ⟨2, ![E, C]⟩ ![0, 1])
    (hcolN : (⟨1, ![N]⟩ : Shape).BroadcastsInDim ⟨2, ![N, 1]⟩ ![0])
    (hspreadN : (⟨2, ![N, 1]⟩ : Shape).BroadcastsInDim ⟨2, ![N, C]⟩ ![0, 1])
    (G : FVec Ideal ⟨2, ![E, C]⟩ .f32) (dcol ncol : IVec ⟨2, ![E, 1]⟩ 32) (D : FVec Ideal ⟨1, ![N]⟩ .f32)
    (hhit : ∀ (e : Fin E) (n : Fin N), (dcol (ix2 e 0)).toInt = (n.val : Int) →
      min (ncol (ix2 e 0)).toInt.toNat (N - 1) = n.val) :
    Host.scatterAdd (RowGatherScatter.rowScatterDims N E C wfS)
        (broadcastInDim ⟨2, ![N, C]⟩ ![] hz2 (constant (F := Ideal) ⟨0, ![]⟩ .f32 0x00000000#32)) dcol
        (mulf G (broadcastInDim ⟨2, ![E, C]⟩ ![0, 1] hspreadE (broadcastInDim ⟨2, ![E, 1]⟩ ![0] hcolE
          (Host.gather (VectorGatherScatter.vecGatherDims N E wfG)
            (Host.divf (broadcastInDim ⟨1, ![N]⟩ ![] h1N (constant (F := Ideal) ⟨0, ![]⟩ .f32 0x3F800000#32))
              (maximumf D (broadcastInDim ⟨1, ![N]⟩ ![] h1N (constant (F := Ideal) ⟨0, ![]⟩ .f32 0x3F800000#32))))
            ncol))))
      = Host.divf
          (Host.scatterAdd (RowGatherScatter.rowScatterDims N E C wfS)
            (broadcastInDim ⟨2, ![N, C]⟩ ![] hz2 (constant (F := Ideal) ⟨0, ![]⟩ .f32 0x00000000#32)) dcol G)
          (broadcastInDim ⟨2, ![N, C]⟩ ![0, 1] hspreadN (broadcastInDim ⟨2, ![N, 1]⟩ ![0] hcolN
            (maximumf D (broadcastInDim ⟨1, ![N]⟩ ![] h1N (constant (F := Ideal) ⟨0, ![]⟩ .f32 0x3F800000#32))))) := by
  funext i
  obtain ⟨n, c, rfl⟩ : ∃ (n : Fin N) (c : Fin C), i = ix2 n c := ⟨i 0, i 1, eq_ix2 i⟩
  have hone : ∀ j, broadcastInDim ⟨1, ![N]⟩ ![] h1N (constant (F := Ideal) ⟨0, ![]⟩ .f32 0x3F800000#32) j = 1 := fun j => by
    rw [HostBroadcast.scalar_apply]; exact ScaledSum.ofBits_one
  have hzero : broadcastInDim ⟨2, ![N, C]⟩ ![] hz2 (constant (F := Ideal) ⟨0, ![]⟩ .f32 0x00000000#32) (ix2 n c) = 0 := by
    rw [HostBroadcast.scalar_apply]; exact Ideal.ofBits_zero_f32
  -- the divisor of row `n`
  have hden : broadcastInDim ⟨2, ![N, C]⟩ ![0, 1] hspreadN (broadcastInDim ⟨2, ![N, 1]⟩ ![0] hcolN
      (maximumf D (broadcastInDim ⟨1, ![N]⟩ ![] h1N (constant (F := Ideal) ⟨0, ![]⟩ .f32 0x3F800000#32)))) (ix2 n c)
      = max (D (ix1 n)) 1 := by
    rw [HostBroadcast.col_apply, maximumf_apply, hone]
  -- the weight of an edge that lands in row `n`
  have hw : ∀ e ∈ RowGatherScatter.hits dcol n,
      (mulf G (broadcastInDim ⟨2, ![E, C]⟩ ![0, 1] hspreadE (broadcastInDim ⟨2, ![E, 1]⟩ ![0] hcolE
        (Host.gather (VectorGatherScatter.vecGatherDims N E wfG)
          (Host.divf (broadcastInDim ⟨1, ![N]⟩ ![] h1N (constant (F := Ideal) ⟨0, ![]⟩ .f32 0x3F800000#32))
            (maximumf D (broadcastInDim ⟨1, ![N]⟩ ![] h1N (constant (F := Ideal) ⟨0, ![]⟩ .f32 0x3F800000#32))))
          ncol)))) (ix2 e c)
        = G (ix2 e c) * Ideal.div 1 (max (D (ix1 n)) 1) := fun e he => by
    have hd : (dcol (ix2 e 0)).toInt = (n.val : Int) := (Finset.mem_filter.mp he).2
    rw [mulf_apply, HostBroadcast.col_apply, VectorGatherScatter.gather_vec_apply hN]
    have hrow : (⟨min (ncol (ix2 e 0)).toInt.toNat (N - 1), by omega⟩ : Fin N) = n := Fin.ext (hhit e n hd)
    rw [hrow, hostDivf_apply, hone, maximumf_apply, hone]
  rw [hostDivf_apply, RowGatherScatter.scatterAdd_rows_apply, RowGatherScatter.scatterAdd_rows_apply, hzero, hden,
    Finset.sum_congr rfl hw]
  exact ScaledSum.mean_scaled _ _ _

end Cert.Aggregate

end
-- ==== Proof.LibJoinIota.lean ====
/-
  Two vectors joined end to end, the vector of positions, and the words that name a position — read at one element.

  * Joining: for `a : [A]` and `b : [B]` the vector `[C]`, `C = A + B`, that is `a` followed by `b` reads at `j` the
    entry `a j` when `j < A` and the entry `b (j − A)` when `A ≤ j`.
  * Positions: the vector `[N]` whose entry `n` is the 32-bit word of `n`; while `N ≤ 2³¹` that word, read as a signed
    integer, is `n` itself.
  * Words that name a position: a 32-bit word whose signed integer is a natural number `k < K` (with `K < 2³¹`) is
    not negative, so the rule "add `K` to a negative index" leaves it as it is, and bringing its integer into
    `[0, K − 1]` gives `k`. Stated for every such `K` and at `K = 100000`.
  * The comparison, the sum and the choice of integer vectors read at an index are those of the entries.
-/
import Idealize.ShloMosaic.Lib.ValueIdx
import Idealize.ShloMosaic.Lib.Pipeline.Value
import Idealize.ShloMosaic.Lib.WordArith
import Idealize.ShloMosaic.Lib.Affine

noncomputable section

namespace Cert.JoinIota

open Idealize.ShloMosaic Idealize.ShloMosaic.ValueIdx

/-! ## Two vectors joined end to end -/

section Join
variable {α : Type} {A B C : Nat}

/-- The joined vector is as long as the two together. -/
theorem join_extent (h : Shape.Concatenates [(⟨1, ![A]⟩ : Shape), ⟨1, ![B]⟩] ⟨1, ![C]⟩ 0) : C = A + B := by
  have e : A + (B + 0) = C := h.2.2
  omega

/-- THE JOINED VECTOR READ IN ITS FIRST PART: at `j < A` it is the first vector at `j`. -/
theorem join_left_apply (a : (⟨1, ![A]⟩ : Shape).Idx → α) (b : (⟨1, ![B]⟩ : Shape).Idx → α)
    (h : Shape.Concatenates [(⟨1, ![A]⟩ : Shape), ⟨1, ![B]⟩] ⟨1, ![C]⟩ 0) (j : Fin C) (hj : j.val < A) :
    concatenate ⟨1, ![C]⟩ 0 [⟨⟨1, ![A]⟩, a⟩, ⟨⟨1, ![B]⟩, b⟩] h (ix1 j) = a (ix1 ⟨j.val, hj⟩) :=
  concatenate_pair_apply_left 0 a b h (ix1 j) rfl (ix1 ⟨j.val, hj⟩) (fun c => match c with | ⟨0, _⟩ => rfl)

/-- THE JOINED VECTOR READ IN ITS SECOND PART: at `A ≤ j` it is the second vector at `j − A`. -/
theorem join_right_apply (a : (⟨1, ![A]⟩ : Shape).Idx → α) (b : (⟨1, ![B]⟩ : Shape).Idx → α)
    (h : Shape.Concatenates [(⟨1, ![A]⟩ : Shape), ⟨1, ![B]⟩] ⟨1, ![C]⟩ 0) (j : Fin C) (hj : A ≤ j.val) :
    concatenate ⟨1, ![C]⟩ 0 [⟨⟨1, ![A]⟩, a⟩, ⟨⟨1, ![B]⟩, b⟩] h (ix1 j)
      = b (ix1 ⟨j.val - A, by have := join_extent h; have := j.isLt; omega⟩) :=
  concatenate_pair_apply_right 0 a b h (ix1 j) rfl rfl (ix1 ⟨j.val - A, by have := join_extent h; have := j.isLt; omega⟩)
    (fun c hc => match c, hc with | ⟨0, _⟩, hc => absurd rfl hc)
    (by show j.val - A + A = j.val; omega)

end Join

/-! ## The vector of positions -/

section Iota
variable {N : Nat}

/-- THE VECTOR OF POSITIONS READ AT `n`: the 32-bit word of `n`. -/
theorem iota_vec_apply (n : Fin N) : iotaInDim ⟨1, ![N]⟩ 32 0 (ix1 n) = BitVec.ofNat 32 n.val := rfl

/-- While there are at most `2³¹` positions, the word of position `n` read signed is `n`. -/
theorem iota_toInt (hN : N ≤ 2 ^ 31) (n : Fin N) : (BitVec.ofNat 32 n.val).toInt = (n.val : Int) :=
  WordArith.toInt_ofNat_small n.val (by have := n.isLt; omega)

end Iota

/-! ## Comparison, sum and choice of integer vectors at an index -/

section Pointwise
variable {s : Shape} {w : Nat}

/-- A comparison of integer vectors at an index compares the entries. -/
theorem cmpi_apply (p : CmpIPredicate) (x y : IVec s w) (i : s.Idx) : cmpi p x y i = IntOp.cmpi p (x i) (y i) := rfl
/-- A sum of integer vectors at an index adds the entries (as words, wrapping). -/
theorem addi_apply (x y : IVec s w) (i : s.Idx) : addi x y i = x i + y i := rfl
/-- An integer constant reads its word everywhere. -/
theorem constantI_apply (b : BitVec w) (i : s.Idx) : constantI s w b i = b := rfl

end Pointwise

/-! ## Words that name a position -/

section Words

/-- A word whose signed integer is a natural number is not below zero: the comparison "below zero" answers no. -/
theorem slt_zero_of_hit (v : BitVec 32) (k : Nat) (h : v.toInt = (k : Int)) : IntOp.cmpi .slt v 0#32 = 0#1 := by
  refine eq_zero_of_ne_one fun h1 => ?_
  have := IntOp.cmpi_slt.mp h1
  rw [h] at this
  have h0 : (0#32 : BitVec 32).toInt = 0 := by decide
  rw [h0] at this
  omega

/-- "Add `K` to a negative index" leaves a word that names a position as it is, whatever word `K` is. -/
theorem norm_of_hit' (v c : BitVec 32) (k : Nat) (h : v.toInt = (k : Int)) :
    Scalar.select (IntOp.cmpi .slt v 0#32) (v + c) v = v := by
  rw [slt_zero_of_hit v k h, select_zero]

/-- … in particular at `K = 100000`. -/
theorem norm_of_hit (v : BitVec 32) (k : Nat) (_hk : k < 100000) (h : v.toInt = (k : Int)) :
    Scalar.select (IntOp.cmpi .slt v 0#32) (v + 100000#32) v = v :=
  norm_of_hit' v 100000#32 k h

/-- Bringing the integer of a word that names position `k < K` into `[0, K − 1]` gives `k`. -/
theorem clamp_of_hit' (K : Nat) (v : BitVec 32) (k : Nat) (hk : k < K) (h : v.toInt = (k : Int)) :
    min v.toInt.toNat (K - 1) = k := by
  rw [h]
  omega

/-- … in particular at `K = 100000`. -/
theorem clamp_of_hit (v : BitVec 32) (k : Nat) (hk : k < 100000) (h : v.toInt = (k : Int)) :
    min v.toInt.toNat (100000 - 1) = k :=
  clamp_of_hit' 100000 v k hk h

end Words

end Cert.JoinIota

end
-- ==== Proof.AggregateAt.lean ====
/-
  The two programs' neighbour aggregations are one array, for any feature table.

  The kernel program's host part weights each gathered source row by one over the clipped in-degree of the edge's
  target (read at the target after the "negative index" normalisation) and adds the weighted rows onto the target
  rows; the reference adds the gathered rows and divides each target row by its clipped in-degree. An edge reaches
  row `n` only if its target word, read signed, IS `n`; such a word is not negative, so the normalisation leaves it
  alone and bringing it into range gives `n` again — the weight used is row `n`'s own. The rest is the general law.
-/
import proofs.«142712_j41575283426038_2_alg».proof.Proof.KerTerm
import proofs.«142712_j41575283426038_2_alg».proof.Proof.RefTerm
import proofs.«142712_j41575283426038_2_alg».proof.Proof.Aggregate
import proofs.«142712_j41575283426038_2_alg».proof.Proof.LibJoinIota

noncomputable section

namespace Cert.AggregateAt

open Idealize.ShloMosaic Idealize.ShloMosaic.ValueIdx
open Cert.KernelIdeal.Facts₀

variable [Cert.KernelIdeal.Facts] [Cert.ReferenceIdeal.Facts]

/-- On an edge whose target word names row `n`, the normalised target column names `n` too, once brought into range. -/
theorem hit_clamps (ei : IVec Cert.KernelIdeal.S2x1600000 32) (e : Fin 1600000) (n : Fin 100000)
    (h : (Cert.KernelIdeal.Term.col (Cert.KernelIdeal.Term.dst ei) (ix2 e 0)).toInt = (n.val : Int)) :
    min (Cert.KernelIdeal.Term.col (Cert.KernelIdeal.Term.norm (Cert.KernelIdeal.Term.dst ei)) (ix2 e 0)).toInt.toNat (100000 - 1) = n.val := by
  have hc : ∀ v : IVec Cert.KernelIdeal.S1600000 32, Cert.KernelIdeal.Term.col v (ix2 e 0) = v (ix1 e) := fun v =>
    HostBroadcast.col_one_apply v bcast_S1600000_S1600000x1_0 e
  rw [hc] at h ⊢
  have hn : Cert.KernelIdeal.Term.norm (Cert.KernelIdeal.Term.dst ei) (ix1 e) = Cert.KernelIdeal.Term.dst ei (ix1 e) := by
    unfold Cert.KernelIdeal.Term.norm
    rw [select_apply, JoinIota.cmpi_apply, JoinIota.addi_apply, HostBroadcast.scalar_apply, HostBroadcast.scalar_apply,
      JoinIota.constantI_apply, JoinIota.constantI_apply]
    exact JoinIota.norm_of_hit _ n.val n.isLt h
  rw [hn]
  exact JoinIota.clamp_of_hit _ n.val n.isLt h

/-- THE 64-COLUMN AGGREGATIONS AGREE. -/
theorem agg64_eq (X : FVec Ideal Cert.KernelIdeal.S100000x64 .f32) (ei : IVec Cert.KernelIdeal.S2x1600000 32) :
    Cert.KernelIdeal.Term.agg64 X ei = Cert.ReferenceIdeal.Term.mean64 X ei := by
  unfold Cert.KernelIdeal.Term.agg64 Cert.KernelIdeal.Term.wgt Cert.KernelIdeal.Term.inv Cert.KernelIdeal.Term.degc
  exact Aggregate.weighted_eq_mean (N := 100000) (E := 1600000) (C := 64) (by norm_num)
    Cert.KernelIdeal.scatter_S100000x64_S1600000x1_S1600000x64_1_0_0_1.wf
    Cert.KernelIdeal.gather_S100000_S1600000x1_S1600000_n_0_n_n_0_1_1.wf
    bcast_S_S100000x64 bcast_S_S100000 bcast_S1600000_S1600000x1_0 bcast_S1600000x1_S1600000x64_0_1
    Cert.ReferenceIdeal.Facts₀.bcast_S100000_S100000x1_0 Cert.ReferenceIdeal.Facts₀.bcast_S100000x1_S100000x64_0_1
    (Host.gather Cert.KernelIdeal.gather_S100000x64_S1600000x1_S1600000x64_1_0_n_n_0_1_164 X
      (Cert.KernelIdeal.Term.col (Cert.KernelIdeal.Term.norm (Cert.KernelIdeal.Term.src ei))))
    (Cert.KernelIdeal.Term.col (Cert.KernelIdeal.Term.dst ei))
    (Cert.KernelIdeal.Term.col (Cert.KernelIdeal.Term.norm (Cert.KernelIdeal.Term.dst ei)))
    (Cert.KernelIdeal.Term.deg ei) (hit_clamps ei)

/-- THE 128-COLUMN AGGREGATIONS AGREE. -/
theorem agg128_eq (X : FVec Ideal Cert.KernelIdeal.S100000x128 .f32) (ei : IVec Cert.KernelIdeal.S2x1600000 32) :
    Cert.KernelIdeal.Term.agg128 X ei = Cert.ReferenceIdeal.Term.mean128 X ei := by
  unfold Cert.KernelIdeal.Term.agg128 Cert.KernelIdeal.Term.wgt Cert.KernelIdeal.Term.inv Cert.KernelIdeal.Term.degc
  exact Aggregate.weighted_eq_mean (N := 100000) (E := 1600000) (C := 128) (by norm_num)
    Cert.KernelIdeal.scatter_S100000x128_S1600000x1_S1600000x128_1_0_0_1.wf
    Cert.KernelIdeal.gather_S100000_S1600000x1_S1600000_n_0_n_n_0_1_1.wf
    bcast_S_S100000x128 bcast_S_S100000 bcast_S1600000_S1600000x1_0 bcast_S1600000x1_S1600000x128_0_1
    Cert.ReferenceIdeal.Facts₀.bcast_S100000_S100000x1_0 Cert.ReferenceIdeal.Facts₀.bcast_S100000x1_S100000x128_0_1
    (Host.gather Cert.KernelIdeal.gather_S100000x128_S1600000x1_S1600000x128_1_0_n_n_0_1_1128 X
      (Cert.KernelIdeal.Term.col (Cert.KernelIdeal.Term.norm (Cert.KernelIdeal.Term.src ei))))
    (Cert.KernelIdeal.Term.col (Cert.KernelIdeal.Term.dst ei))
    (Cert.KernelIdeal.Term.col (Cert.KernelIdeal.Term.norm (Cert.KernelIdeal.Term.dst ei)))
    (Cert.KernelIdeal.Term.deg ei) (hit_clamps ei)

end Cert.AggregateAt

end
-- ==== Proof.LibHostProduct.lean ====
/-
  The host's matrix product and two of its broadcasts, read at an index, at the ideal values.

  For `A : [m, k]` and `B : [k, n]`, the host's product contracting the second axis of `A` with the first of `B` has at
  `(a, b)` the sum over `c` of `A (a, c) · B (c, b)`: it has no accumulator, so this is the whole entry.  An `[a, 1]`
  column laid along the columns of an `[a, b]` array has at `(p, c)` the column's entry `p`, and a vector of length `n`
  laid as a `[1, n]` row has at `(0, q)` its entry `q`.
-/
import Idealize.ShloMosaic.Lib.Pipeline.Value
import Idealize.ShloMosaic.Lib.ValueIdx
import Idealize.ShloMosaic.PureOps.Ideal.Laws

noncomputable section

namespace Cert.HostProduct

open Idealize.ShloMosaic Idealize.ShloMosaic.ValueIdx

/-- The host's `A · B`, read at `(a, b)`: the sum over the shared coordinate of the products. -/
theorem dotGeneral_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

variable {α : Type}

/-- An `[a, 1]` column laid along the columns of an `[a, b]` array: entry `(p, c)` is the column's entry `p`. -/
theorem broadcastInDim_col_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) ?_
  intro ax
  match ax with
  | ⟨0, _⟩ =>
    show p.val = if a = 1 then 0 else p.val
    split
    · have := p.isLt; omega
    · rfl
  | ⟨1, _⟩ =>
    show (0 : ℕ) = if (1 : ℕ) = 1 then 0 else _
    simp

/-- A vector laid as a one-row matrix by the host: entry `(0, q)` is the vector's entry `q`. -/
theorem broadcastInDim_row_apply {n : ℕ} (h : (⟨1, ![n]⟩ : Shape).BroadcastsInDim ⟨2, ![1, n]⟩ ![1])
    (v : (⟨1, ![n]⟩ : Shape).Idx → α) (q : Fin n) :
    broadcastInDim ⟨2, ![1, n]⟩ ![1] h v (ix2 (0 : Fin 1) q) = v (ix1 q) := by
  refine broadcastInDim_apply ![1] h v (ix2 (0 : Fin 1) q) (ix1 q) ?_
  intro ax
  match ax with
  | ⟨0, _⟩ =>
    show q.val = if n = 1 then 0 else q.val
    split
    · have := q.isLt; omega
    · rfl

end Cert.HostProduct

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.Dense.lean ====
/-
  The dense parts of the two programs are one function.

  At entry `(n, j)` both programs' convolution is `h = ∑ₖ A (n, k) · Wlᵀ (k, j) + b j + ∑ₖ X (n, k) · Wrᵀ (k, j)` — one
  reads the bias through a one-row re-layout, the other through two broadcasts; both transpose the weight matrices by
  the same operation — followed by the exponential linear unit, which the two programs spell differently but which is
  one function of `h` on the extended reals. The head contracts the 128 unit outputs of row `n` with the head's weight
  column and adds the head's bias, in both programs.
-/
import proofs.«142712_j41575283426038_2_alg».proof.Proof.KerTerm
import proofs.«142712_j41575283426038_2_alg».proof.Proof.RefTerm
import proofs.«142712_j41575283426038_2_alg».proof.Proof.LibHostProduct
import proofs.«142712_j41575283426038_2_alg».proof.Proof.LibHostBroadcast
import proofs.«142712_j41575283426038_2_alg».proof.Proof.LibBroadcast
import proofs.«142712_j41575283426038_2_alg».proof.Proof.LibScaledSum

noncomputable section

open scoped BigOperators

namespace Cert.Dense

open Idealize.ShloMosaic Idealize.ShloMosaic.ValueIdx

variable [Cert.KernelIdeal.Facts] [Cert.ReferenceIdeal.Facts]

/-- The reference's unit, read at an index, is the regions' unit of the entry. -/
theorem ref_elu_apply (h : FVec Ideal Cert.ReferenceIdeal.S100000x128 .f32) (i : Cert.ReferenceIdeal.S100000x128.Idx) :
    Cert.ReferenceIdeal.Term.elu h i = Cert.KernelIdeal.Term.eluK (h i) := by
  unfold Cert.ReferenceIdeal.Term.elu Cert.ReferenceIdeal.Term.zeros Cert.KernelIdeal.Term.eluK
  rw [select_apply, cmpf_apply, mulf_apply, HostBroadcast.scalar_apply, HostBroadcast.scalar_apply]
  show Scalar.select (Ideal.cmp .ogt (h i) (Ideal.ofBits .f32 0x00000000#32)) (h i)
      (Ideal.ofBits .f32 0x3F800000#32 * (Ideal.exp (select _ _ h i) - 1)) = _
  rw [select_apply, cmpf_apply, HostBroadcast.scalar_apply, HostBroadcast.scalar_apply]
  exact ScaledSum.elu_two_spellings (h i)

/-- The first convolution's linear part at `(n, j)`. -/
theorem lin1_apply (A X : FVec Ideal Cert.ReferenceIdeal.S100000x64 .f32) (Wl : FVec Ideal Cert.ReferenceIdeal.S128x64 .f32)
    (b : FVec Ideal Cert.ReferenceIdeal.S128 .f32) (Wr : FVec Ideal Cert.ReferenceIdeal.S128x64 .f32) (n : Fin 100000) (j : Fin 128) :
    Cert.ReferenceIdeal.Term.lin1 A X Wl b Wr (ix2 n j)
      = Cert.KernelIdeal.Term.pre 64 A X (Cert.KernelIdeal.Term.wT64 Wl) (Cert.KernelIdeal.Term.wT64 Wr) (Cert.KernelIdeal.Term.row b) n j := by
  have hl := HostProduct.dotGeneral_nn_apply Cert.ReferenceIdeal.dot_S100000x64_S64x128_S100000x128_1_0_0_1_n_n.wf none A
    (transpose Cert.ReferenceIdeal.S64x128 [1, 0] Wl Cert.ReferenceIdeal.Facts₀.transposes_S128x64_S64x128_1_0) n j
  have hr := HostProduct.dotGeneral_nn_apply Cert.ReferenceIdeal.dot_S100000x64_S64x128_S100000x128_1_0_0_1_n_n.wf none X
    (transpose Cert.ReferenceIdeal.S64x128 [1, 0] Wr Cert.ReferenceIdeal.Facts₀.transposes_S128x64_S64x128_1_0) n j
  have hb := HostBroadcast.row_apply b Cert.ReferenceIdeal.Facts₀.bcast_S128_S1x128_1 Cert.ReferenceIdeal.Facts₀.bcast_S1x128_S100000x128_0_1 n j
  have hk := Layout.shapeCast_row_apply b Cert.KernelIdeal.Facts₀.shapeCasts_S128_S1x128 j
  unfold Cert.ReferenceIdeal.Term.lin1 Cert.KernelIdeal.Term.pre
  rw [addf_apply, addf_apply]
  refine congrArg₂ (· + ·) (congrArg₂ (· + ·) (hl.trans rfl) (hb.trans hk.symm)) (hr.trans rfl)

/-- The second convolution's linear part at `(n, j)`. -/
theorem lin2_apply (A X : FVec Ideal Cert.ReferenceIdeal.S100000x128 .f32) (Wl : FVec Ideal Cert.ReferenceIdeal.S128x128 .f32)
    (b : FVec Ideal Cert.ReferenceIdeal.S128 .f32) (Wr : FVec Ideal Cert.ReferenceIdeal.S128x128 .f32) (n : Fin 100000) (j : Fin 128) :
    Cert.ReferenceIdeal.Term.lin2 A X Wl b Wr (ix2 n j)
      = Cert.KernelIdeal.Term.pre 128 A X (Cert.KernelIdeal.Term.wT128 Wl) (Cert.KernelIdeal.Term.wT128 Wr) (Cert.KernelIdeal.Term.row b) n j := by
  have hl := HostProduct.dotGeneral_nn_apply Cert.ReferenceIdeal.dot_S100000x128_S128x128_S100000x128_1_0_0_1_n_n.wf none A
    (transpose Cert.ReferenceIdeal.S128x128 [1, 0] Wl Cert.ReferenceIdeal.Facts₀.transposes_S128x128_S128x128_1_0) n j
  have hr := HostProduct.dotGeneral_nn_apply Cert.ReferenceIdeal.dot_S100000x128_S128x128_S100000x128_1_0_0_1_n_n.wf none X
    (transpose Cert.ReferenceIdeal.S128x128 [1, 0] Wr Cert.ReferenceIdeal.Facts₀.transposes_S128x128_S128x128_1_0) n j
  have hb := HostBroadcast.row_apply b Cert.ReferenceIdeal.Facts₀.bcast_S128_S1x128_1 Cert.ReferenceIdeal.Facts₀.bcast_S1x128_S100000x128_0_1 n j
  have hk := Layout.shapeCast_row_apply b Cert.KernelIdeal.Facts₀.shapeCasts_S128_S1x128 j
  unfold Cert.ReferenceIdeal.Term.lin2 Cert.KernelIdeal.Term.pre
  rw [addf_apply, addf_apply]
  refine congrArg₂ (· + ·) (congrArg₂ (· + ·) (hl.trans rfl) (hb.trans hk.symm)) (hr.trans rfl)

/-- THE FIRST REGION'S FUNCTION IS THE REFERENCE'S FIRST CONVOLUTION AND UNIT. -/
theorem layer1_eq (A X : FVec Ideal Cert.ReferenceIdeal.S100000x64 .f32) (Wl : FVec Ideal Cert.ReferenceIdeal.S128x64 .f32)
    (b : FVec Ideal Cert.ReferenceIdeal.S128 .f32) (Wr : FVec Ideal Cert.ReferenceIdeal.S128x64 .f32) :
    Cert.KernelIdeal.Term.layer1 A X (Cert.KernelIdeal.Term.wT64 Wl) (Cert.KernelIdeal.Term.row b) (Cert.KernelIdeal.Term.wT64 Wr)
      = Cert.ReferenceIdeal.Term.elu (Cert.ReferenceIdeal.Term.lin1 A X Wl b Wr) := by
  funext i
  obtain ⟨n, j, rfl⟩ : ∃ (n : Fin 100000) (j : Fin 128), i = ix2 n j := ⟨i 0, i 1, eq_ix2 i⟩
  rw [ref_elu_apply, lin1_apply]
  rfl

/-- THE SECOND REGION'S FUNCTION IS THE REFERENCE'S SECOND CONVOLUTION, UNIT AND HEAD. -/
theorem layer2head_eq (A X : FVec Ideal Cert.ReferenceIdeal.S100000x128 .f32) (Wl : FVec Ideal Cert.ReferenceIdeal.S128x128 .f32)
    (b : FVec Ideal Cert.ReferenceIdeal.S128 .f32) (Wr : FVec Ideal Cert.ReferenceIdeal.S128x128 .f32)
    (Wh : FVec Ideal Cert.ReferenceIdeal.S1x128 .f32) (bh : FVec Ideal Cert.ReferenceIdeal.S1 .f32) :
    Cert.KernelIdeal.Term.layer2head A X (Cert.KernelIdeal.Term.wT128 Wl) (Cert.KernelIdeal.Term.row b) (Cert.KernelIdeal.Term.wT128 Wr)
        (Cert.KernelIdeal.Term.whT Wh) (Cert.KernelIdeal.Term.one bh)
      = Cert.ReferenceIdeal.Term.head (Cert.ReferenceIdeal.Term.elu (Cert.ReferenceIdeal.Term.lin2 A X Wl b Wr)) Wh bh := by
  funext i
  obtain ⟨n, z, rfl⟩ : ∃ (n : Fin 100000) (z : Fin 1), i = ix2 n z := ⟨i 0, i 1, eq_ix2 i⟩
  obtain rfl : z = 0 := Subsingleton.elim _ _
  have hd := HostProduct.dotGeneral_nn_apply Cert.ReferenceIdeal.dot_S100000x128_S128x1_S100000x1_1_0_0_1_n_n.wf none
    (Cert.ReferenceIdeal.Term.elu (Cert.ReferenceIdeal.Term.lin2 A X Wl b Wr))
    (transpose Cert.ReferenceIdeal.S128x1 [1, 0] Wh Cert.ReferenceIdeal.Facts₀.transposes_S1x128_S128x1_1_0) n (0 : Fin 1)
  have hb := HostBroadcast.row_apply bh Cert.ReferenceIdeal.Facts₀.bcast_S1_S1x1_1 Cert.ReferenceIdeal.Facts₀.bcast_S1x1_S100000x1_0_1 n (0 : Fin 1)
  have hk := Layout.shapeCast_row_apply bh Cert.KernelIdeal.Facts₀.shapeCasts_S1_S1x1 (0 : Fin 1)
  unfold Cert.ReferenceIdeal.Term.head Cert.KernelIdeal.Term.layer2head
  rw [addf_apply]
  refine congrArg₂ (· + ·) ?_ (hk.trans hb.symm)
  refine Eq.trans ?_ (hd.trans rfl).symm
  refine Finset.sum_congr rfl fun k _ => ?_
  rw [ref_elu_apply, lin2_apply]
  rfl

end Cert.Dense

end
-- ==== Proof.Bridge.lean ====
/-
  The two programs compute one array.

  The kernel program's hidden layer is its first region applied to its weighted neighbour sum and the features; the
  reference's is the unit of its first convolution of the neighbour mean and the features. The neighbour
  aggregations agree for any table, the dense parts agree for any inputs, so the hidden layers are one array — and
  then, the same two steps once more over the hidden layer, so are the results.
-/
import proofs.«142712_j41575283426038_2_alg».proof.Proof.AggregateAt
import proofs.«142712_j41575283426038_2_alg».proof.Proof.Dense

noncomputable section

namespace Cert.Bridge

open Idealize.ShloMosaic

variable [Cert.KernelIdeal.Facts] [Cert.ReferenceIdeal.Facts]

/-- The hidden layers are one array. -/
theorem hidden_eq (x : FVec Ideal Cert.KernelIdeal.S100000x64 .f32) (ei : IVec Cert.KernelIdeal.S2x1600000 32)
    (W1l : FVec Ideal Cert.KernelIdeal.S128x64 .f32) (b1l : FVec Ideal Cert.KernelIdeal.S128 .f32)
    (W1r : FVec Ideal Cert.KernelIdeal.S128x64 .f32) :
    Cert.KernelIdeal.Term.hidden x ei W1l b1l W1r = Cert.ReferenceIdeal.Term.hidden x ei W1l b1l W1r := by
  unfold Cert.KernelIdeal.Term.hidden Cert.ReferenceIdeal.Term.hidden
  rw [AggregateAt.agg64_eq]
  exact Dense.layer1_eq _ x W1l b1l W1r

/-- THE RESULTS ARE ONE ARRAY. -/
theorem out_eq (x : FVec Ideal Cert.KernelIdeal.S100000x64 .f32) (ei : IVec Cert.KernelIdeal.S2x1600000 32)
    (W1l : FVec Ideal Cert.KernelIdeal.S128x64 .f32) (b1l : FVec Ideal Cert.KernelIdeal.S128 .f32)
    (W1r : FVec Ideal Cert.KernelIdeal.S128x64 .f32) (W2l : FVec Ideal Cert.KernelIdeal.S128x128 .f32)
    (b2l : FVec Ideal Cert.KernelIdeal.S128 .f32) (W2r : FVec Ideal Cert.KernelIdeal.S128x128 .f32)
    (Wh : FVec Ideal Cert.KernelIdeal.S1x128 .f32) (bh : FVec Ideal Cert.KernelIdeal.S1 .f32) :
    Cert.KernelIdeal.Term.kernOut x ei W1l b1l W1r W2l b2l W2r Wh bh
      = Cert.ReferenceIdeal.Term.refOut x ei W1l b1l W1r W2l b2l W2r Wh bh := by
  unfold Cert.KernelIdeal.Term.kernOut Cert.ReferenceIdeal.Term.refOut
  rw [hidden_eq, AggregateAt.agg128_eq]
  exact Dense.layer2head_eq _ _ W2l b2l W2r Wh bh

end Cert.Bridge

end
-- ==== Proof.lean ====
/-
  The certificate: a two-layer mean-aggregating graph convolution with a one-column head, computed by a program of
  two tiled regions among host gather / scatter-add operations, against its plain array reference.

  At the ideal instance both programs compute ONE array of the ten arguments:

  * the neighbour aggregation — the kernel program weights every gathered source row by `1 / max (deg) 1` of the
    edge's target before the scatter-add, the reference divides the scatter-added rows by `max (deg) 1` afterwards —
    agrees for ARBITRARY extended-real tables, because multiplying by a nonnegative real distributes over every
    finite sum of extended reals (`Aggregate.lean` over `LibScaledSum.lean`; an edge reaches row `n` only when its
    target word names `n`, and then the normalised, clamped target is `n` as well: `AggregateAt.lean`);
  * the dense part — two matrix products, a bias, the exponential linear unit in two spellings, and the head's
    product — is one function entry by entry (`Dense.lean`);
  * hence the hidden layers, and then the results, are equal (`Bridge.lean`).

  No step needs the inputs finite, so the precondition is never opened. The kernel program's run names its result
  through the regions' block-by-block write-backs (`KerRun.lean` over `KerRegion0.lean`, `KerRegion1.lean`); the
  reference's run is read back operation by operation (`RefRun.lean`, `RefRunValue.lean`). The idealization rewrote
  nothing, so `preserves` is `True`.
-/
import proofs.«142712_j41575283426038_2_alg».proof.Defs
import proofs.«142712_j41575283426038_2_alg».proof.Proof.Gen.Kernel
import proofs.«142712_j41575283426038_2_alg».proof.Proof.Gen.Kernel.Frame
import proofs.«142712_j41575283426038_2_alg».proof.Proof.Gen.KernelIdeal
import proofs.«142712_j41575283426038_2_alg».proof.Proof.Gen.KernelIdeal.Frame
import proofs.«142712_j41575283426038_2_alg».proof.Proof.Gen.ReferenceIdeal
import proofs.«142712_j41575283426038_2_alg».proof.Proof.Gen.Pre_finite_inputs
import proofs.«142712_j41575283426038_2_alg».proof.Proof.KerRun
import proofs.«142712_j41575283426038_2_alg».proof.Proof.KerRegion0
import proofs.«142712_j41575283426038_2_alg».proof.Proof.KerRegion1
import proofs.«142712_j41575283426038_2_alg».proof.Proof.RefRunValue
import proofs.«142712_j41575283426038_2_alg».proof.Proof.Bridge

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.HandRun.run m ρ)

/-- From memories that agree on the arguments both programs end with the one array `kernOut` of the arguments: the
    kernel program by its run, the reference by its run and the equality of the two functions. -/
theorem algebraic : Cert.algebraic_KernelIdeal_ReferenceIdeal := by
  intro m ρ m' ρ' _ hagree
  refine ⟨_, Cert.KernelIdeal.HandRun.run m ρ (fun V c => Cert.KernelIdeal.Region0.final V c)
    (fun V c => Cert.KernelIdeal.Region1.final V c), ?_⟩
  refine (θ_run Cert.ReferenceIdeal.defs _ _).mono (fun _ h c => ⟨(h c).1.trans ?_, (h c).2⟩)
    (Cert.ReferenceIdeal.HandRun.run m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2]
  exact (Cert.Bridge.out_eq _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
